-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x2048 : Shape := ⟨3, ![16, 8, 2048]⟩
abbrev S16x16x4096x128 : Shape := ⟨4, ![16, 16, 4096, 128]⟩
abbrev S6144x2048 : Shape := ⟨2, ![6144, 2048]⟩
abbrev S2048x2048 : Shape := ⟨2, ![2048, 2048]⟩
abbrev S_ : Shape := ⟨0, ![]⟩

class Facts : Prop where
  bcast_S_S16x8x2048 : S_.BroadcastsInDim S16x8x2048 (![] : Fin 0 → Fin S16x8x2048.rank)
  reducesTo_S16x8x2048_S_d0_1_2 : S16x8x2048.ReducesTo [0, 1, 2] S_
  h_S_ : 0 < S_.numel
  bcast_S_S16x16x4096x128 : S_.BroadcastsInDim S16x16x4096x128 (![] : Fin 0 → Fin S16x16x4096x128.rank)
  reducesTo_S16x16x4096x128_S_d0_1_2_3 : S16x16x4096x128.ReducesTo [0, 1, 2, 3] S_
  bcast_S_S6144x2048 : S_.BroadcastsInDim S6144x2048 (![] : Fin 0 → Fin S6144x2048.rank)
  reducesTo_S6144x2048_S_d0_1 : S6144x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S16x8x2048 .f32) (main_arg1 : FVec F S16x16x4096x128 .f32) (main_arg2 : FVec F S16x16x4096x128 .f32) (main_arg3 : FVec F S6144x2048 .f32) (main_arg4 : FVec F S2048x2048 .f32) : IVec S_ 1 :=
  let main_v0 : FVec F S16x8x2048 .f32 := Host.absf main_arg0
  let main_cst : FVec F S_ .f32 := constant S_ .f32 0x7F800000#32
  let main_v1 : FVec F S16x8x2048 .f32 := broadcastInDim S16x8x2048 ![] bcast_S_S16x8x2048 main_cst
  let main_v2 : IVec S16x8x2048 1 := cmpf .olt main_v0 main_v1
  let main_c : IVec S_ 1 := constantI S_ 1 1#1
  let main_v3 : IVec S_ 1 := (fun x v => Host.reduce IntOp.andi x v reducesTo_S16x8x2048_S_d0_1_2 h_S_) main_v2 main_c
  let main_v4 : FVec F S16x16x4096x128 .f32 := Host.absf main_arg1
  let main_cst_0 : FVec F S_ .f32 := constant S_ .f32 0x7F800000#32
  let main_v5 : FVec F S16x16x4096x128 .f32 := broadcastInDim S16x16x4096x128 ![] bcast_S_S16x16x4096x128 main_cst_0
  let main_v6 : IVec S16x16x4096x128 1 := cmpf .olt main_v4 main_v5
  let main_c_1 : IVec S_ 1 := constantI S_ 1 1#1
  let main_v7 : IVec S_ 1 := (fun x v => Host.reduce IntOp.andi x v reducesTo_S16x16x4096x128_S_d0_1_2_3 h_S_) main_v6 main_c_1
  let main_v8 : IVec S_ 1 := andi main_v3 main_v7
  let main_v9 : FVec F S16x16x4096x128 .f32 := Host.absf main_arg2
  let main_cst_2 : FVec F S_ .f32 := constant S_ .f32 0x7F800000#32
  let main_v10 : FVec F S16x16x4096x128 .f32 := broadcastInDim S16x16x4096x128 ![] bcast_S_S16x16x4096x128 main_cst_2
  let main_v11 : IVec S16x16x4096x128 1 := cmpf .olt main_v9 main_v10
  let main_c_3 : IVec S_ 1 := constantI S_ 1 1#1
  let main_v12 : IVec S_ 1 := (fun x v => Host.reduce IntOp.andi x v reducesTo_S16x16x4096x128_S_d0_1_2_3 h_S_) main_v11 main_c_3
  let main_v13 : IVec S_ 1 := andi main_v8 main_v12
  let main_v14 : FVec F S6144x2048 .f32 := Host.absf main_arg3
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg4 main_v13 main_v16
-- ==== Kernel.lean ====
abbrev S16x8x2048 : Shape := ⟨3, ![16, 8, 2048]⟩
abbrev S16x16x4096x128 : Shape := ⟨4, ![16, 16, 4096, 128]⟩
abbrev S6144x2048 : Shape := ⟨2, ![6144, 2048]⟩
abbrev S2048x2048 : Shape := ⟨2, ![2048, 2048]⟩
abbrev S128x2048 : Shape := ⟨2, ![128, 2048]⟩
abbrev S128x6144 : Shape := ⟨2, ![128, 6144]⟩
abbrev S768x2048 : Shape := ⟨2, ![768, 2048]⟩
abbrev S128x768 : Shape := ⟨2, ![128, 768]⟩
abbrev S16x16x4104x128 : Shape := ⟨4, ![16, 16, 4104, 128]⟩
abbrev S8x256 : Shape := ⟨2, ![8, 256]⟩
abbrev S1x2x4096x128 : Shape := ⟨4, ![1, 2, 4096, 128]⟩
abbrev S1x2x4104x128 : Shape := ⟨4, ![1, 2, 4104, 128]⟩
abbrev S8x2x128 : Shape := ⟨3, ![8, 2, 128]⟩
abbrev S2x8x128 : Shape := ⟨3, ![2, 8, 128]⟩
abbrev S2x4096x128 : Shape := ⟨3, ![2, 4096, 128]⟩
abbrev S2x8x4096 : Shape := ⟨3, ![2, 8, 4096]⟩
abbrev S2x8x8 : Shape := ⟨3, ![2, 8, 8]⟩
abbrev S2x8 : Shape := ⟨2, ![2, 8]⟩
abbrev S2x8x1 : Shape := ⟨3, ![2, 8, 1]⟩
abbrev S1x2x8x128 : Shape := ⟨4, ![1, 2, 8, 128]⟩
abbrev S1024x2048 : Shape := ⟨2, ![1024, 2048]⟩
abbrev S128x1024 : Shape := ⟨2, ![128, 1024]⟩

abbrev nBuf : Space → Nat
  | .hbm => 12
  | .vmem => 26
  | .smem => 0
  | _ => 0

abbrev bufTy : (tb : Table) → Fin (tcTables nBuf tb) → BufTy
  | .hbm, ⟨0, _⟩ => ⟨S16x8x2048, .f32⟩
  | .hbm, ⟨1, _⟩ => ⟨S16x16x4096x128, .f32⟩
  | .hbm, ⟨2, _⟩ => ⟨S16x16x4096x128, .f32⟩
  | .hbm, ⟨3, _⟩ => ⟨S6144x2048, .f32⟩
  | .hbm, ⟨4, _⟩ => ⟨S2048x2048, .f32⟩
  | .hbm, ⟨5, _⟩ => ⟨S128x2048, .f32⟩
  | .hbm, ⟨6, _⟩ => ⟨S128x6144, .f32⟩
  | .hbm, ⟨7, _⟩ => ⟨S128x2048, .f32⟩
  | .hbm, ⟨8, _⟩ => ⟨S16x16x4104x128, .f32⟩
  | .hbm, ⟨9, _⟩ => ⟨S16x16x4104x128, .f32⟩
  | .hbm, ⟨10, _⟩ => ⟨S128x2048, .f32⟩
  | .hbm, ⟨11, _⟩ => ⟨S16x8x2048, .f32⟩
  | .local _ .vmem, ⟨0, _⟩ => ⟨S128x2048, .f32⟩
  | .local _ .vmem, ⟨1, _⟩ => ⟨S768x2048, .f32⟩
  | .local _ .vmem, ⟨2, _⟩ => ⟨S768x2048, .f32⟩
  | .local _ .vmem, ⟨3, _⟩ => ⟨S128x768, .f32⟩
  | .local _ .vmem, ⟨4, _⟩ => ⟨S128x768, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S1x2x4096x128, .f32⟩
  | .local _ .vmem, ⟨12, _⟩ => ⟨S1x2x4096x128, .f32⟩
  | .local _ .vmem, ⟨13, _⟩ => ⟨S1x2x4096x128, .f32⟩
  | .local _ .vmem, ⟨14, _⟩ => ⟨S1x2x4096x128, .f32⟩
  | .local _ .vmem, ⟨15, _⟩ => ⟨S8x256, .f32⟩
  | .local _ .vmem, ⟨16, _⟩ => ⟨S8x256, .f32⟩
  | .local _ .vmem, ⟨17, _⟩ => ⟨S1x2x4104x128, .f32⟩
  | .local _ .vmem, ⟨18, _⟩ => ⟨S1x2x4104x128, .f32⟩
  | .local _ .vmem, ⟨19, _⟩ => ⟨S1x2x4104x128, .f32⟩
  | .local _ .vmem, ⟨20, _⟩ => ⟨S1x2x4104x128, .f32⟩
  | .local _ .vmem, ⟨21, _⟩ => ⟨S128x2048, .f32⟩
  | .local _ .vmem, ⟨22, _⟩ => ⟨S1024x2048, .f32⟩
  | .local _ .vmem, ⟨23, _⟩ => ⟨S1024x2048, .f32⟩
  | .local _ .vmem, ⟨24, _⟩ => ⟨S128x1024, .f32⟩
  | .local _ .vmem, ⟨25, _⟩ => ⟨S128x1024, .f32⟩
  | _, _ => ⟨S16x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2x4104x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2x4104x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S16x8x2048_S128x2048 : S16x8x2048.ShapeCasts S128x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S768x2048_S768x2048_0_0 : ∀ a, (![0, 0] : Fin 2 → Nat) a + S768x2048.size a ≤ S768x2048.size a
  h_S768x2048 : 0 < S768x2048.numel
  inb_S128x768_S128x768_0_0 : ∀ a, (![0, 0] : Fin 2 → Nat) a + S128x768.size a ≤ S128x768.size a
  h_S128x768 : 0 < S128x768.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x2x128 : S8x256.ShapeCasts S8x2x128
  transposes_S8x2x128_p1_0_2_S2x8x128 : S8x2x128.Transposes [1, 0, 2] S2x8x128
  inb_S1x2x4096x128_S1x2x4096x128_0_0_0_0 : ∀ a, (![0, 0, 0, 0] : Fin 4 → Nat) a + S1x2x4096x128.size a ≤ S1x2x4096x128.size a
  h_S1x2x4096x128 : 0 < S1x2x4096x128.numel
  shapeCasts_S1x2x4096x128_S2x4096x128 : S1x2x4096x128.ShapeCasts S2x4096x128
  reduces_S2x8x4096_S2x8 : S2x8x4096.Reduces [2] S2x8
  shapeCasts_S2x8_S2x8x1 : S2x8.ShapeCasts S2x8x1
  reduces_S2x8x8_S2x8 : S2x8x8.Reduces [2] S2x8
  broadcasts_S2x8x1_S2x8x4096 : S2x8x1.Broadcasts S2x8x4096
  broadcasts_S2x8x1_S2x8x8 : S2x8x1.Broadcasts S2x8x8
  inb_S1x2x4104x128_S1x2x4096x128_0_0_0_0 : ∀ a, (![0, 0, 0, 0] : Fin 4 → Nat) a + S1x2x4096x128.size a ≤ S1x2x4104x128.size a
  shapeCasts_S2x4096x128_S1x2x4096x128 : S2x4096x128.ShapeCasts S1x2x4096x128
  inb_S1x2x4104x128_S1x2x8x128_0_0_4096_0 : ∀ a, (![0, 0, 4096, 0] : Fin 4 → Nat) a + S1x2x8x128.size a ≤ S1x2x4104x128.size a
  h_S1x2x8x128 : 0 < S1x2x8x128.numel
  shapeCasts_S1x2x8x128_S2x8x128 : S1x2x8x128.ShapeCasts S2x8x128
  shapeCasts_S2x8x128_S1x2x8x128 : S2x8x128.ShapeCasts S1x2x8x128
  transposes_S2x8x128_p1_0_2_S8x2x128 : S2x8x128.Transposes [1, 0, 2] S8x2x128
  shapeCasts_S8x2x128_S8x256 : S8x2x128.ShapeCasts S8x256
  inb_S1024x2048_S1024x2048_0_0 : ∀ a, (![0, 0] : Fin 2 → Nat) a + S1024x2048.size a ≤ S1024x2048.size a
  h_S1024x2048 : 0 < S1024x2048.numel
  inb_S128x1024_S128x1024_0_0 : ∀ a, (![0, 0] : Fin 2 → Nat) a + S128x1024.size a ≤ S128x1024.size a
  h_S128x1024 : 0 < S128x1024.numel
  shapeCasts_S128x2048_S16x8x2048 : S128x2048.ShapeCasts S16x8x2048
  dot_S128x2048_S768x2048_S128x768_1_1_0_0_n_n_wf : DotDims.WF S128x2048 S768x2048 S128x768 [1] [1] [0] [0] [] []
  dot_S2x8x128_S2x4096x128_S2x8x4096_2_2_1_1_0_0_wf : DotDims.WF S2x8x128 S2x4096x128 S2x8x4096 [2] [2] [1] [1] [0] [0]
  dot_S2x8x128_S2x8x128_S2x8x8_2_2_1_1_0_0_wf : DotDims.WF S2x8x128 S2x8x128 S2x8x8 [2] [2] [1] [1] [0] [0]
  dot_S2x8x4096_S2x4096x128_S2x8x128_2_1_1_2_0_0_wf : DotDims.WF S2x8x4096 S2x4096x128 S2x8x128 [2] [1] [1] [2] [0] [0]
  dot_S2x8x8_S2x8x128_S2x8x128_2_1_1_2_0_0_wf : DotDims.WF S2x8x8 S2x8x128 S2x8x128 [2] [1] [1] [2] [0] [0]
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x2048.size a ≤ S6144x2048.size a
  hwx0_1 : ∀ i : grid0.Coords, EltTy.bits .f32 = 32 ∨ (Rect.block (s := S6144x2048) S768x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x6144.size a
  hwx0_2 : ∀ i : grid0.Coords, EltTy.bits .f32 = 32 ∨ (Rect.block (s := S128x6144) S128x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256.size a ≤ S128x6144.size a
  hwx1_0 : ∀ i : grid1.Coords, EltTy.bits .f32 = 32 ∨ (Rect.block (s := S128x6144) S8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S128x6144.size a
  hwx1_1 : ∀ i : grid1.Coords, EltTy.bits .f32 = 32 ∨ (Rect.block (s := S128x6144) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S128x6144.size a
  hwx1_2 : ∀ i : grid1.Coords, EltTy.bits .f32 = 32 ∨ (Rect.block (s := S128x6144) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x4096x128.size a ≤ S16x16x4096x128.size a
  hwx1_3 : ∀ i : grid1.Coords, EltTy.bits .f32 = 32 ∨ (Rect.block (s := S16x16x4096x128) S1x2x4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x4096x128.size a ≤ S16x16x4096x128.size a
  hwx1_4 : ∀ i : grid1.Coords, EltTy.bits .f32 = 32 ∨ (Rect.block (s := S16x16x4096x128) S1x2x4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S128x2048.size a
  hwx1_5 : ∀ i : grid1.Coords, EltTy.bits .f32 = 32 ∨ (Rect.block (s := S128x2048) S8x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x4104x128.size a ≤ S16x16x4104x128.size a
  hwx1_6 : ∀ i : grid1.Coords, EltTy.bits .f32 = 32 ∨ (Rect.block (s := S16x16x4104x128) S1x2x4104x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x4104x128.size a ≤ S16x16x4104x128.size a
  hwx1_7 : ∀ i : grid1.Coords, EltTy.bits .f32 = 32 ∨ (Rect.block (s := S16x16x4104x128) S1x2x4104x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S128x2048.size a
  hwx2_0 : ∀ i : grid2.Coords, EltTy.bits .f32 = 32 ∨ (Rect.block (s := S128x2048) S128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .f32 = 32 ∨ (Rect.block (s := S2048x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1024.size a ≤ S128x2048.size a
  hwx2_2 : ∀ i : grid2.Coords, EltTy.bits .f32 = 32 ∨ (Rect.block (s := S128x2048) S128x1024.size (cc2_transform_2 i) (hinb2_2 i)).WholeWords (EltTy.packing .f32)

variable [Facts₀]

def dot_S128x2048_S768x2048_S128x768_1_1_0_0_n_n : DotDims S128x2048 S768x2048 S128x768 where
  lhsContracting := [1]
  rhsContracting := [1]
  lhsNonContracting := [0]
  rhsNonContracting := [0]
  lhsBatch := []
  rhsBatch := []
  wf := dot_S128x2048_S768x2048_S128x768_1_1_0_0_n_n_wf
def dot_S2x8x128_S2x4096x128_S2x8x4096_2_2_1_1_0_0 : DotDims S2x8x128 S2x4096x128 S2x8x4096 where
  lhsContracting := [2]
  rhsContracting := [2]
  lhsNonContracting := [1]
  rhsNonContracting := [1]
  lhsBatch := [0]
  rhsBatch := [0]
  wf := dot_S2x8x128_S2x4096x128_S2x8x4096_2_2_1_1_0_0_wf
def dot_S2x8x128_S2x8x128_S2x8x8_2_2_1_1_0_0 : DotDims S2x8x128 S2x8x128 S2x8x8 where
  lhsContracting := [2]
  rhsContracting := [2]
  lhsNonContracting := [1]
  rhsNonContracting := [1]
  lhsBatch := [0]
  rhsBatch := [0]
  wf := dot_S2x8x128_S2x8x128_S2x8x8_2_2_1_1_0_0_wf
def dot_S2x8x4096_S2x4096x128_S2x8x128_2_1_1_2_0_0 : DotDims S2x8x4096 S2x4096x128 S2x8x128 where
  lhsContracting := [2]
  rhsContracting := [1]
  lhsNonContracting := [1]
  rhsNonContracting := [2]
  lhsBatch := [0]
  rhsBatch := [0]
  wf := dot_S2x8x4096_S2x4096x128_S2x8x128_2_1_1_2_0_0_wf
def dot_S2x8x8_S2x8x128_S2x8x128_2_1_1_2_0_0 : DotDims S2x8x8 S2x8x128 S2x8x128 where
  lhsContracting := [2]
  rhsContracting := [1]
  lhsNonContracting := [1]
  rhsNonContracting := [2]
  lhsBatch := [0]
  rhsBatch := [0]
  wf := dot_S2x8x8_S2x8x128_S2x8x128_2_1_1_2_0_0_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_v0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x2x4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x2x4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_0) S8x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2_1) S1x2x4104x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2_2) S1x2x4104x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v2_0) S128x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x8x2048 : Shape := ⟨3, ![16, 8, 2048]⟩
abbrev S16x16x4096x128 : Shape := ⟨4, ![16, 16, 4096, 128]⟩
abbrev S6144x2048 : Shape := ⟨2, ![6144, 2048]⟩
abbrev S2048x2048 : Shape := ⟨2, ![2048, 2048]⟩
abbrev S16x8x6144 : Shape := ⟨3, ![16, 8, 6144]⟩
abbrev S16x8x16x128 : Shape := ⟨4, ![16, 8, 16, 128]⟩
abbrev S16x16x8x128 : Shape := ⟨4, ![16, 16, 8, 128]⟩
abbrev S16x16x4104x128 : Shape := ⟨4, ![16, 16, 4104, 128]⟩
abbrev S16x16x8x4104 : Shape := ⟨4, ![16, 16, 8, 4104]⟩
abbrev S_ : Shape := ⟨0, ![]⟩
abbrev S16x16x8 : Shape := ⟨3, ![16, 16, 8]⟩
abbrev S16x16x8x1 : Shape := ⟨4, ![16, 16, 8, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x8x2048, .f32⟩
  | .hbm, ⟨1, _⟩ => ⟨S16x16x4096x128, .f32⟩
  | .hbm, ⟨2, _⟩ => ⟨S16x16x4096x128, .f32⟩
  | .hbm, ⟨3, _⟩ => ⟨S6144x2048, .f32⟩
  | .hbm, ⟨4, _⟩ => ⟨S2048x2048, .f32⟩
  | .hbm, ⟨5, _⟩ => ⟨S16x8x6144, .f32⟩
  | .hbm, ⟨6, _⟩ => ⟨S16x8x2048, .f32⟩
  | .hbm, ⟨7, _⟩ => ⟨S16x8x2048, .f32⟩
  | .hbm, ⟨8, _⟩ => ⟨S16x8x2048, .f32⟩
  | .hbm, ⟨9, _⟩ => ⟨S16x8x16x128, .f32⟩
  | .hbm, ⟨10, _⟩ => ⟨S16x16x8x128, .f32⟩
  | .hbm, ⟨11, _⟩ => ⟨S16x8x16x128, .f32⟩
  | .hbm, ⟨12, _⟩ => ⟨S16x16x8x128, .f32⟩
  | .hbm, ⟨13, _⟩ => ⟨S16x8x16x128, .f32⟩
  | .hbm, ⟨14, _⟩ => ⟨S16x16x8x128, .f32⟩
  | .hbm, ⟨15, _⟩ => ⟨S16x16x4104x128, .f32⟩
  | .hbm, ⟨16, _⟩ => ⟨S16x16x4104x128, .f32⟩
  | .hbm, ⟨17, _⟩ => ⟨S16x16x8x4104, .f32⟩
  | .hbm, ⟨18, _⟩ => ⟨S_, .f32⟩
  | .hbm, ⟨19, _⟩ => ⟨S16x16x8x4104, .f32⟩
  | .hbm, ⟨20, _⟩ => ⟨S16x16x8x4104, .f32⟩
  | .hbm, ⟨21, _⟩ => ⟨S_, .f32⟩
  | .hbm, ⟨22, _⟩ => ⟨S16x16x8, .f32⟩
  | .hbm, ⟨23, _⟩ => ⟨S_, .f32⟩
  | .hbm, ⟨24, _⟩ => ⟨S16x16x8, .f32⟩
  | .hbm, ⟨25, _⟩ => ⟨S16x16x8, .f32⟩
  | .hbm, ⟨26, _⟩ => ⟨S16x16x8x1, .f32⟩
  | .hbm, ⟨27, _⟩ => ⟨S16x16x8x4104, .f32⟩
  | .hbm, ⟨28, _⟩ => ⟨S16x16x8x4104, .f32⟩
  | .hbm, ⟨29, _⟩ => ⟨S16x16x8x4104, .f32⟩
  | .hbm, ⟨30, _⟩ => ⟨S_, .f32⟩
  | .hbm, ⟨31, _⟩ => ⟨S16x16x8, .f32⟩
  | .hbm, ⟨32, _⟩ => ⟨S16x16x8x1, .f32⟩
  | .hbm, ⟨33, _⟩ => ⟨S16x16x8x4104, .f32⟩
  | .hbm, ⟨34, _⟩ => ⟨S16x16x8x4104, .f32⟩
  | .hbm, ⟨35, _⟩ => ⟨S16x16x8x128, .f32⟩
  | .hbm, ⟨36, _⟩ => ⟨S16x8x16x128, .f32⟩
  | .hbm, ⟨37, _⟩ => ⟨S16x8x2048, .f32⟩
  | .hbm, ⟨38, _⟩ => ⟨S16x8x2048, .f32⟩
  | _, _ => ⟨S16x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  slices_S16x8x6144_S16x8x2048_0_0_0 : S16x8x6144.Slices ![0, 0, 0] S16x8x2048
  slices_S16x8x6144_S16x8x2048_0_0_2048 : S16x8x6144.Slices ![0, 0, 2048] S16x8x2048
  slices_S16x8x6144_S16x8x2048_0_0_4096 : S16x8x6144.Slices ![0, 0, 4096] S16x8x2048
  shapeCasts_S16x8x2048_S16x8x16x128 : S16x8x2048.ShapeCasts S16x8x16x128
  transposes_S16x8x16x128_S16x16x8x128_0_2_1_3 : S16x8x16x128.Transposes [0, 2, 1, 3] S16x16x8x128
  concatenates_S16x16x4096x128_S16x16x8x128_S16x16x4104x128_d2 : Shape.Concatenates [S16x16x4096x128, S16x16x8x128] S16x16x4104x128 2
  bcast_S_S16x16x8x4104 : S_.BroadcastsInDim S16x16x8x4104 (![] : Fin 0 → Fin S16x16x8x4104.rank)
  reducesTo_S16x16x8x4104_S16x16x8_d3 : S16x16x8x4104.ReducesTo [3] S16x16x8
  h_S_ : 0 < S_.numel
  bcast_S_S16x16x8 : S_.BroadcastsInDim S16x16x8 (![] : Fin 0 → Fin S16x16x8.rank)
  bcast_S16x16x8_S16x16x8x1_0_1_2 : S16x16x8.BroadcastsInDim S16x16x8x1 (![0, 1, 2] : Fin 3 → Fin S16x16x8x1.rank)
  bcast_S16x16x8x1_S16x16x8x4104_0_1_2_3 : S16x16x8x1.BroadcastsInDim S16x16x8x4104 (![0, 1, 2, 3] : Fin 4 → Fin S16x16x8x4104.rank)
  transposes_S16x16x8x128_S16x8x16x128_0_2_1_3 : S16x16x8x128.Transposes [0, 2, 1, 3] S16x8x16x128
  shapeCasts_S16x8x16x128_S16x8x2048 : S16x8x16x128.ShapeCasts S16x8x2048
  dot_S16x8x2048_S6144x2048_S16x8x6144_2_1_01_0_n_n_wf : DotDims.WF S16x8x2048 S6144x2048 S16x8x6144 [2] [1] [0, 1] [0] [] []
  dot_S16x16x8x128_S16x16x4104x128_S16x16x8x4104_3_3_2_2_01_01_wf : DotDims.WF S16x16x8x128 S16x16x4104x128 S16x16x8x4104 [3] [3] [2] [2] [0, 1] [0, 1]
  dot_S16x16x8x4104_S16x16x4104x128_S16x16x8x128_3_2_2_3_01_01_wf : DotDims.WF S16x16x8x4104 S16x16x4104x128 S16x16x8x128 [3] [2] [2] [3] [0, 1] [0, 1]
  dot_S16x8x2048_S2048x2048_S16x8x2048_2_1_01_0_n_n_wf : DotDims.WF S16x8x2048 S2048x2048 S16x8x2048 [2] [1] [0, 1] [0] [] []

variable [Facts₀]

def dot_S16x8x2048_S6144x2048_S16x8x6144_2_1_01_0_n_n : DotDims S16x8x2048 S6144x2048 S16x8x6144 where
  lhsContracting := [2]
  rhsContracting := [1]
  lhsNonContracting := [0, 1]
  rhsNonContracting := [0]
  lhsBatch := []
  rhsBatch := []
  wf := dot_S16x8x2048_S6144x2048_S16x8x6144_2_1_01_0_n_n_wf
def dot_S16x16x8x128_S16x16x4104x128_S16x16x8x4104_3_3_2_2_01_01 : DotDims S16x16x8x128 S16x16x4104x128 S16x16x8x4104 where
  lhsContracting := [3]
  rhsContracting := [3]
  lhsNonContracting := [2]
  rhsNonContracting := [2]
  lhsBatch := [0, 1]
  rhsBatch := [0, 1]
  wf := dot_S16x16x8x128_S16x16x4104x128_S16x16x8x4104_3_3_2_2_01_01_wf
def dot_S16x16x8x4104_S16x16x4104x128_S16x16x8x128_3_2_2_3_01_01 : DotDims S16x16x8x4104 S16x16x4104x128 S16x16x8x128 where
  lhsContracting := [3]
  rhsContracting := [2]
  lhsNonContracting := [2]
  rhsNonContracting := [3]
  lhsBatch := [0, 1]
  rhsBatch := [0, 1]
  wf := dot_S16x16x8x4104_S16x16x4104x128_S16x16x8x128_3_2_2_3_01_01_wf
def dot_S16x8x2048_S2048x2048_S16x8x2048_2_1_01_0_n_n : DotDims S16x8x2048 S2048x2048 S16x8x2048 where
  lhsContracting := [2]
  rhsContracting := [1]
  lhsNonContracting := [0, 1]
  rhsNonContracting := [0]
  lhsBatch := []
  rhsBatch := []
  wf := dot_S16x8x2048_S2048x2048_S16x8x2048_2_1_01_0_n_n_wf

class Facts : Prop extends Facts₀ where

variable [Facts]
-- ==== Proof.KB.Reg0.lean ====
/-
  The first projection kernel (a row block of the activations times a block of 768 weight rows) at a generic
  grid point, over any contents `V` of the buffers at the region's entry: what each window's block is, what the
  body leaves in the output window's buffer (one store, of the product of the two loaded blocks), the body's
  triple, the proof data of the pipeline and its body obligation.
-/
import proofs.«176267_j6640019439658_2_alg».proof.Proof.Gen.Kernel.Launch
import proofs.«176267_j6640019439658_2_alg».proof.Proof.Gen.Kernel.Skeleton
import proofs.«176267_j6640019439658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S128x2048 := Rect.unit (s := S128x2048) ![0, 0] S128x2048.size inb_S128x2048_S128x2048_0_0
abbrev r0_b : Rect S768x2048 := Rect.unit (s := S768x2048) ![0, 0] S768x2048.size inb_S768x2048_S768x2048_0_0
abbrev r0_c : Rect S128x768 := Rect.unit (s := S128x768) ![0, 0] S128x768.size inb_S128x768_S128x768_0_0

/-- The output window's buffer after the body: its one store, of the product of the two loaded blocks. -/
def out0_2 (x0 : Vec F S128x2048 .f32) (x1 : Vec F S768x2048 .f32) : Vec F S128x768 .f32 :=
  View.canon [⟨r0_c, k0_pay1 (View.ld x0 r0_a) (View.ld x1 r0_b)⟩]

/-- The store covers the buffer. -/
theorem cover0_2 (p0 : Vec F S128x768 .f32) (y : S128x768.Idx) :
    ∃ pc ∈ ([⟨r0_c, p0⟩] : List (View.Piece (Elt F) S128x768 .f32)), y ∈ pc.1.set :=
  View.cover_of_tiled [⟨r0_c, p0⟩] S128x768.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S128x2048 .f32) (harg1 : arg1.IsWhole)
    (arg2 : Memref sig .tc .vmem S768x2048 .f32) (harg2 : arg2.IsWhole) (arg3 : Memref sig .tc .vmem S128x768 .f32) (harg3 : arg3.IsWhole)
    (x0 : Vec F S128x2048 .f32) (x1 : Vec F S768x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the input blocks; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg2.lean ====
/-
  The output projection kernel (the attention rows times a block of 1024 weight rows) at a generic
  grid point, over any contents `V` of the buffers at the region's entry: what each window's block is, what the
  body leaves in the output window's buffer (one store, of the product of the two loaded blocks), the body's
  triple, the proof data of the pipeline and its body obligation.
-/
import proofs.«176267_j6640019439658_2_alg».proof.Proof.Gen.Kernel.Launch
import proofs.«176267_j6640019439658_2_alg».proof.Proof.Gen.Kernel.Skeleton
import proofs.«176267_j6640019439658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S128x2048 := Rect.unit (s := S128x2048) ![0, 0] S128x2048.size inb_S128x2048_S128x2048_0_0
abbrev r2_b : Rect S1024x2048 := Rect.unit (s := S1024x2048) ![0, 0] S1024x2048.size inb_S1024x2048_S1024x2048_0_0
abbrev r2_c : Rect S128x1024 := Rect.unit (s := S128x1024) ![0, 0] S128x1024.size inb_S128x1024_S128x1024_0_0

/-- The output window's buffer after the body: its one store, of the product of the two loaded blocks. -/
def out2_2 (x0 : Vec F S128x2048 .f32) (x1 : Vec F S1024x2048 .f32) : Vec F S128x1024 .f32 :=
  View.canon [⟨r2_c, k2_pay1 (View.ld x0 r2_a) (View.ld x1 r2_b)⟩]

/-- The store covers the buffer. -/
theorem cover2_2 (p0 : Vec F S128x1024 .f32) (y : S128x1024.Idx) :
    ∃ pc ∈ ([⟨r2_c, p0⟩] : List (View.Piece (Elt F) S128x1024 .f32)), y ∈ pc.1.set :=
  View.cover_of_tiled [⟨r2_c, p0⟩] S128x1024.size (by rfl) y

/-! ## The body's triple -/

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords) (arg1 : Memref sig .tc .vmem S128x2048 .f32) (harg1 : arg1.IsWhole)
    (arg2 : Memref sig .tc .vmem S1024x2048 .f32) (harg2 : arg2.IsWhole) (arg3 : Memref sig .tc .vmem S128x1024 .f32) (harg3 : arg3.IsWhole)
    (x0 : Vec F S128x2048 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t`
    each input's buffer at its block and the output's at `out2_2` of the input blocks; the class's invariant (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg1.lean ====
/-
  The attention kernel (two heads of one batch row per grid point: the scores of the eight new queries against the
  cached and the new keys, the softmax over both, the weighted sum of the cached and the new values, and the two
  caches written out with the new rows appended) at a generic grid point, over any contents `V` of the buffers at
  the region's entry: each window's block, what the body leaves in the three output windows' buffers, the body's
  triple, the proof data of the pipeline and its body obligation.
-/
import proofs.«176267_j6640019439658_2_alg».proof.Proof.Gen.Kernel.Launch
import proofs.«176267_j6640019439658_2_alg».proof.Proof.Gen.Kernel.Skeleton
import proofs.«176267_j6640019439658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S8x256 := Rect.unit (s := S8x256) ![0, 0] S8x256.size inb_S8x256_S8x256_0_0
abbrev r1_b : Rect S1x2x4096x128 := Rect.unit (s := S1x2x4096x128) ![0, 0, 0, 0] S1x2x4096x128.size inb_S1x2x4096x128_S1x2x4096x128_0_0_0_0
/-- The cached rows of a cache output's buffer, -/
abbrev r1_c : Rect S1x2x4104x128 := Rect.unit (s := S1x2x4104x128) ![0, 0, 0, 0] S1x2x4096x128.size inb_S1x2x4104x128_S1x2x4096x128_0_0_0_0
/-- and its eight appended rows. -/
abbrev r1_d : Rect S1x2x4104x128 := Rect.unit (s := S1x2x4104x128) ![0, 0, 4096, 0] S1x2x8x128.size inb_S1x2x4104x128_S1x2x8x128_0_0_4096_0

/-! ## What the body leaves in each output window's buffer -/

/-- The attention rows: one store, of the softmax-weighted values of the two heads laid side by side. -/
def out1_5 (x0 : Vec F S8x256 .f32) (x1 : Vec F S8x256 .f32) (x2 : Vec F S8x256 .f32) (x3 : Vec F S1x2x4096x128 .f32) (x4 : Vec F S1x2x4096x128 .f32) : Vec F S8x256 .f32 :=
  View.canon [⟨r1_a, k1_pay5 (k1_pay8 (View.ld x2 r1_a)) (k1_pay10 (View.ld x4 r1_b))
    (k1_pay14 (View.ld x0 r1_a) (View.ld x1 r1_a) (View.ld x3 r1_b)) (k1_pay15 (View.ld x0 r1_a) (View.ld x1 r1_a) (View.ld x3 r1_b))
    (k1_pay16 (View.ld x0 r1_a) (View.ld x1 r1_a) (View.ld x3 r1_b)) (k1_pay17 (View.ld x0 r1_a) (View.ld x1 r1_a) (View.ld x3 r1_b))⟩]

/-- The key cache: the cached rows, then the new keys appended (the later store first). -/
def out1_6 (x1 : Vec F S8x256 .f32) (x3 : Vec F S1x2x4096x128 .f32) : Vec F S1x2x4104x128 .f32 :=
  View.canon [⟨r1_d, k1_pay2 (k1_pay7 (View.ld x1 r1_a))⟩, ⟨r1_c, k1_pay1 (k1_pay9 (View.ld x3 r1_b))⟩]

/-- The value cache: the cached rows, then the new values appended. -/
def out1_7 (x2 : Vec F S8x256 .f32) (x4 : Vec F S1x2x4096x128 .f32) : Vec F S1x2x4104x128 .f32 :=
  View.canon [⟨r1_d, k1_pay4 (k1_pay8 (View.ld x2 r1_a))⟩, ⟨r1_c, k1_pay3 (k1_pay10 (View.ld x4 r1_b))⟩]

theorem cover1_5 (p0 : Vec F S8x256 .f32) (y : S8x256.Idx) :
    ∃ pc ∈ ([⟨r1_a, p0⟩] : List (View.Piece (Elt F) S8x256 .f32)), y ∈ pc.1.set :=
  View.cover_of_tiled [⟨r1_a, p0⟩] S8x256.size (by rfl) y

/-- The cached rows and the appended rows tile a cache buffer. -/
theorem cover1_67 (p1 : Vec F S1x2x8x128 .f32) (p0 : Vec F S1x2x4096x128 .f32) (y : S1x2x4104x128.Idx) :
    ∃ pc ∈ ([⟨r1_d, p1⟩, ⟨r1_c, p0⟩] : List (View.Piece (Elt F) S1x2x4104x128 .f32)), y ∈ pc.1.set :=
  View.cover_of_tiledBy [⟨r1_d, p1⟩, ⟨r1_c, p0⟩] ![1, 2, 8, 128] (by sl_kernel_rfl) y

/-! ## The body's triple -/

set_option maxHeartbeats 4000000 in
/-- The body on whole staging memrefs, the inputs' at contents `x0 … x4` and the outputs' at anything, runs to the
    continuation holding the inputs' as they were and the outputs' at `out1_5`, `out1_6`, `out1_7` of the inputs'. -/
theorem sound_kernel1 (c : Dev nD) (E : Set ℕ) (i : grid1.Coords) (arg2 : Memref sig .tc .vmem S8x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x2x4096x128 .f32) (harg5 : arg5.IsWhole) (arg6 : Memref sig .tc .vmem S1x2x4096x128 .f32) (harg6 : arg6.IsWhole) (arg7 : Memref sig .tc .vmem S8x256 .f32) (harg7 : arg7.IsWhole) (arg8 : Memref sig .tc .vmem S1x2x4104x128 .f32) (harg8 : arg8.IsWhole) (arg9 : Memref sig .tc .vmem S1x2x4104x128 .f32) (harg9 : arg9.IsWhole)
    (x0 : Vec F S8x256 .f32) (x1 : Vec F S8x256 .f32) (x2 : Vec F S8x256 .f32) (x3 : Vec F S1x2x4096x128 .f32) (x4 : Vec F S1x2x4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4) ∗ owns (c : Thread nD τ) arg8 fullShare (out1_6 x1 x3) ∗ owns (c : Thread nD τ) arg9 fullShare (out1_7 x2 x4)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_67 _ _)
  iexists _; isplitr
  swap; · iexact H7
  ipureintro
  exact View.read_writes_eq_canon _ _ _ (cover1_67 _ _)

/-! ## The pipeline's proof data -/

/-- The proof data of the pipeline on core `c`: the arrays as the region finds them; after the body at point `t`
    each input's buffer at its block and each output's at its function of the input blocks; the class's invariant;
    nothing owed. The three query/key/value windows read ONE array (the projection's result), so each holds it at a
    third of the whole share: the left half, and the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 1 t) (iblk1 V c 3 t)
    | ⟨7, _⟩ => out1_7 (iblk1 V c 2 t) (iblk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 3 t) := by dsimp only [dat1]
theorem after1_7 (c : Dev nD) (t : Fin cfg1.N) : (dat1 V c).after 7 t = out1_7 (iblk1 V c 2 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Share1.lean ====
/-
  The attention region's query, key and value windows all read one array, the first projection's result. At the
  region's entry that array's buffer, held whole, is split along its share into three parts, one per window; the
  other arrays are held whole. At the exit the three parts, which the region only read, are joined again, and the
  three output arrays hold what the write-backs left.
-/
import proofs.«176267_j6640019439658_2_alg».proof.Proof.KB.Reg1
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The six distinct buffers behind the region's eight windows. -/
theorem arrRefs1 : (Finset.univ.image (Pipeline.arrRef spec1))
    = ([main_v1, main_arg1, main_arg2, main_v2_0, main_v2_1, main_v2_2] : List (Ref sig .tc)).toFinset := by decide

theorem bigSep_arr1 {M : Type} [URA M] (Φ : Ref sig .tc → sProp M) :
    bigSep (Finset.univ.image (Pipeline.arrRef spec1)) Φ
      = iprop(Φ main_v1 ∗ Φ main_arg1 ∗ Φ main_arg2 ∗ Φ main_v2_0 ∗ Φ main_v2_1 ∗ Φ main_v2_2) :=
  bigSep_eq_bigSepL_of_eq [main_v1, main_arg1, main_arg2, main_v2_0, main_v2_1, main_v2_2] arrRefs1 (by decide) Φ

/-- The windows' arrays, each a whole buffer, at the share its window holds it at. -/
theorem arrays1_eq (c : Dev nD) (G : (w : Fin cfg1.W) → Buf (Elt F) ((cfg1.win w).arr.view.loc (c : Thread nD τ))) :
    (dat1 V c).arrays G
      = bigSep Finset.univ fun w : Fin cfg1.W => (((c : Thread nD τ).loc (Pipeline.arrRef spec1 w)) ↦{(dat1 V c).share w} G w : sProp 𝕄) := by
  unfold Dat.arrays
  exact bigSep_congr fun w _ => by rw [(arr_whole1 w).set_eq_univ]

/-- ENTRY: the six buffers whole at the entry contents make the eight windows' arrays, the shared one split in three. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_eq]
  unfold Pipeline.arrBufs
  rw [bigSep_arr1, bigSep_W1]
  iintro ⟨Hv, Ha1, Ha2, Ho0, Ho1, Ho2⟩
  ihave Hs := (pointsTo_share (PosShare.mem_left_op_right fullShare)).1 $$ Hv
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [Ha1]; · iexact Ha1
  isplitl [Ha2]; · iexact Ha2
  isplitl [Ho0]; · iexact Ho0
  isplitl [Ho1]; · iexact Ho1
  iexact Ho2

theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_of_arrBufs1 V c) .rfl

/-! ## The contents at the exit -/

/-- The buffer contents at the region's exit, from those at its entry: the three output arrays at what the
    write-backs leave. -/
def exitVal1 (c : Dev nD) (W : Valuation τ sig (Elt F)) : Valuation τ sig (Elt F) :=
  Function.update (Function.update (Function.update W main_v2_0 ((dat1 V c).arrAt 5 cfg1.N)) main_v2_1 ((dat1 V c).arrAt 6 cfg1.N))
    main_v2_2 ((dat1 V c).arrAt 7 cfg1.N)

theorem exitVal1_v2_2 (c : Dev nD) (W : Valuation τ sig (Elt F)) : exitVal1 V c W main_v2_2 = (dat1 V c).arrAt 7 cfg1.N := by
  unfold exitVal1; exact Function.update_self ..
theorem exitVal1_v2_1 (c : Dev nD) (W : Valuation τ sig (Elt F)) : exitVal1 V c W main_v2_1 = (dat1 V c).arrAt 6 cfg1.N := by
  unfold exitVal1
  rw [Function.update_of_ne (StableHlo.devRef_ne_of_ne (by decide) : (Proc.devRef .tc main_v2_1 : DevRef τ sig) ≠ Proc.devRef .tc main_v2_2)]
  exact Function.update_self ..
theorem exitVal1_v2_0 (c : Dev nD) (W : Valuation τ sig (Elt F)) : exitVal1 V c W main_v2_0 = (dat1 V c).arrAt 5 cfg1.N := by
  unfold exitVal1
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self ..
theorem exitVal1_of_ne (c : Dev nD) (W : Valuation τ sig (Elt F)) (b : Ref sig .tc) (h0 : b ≠ main_v2_0) (h1 : b ≠ main_v2_1) (h2 : b ≠ main_v2_2) :
    exitVal1 V c W b = W b := by
  unfold exitVal1
  rw [Function.update_of_ne (StableHlo.devRef_ne_of_ne h2 : (Proc.devRef .tc b : DevRef τ sig) ≠ Proc.devRef .tc main_v2_2),
    Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

set_option maxHeartbeats 4000000 in
/-- EXIT: the eight windows' arrays after the last write-back make the six buffers whole again — the three parts of the
    shared array, each still at the entry contents, joined; the outputs at what the write-backs left. -/
theorem arrBufs_of_arrays1 (c : Dev nD) (V' : (b : Ref sig .tc) → Buf (Elt F) ((c : Thread nD τ).loc b))
    (h1 : V' main_v1 = V c main_v1) (ha1 : V' main_arg1 = V c main_arg1) (ha2 : V' main_arg2 = V c main_arg2)
    (h5 : V' main_v2_0 = (dat1 V c).arrAt 5 cfg1.N) (h6 : V' main_v2_1 = (dat1 V c).arrAt 6 cfg1.N) (h7 : V' main_v2_2 = (dat1 V c).arrAt 7 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrays1_eq]
  unfold Pipeline.arrBufs
  rw [bigSep_arr1, bigSep_W1, h1, ha1, ha2, h5, h6, h7,
    (dat1 V c).arrAt_in 0 rfl, (dat1 V c).arrAt_in 1 rfl, (dat1 V c).arrAt_in 2 rfl, (dat1 V c).arrAt_in 3 rfl, (dat1 V c).arrAt_in 4 rfl,
    A_eq1, A_eq1, A_eq1, A_eq1, A_eq1]
  iintro ⟨H0, H1, H2, H3, H4, H5, H6, H7⟩
  have joinR : iprop((((c : Thread nD τ).loc main_v1) ↦{fullShare.right.left} V c main_v1) ∗ (((c : Thread nD τ).loc main_v1) ↦{fullShare.right.right} V c main_v1))
      ⊢ ((((c : Thread nD τ).loc main_v1) ↦{fullShare.right} V c main_v1) : sProp 𝕄) :=
    (pointsTo_share (PosShare.mem_left_op_right fullShare.right)).2
  have joinF : iprop((((c : Thread nD τ).loc main_v1) ↦{fullShare.left} V c main_v1) ∗ (((c : Thread nD τ).loc main_v1) ↦{fullShare.right} V c main_v1))
      ⊢ ((((c : Thread nD τ).loc main_v1) ↦{fullShare} V c main_v1) : sProp 𝕄) :=
    (pointsTo_share (PosShare.mem_left_op_right fullShare)).2
  ihave HR := joinR $$ [H1 H2]
  · isplitl [H1]; · iexact H1
    iexact H2
  ihave Hv := joinF $$ [H0 HR]
  · isplitl [H0]; · iexact H0
    iexact HR
  isplitl [Hv]; · iexact Hv
  isplitl [H3]; · iexact H3
  isplitl [H4]; · iexact H4
  isplitl [H5]; · iexact H5
  isplitl [H6]; · iexact H6
  iexact H7

theorem exit1 (c : Dev nD) (W : Valuation τ sig (Elt F)) (hW : ∀ b : Ref sig .tc, W b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (fun b => exitVal1 V c W b) : sProp 𝕄) := by
  rw [Pipeline.unscopedBufs_split₀ (Ix := Unit) (Name := ℕ) (U := UR sig nD τ) (Lvl := ℕ) cfgs 1 winFacts₀1.arr_unscoped c (fun b => exitVal1 V c W b)]
  refine sep_mono (arrBufs_of_arrays1 V c _ ?_ ?_ ?_ (exitVal1_v2_0 V c W) (exitVal1_v2_1 V c W) (exitVal1_v2_2 V c W)) (Entails.of_eq ?_)
  · exact (exitVal1_of_ne V c W main_v1 (by decide) (by decide) (by decide)).trans (hW _)
  · exact (exitVal1_of_ne V c W main_arg1 (by decide) (by decide) (by decide)).trans (hW _)
  · exact (exitVal1_of_ne V c W main_arg2 (by decide) (by decide) (by decide)).trans (hW _)
  · unfold Pipeline.unscopedRest
    refine bigSep_congr fun b hb => ?_
    have hb' := (Finset.mem_sdiff.mp hb).2
    have hne : ∀ w, Pipeline.arrRef spec1 w ≠ b := fun w e => hb' (Finset.mem_image.mpr ⟨w, Finset.mem_univ _, e⟩)
    show (((c : Thread nD τ).loc b) ↦{fullShare} V c b : sProp 𝕄) = (((c : Thread nD τ).loc b) ↦{fullShare} exitVal1 V c W b)
    rw [exitVal1_of_ne V c W b (fun e => hne 5 e.symm) (fun e => hne 6 e.symm) (fun e => hne 7 e.symm), hW]

end Cert.Kernel.Hand

end
-- ==== Proof.KB.Run.lean ====
/-
  The whole program's run: a reshape of the activations, the three kernel regions, a reshape of the result. The
  contents of every unscoped buffer at each boundary are named by a fold from the launch memory (a host stretch's
  operations applied; a region's output arrays at what its write-backs leave, every other buffer as entered); each
  region is a segment entered from one boundary's contents and left at the next; the launch over the segments gives
  every weakly fair execution's final memory at the last boundary's contents.
-/
import proofs.«176267_j6640019439658_2_alg».proof.Proof.KB.Reg0
import proofs.«176267_j6640019439658_2_alg».proof.Proof.KB.Reg2
import proofs.«176267_j6640019439658_2_alg».proof.Proof.KB.Share1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of the activations (the first projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first projection: its output array at what the write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its three output arrays at what the write-backs leave, every other buffer as entered
    (its input arrays are read only). -/
def W3 (c : Dev nD) : Valuation τ sig (Elt F) := exitVal1 (V2 m ρ) c (W2 m ρ c)
abbrev V3 : (c : Dev nD) → (b : Ref sig .tc) → Buf (Elt F) ((c : Thread nD τ).loc b) := fun c b => W3 m ρ c b

/-- After the output projection. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the reshape of the result: the end. -/
abbrev W5 : Dev nD → Valuation τ sig (Elt F) := fun c => StableHlo.after hostOps3 (W4 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first projection: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its query, key and value windows
    read one array: at entry that array's buffer is split among them along its share, at exit the three parts, each
    still at the entry contents, are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (W2 m ρ c) (fun _ => rfl)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    its final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KB.Walk.lean ====
/-
  The fold of Run.lean read at the references that matter. No host stretch and no region writes an argument, so each
  argument's buffer walks back from the last boundary to the launch memory; each region's entry arrays are the launch
  contents or the previous region's output array after its last write-back; and the results are the attention region's
  two cache outputs and the output projection's array after their last write-backs.
-/
import proofs.«176267_j6640019439658_2_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## One boundary back, at a reference the step does not write -/

/-- The reshape of the activations writes only its result. -/
theorem W1_of (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The attention region changes only its three output arrays. -/
theorem W3_of (c : Dev nD) (b : Ref sig .tc) (h0 : b ≠ main_v2_0) (h1 : b ≠ main_v2_1) (h2 : b ≠ main_v2_2) :
    W3 m ρ c (Proc.devRef .tc b) = W2 m ρ c (Proc.devRef .tc b) := by
  unfold W3; exact exitVal1_of_ne (V2 m ρ) c (W2 m ρ c) b h0 h1 h2

/-- The reshape of the result writes only its result. -/
theorem W5_of (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments end as launched -/

theorem W5_arg0 (c : Dev nD) : W5 m ρ c main_arg0 = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide) (by decide) (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W5_arg1 (c : Dev nD) : W5 m ρ c main_arg1 = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide) (by decide) (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_arg2 (c : Dev nD) : W5 m ρ c main_arg2 = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide) (by decide) (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The weights of the first projection: an input window's array of that region, never written back. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

theorem W5_arg3 (c : Dev nD) : W5 m ρ c main_arg3 = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide) (by decide) (by decide)
    _ = m ((c : Thread nD τ).loc main_arg3) := W2_arg3 m ρ c

/-- The weights of the output projection at the attention region's exit: nothing before has written them. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of m ρ c main_arg4 (by decide) (by decide) (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W5_arg4 (c : Dev nD) : W5 m ρ c main_arg4 = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := (W4_arr m ρ c 1).trans (((dat2 (V3 m ρ) c).arrAt_in 1 rfl _).trans (A_eq2 (V3 m ρ) c 1))
    _ = m ((c : Thread nD τ).loc main_arg4) := W3_arg4 m ρ c

/-! ## Each region's entry arrays -/

/-- The first projection's weights at its entry. -/
theorem V1_arg3 (c : Dev nD) : V1 m ρ c main_arg3 = m ((c : Thread nD τ).loc main_arg3) :=
  (W1_of m ρ c main_arg3 (by decide)).trans rfl

/-- The attention region reads the first projection's output array after its last write-back. -/
theorem V2_v1 (c : Dev nD) : V2 m ρ c main_v1 = (dat0 (V1 m ρ) c).arrAt 2 cfg0.N :=
  W2_arr m ρ c 2

/-- The cached keys at the attention region's entry. -/
theorem V2_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The cached values at the attention region's entry. -/
theorem V2_arg2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The output projection reads the attention region's first output array after its last write-back. -/
theorem V3_v2_0 (c : Dev nD) : V3 m ρ c main_v2_0 = (dat1 (V2 m ρ) c).arrAt 5 cfg1.N := by
  show W3 m ρ c (Proc.devRef .tc main_v2_0) = _
  unfold W3; exact exitVal1_v2_0 (V2 m ρ) c (W2 m ρ c)

/-- The output projection's weights at its entry. -/
theorem V3_arg4 (c : Dev nD) : V3 m ρ c main_arg4 = m ((c : Thread nD τ).loc main_arg4) :=
  W3_arg4 m ρ c

/-! ## The results -/

/-- The key cache result: the attention region's second output array after its last write-back. -/
theorem W5_v2_1 (c : Dev nD) : W5 m ρ c main_v2_1 = (dat1 (V2 m ρ) c).arrAt 6 cfg1.N :=
  calc W5 m ρ c (Proc.devRef .tc main_v2_1)
    _ = W4 m ρ c (Proc.devRef .tc main_v2_1) := W5_of m ρ c main_v2_1 (by decide)
    _ = W3 m ρ c (Proc.devRef .tc main_v2_1) := W4_of_ne m ρ c main_v2_1 (by decide)
    _ = (dat1 (V2 m ρ) c).arrAt 6 cfg1.N := by unfold W3; exact exitVal1_v2_1 (V2 m ρ) c (W2 m ρ c)

/-- The value cache result: the attention region's third output array after its last write-back. -/
theorem W5_v2_2 (c : Dev nD) : W5 m ρ c main_v2_2 = (dat1 (V2 m ρ) c).arrAt 7 cfg1.N :=
  calc W5 m ρ c (Proc.devRef .tc main_v2_2)
    _ = W4 m ρ c (Proc.devRef .tc main_v2_2) := W5_of m ρ c main_v2_2 (by decide)
    _ = W3 m ρ c (Proc.devRef .tc main_v2_2) := W4_of_ne m ρ c main_v2_2 (by decide)
    _ = (dat1 (V2 m ρ) c).arrAt 7 cfg1.N := by unfold W3; exact exitVal1_v2_2 (V2 m ρ) c (W2 m ρ c)

/-- The output projection's array after its last write-back. -/
theorem W4_v3 (c : Dev nD) : W4 m ρ c main_v3 = (dat2 (V3 m ρ) c).arrAt 2 cfg2.N :=
  W4_arr m ρ c 2

end Cert.Kernel.Hand

end
-- ==== Proof.KI.Reg0.lean ====
/-
  The first projection kernel (a row block of the activations times a block of 768 weight rows) at a generic
  grid point, over any contents `V` of the buffers at the region's entry: what each window's block is, what the
  body leaves in the output window's buffer (one store, of the product of the two loaded blocks), the body's
  triple, the proof data of the pipeline and its body obligation.
-/
import proofs.«176267_j6640019439658_2_alg».proof.Proof.Gen.KernelIdeal.Launch
import proofs.«176267_j6640019439658_2_alg».proof.Proof.Gen.KernelIdeal.Skeleton
import proofs.«176267_j6640019439658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_a : Rect S128x2048 := Rect.unit (s := S128x2048) ![0, 0] S128x2048.size inb_S128x2048_S128x2048_0_0
abbrev r0_b : Rect S768x2048 := Rect.unit (s := S768x2048) ![0, 0] S768x2048.size inb_S768x2048_S768x2048_0_0
abbrev r0_c : Rect S128x768 := Rect.unit (s := S128x768) ![0, 0] S128x768.size inb_S128x768_S128x768_0_0

/-- The output window's buffer after the body: its one store, of the product of the two loaded blocks. -/
def out0_2 (x0 : Vec F S128x2048 .f32) (x1 : Vec F S768x2048 .f32) : Vec F S128x768 .f32 :=
  View.canon [⟨r0_c, k0_pay1 (View.ld x0 r0_a) (View.ld x1 r0_b)⟩]

/-- The store covers the buffer. -/
theorem cover0_2 (p0 : Vec F S128x768 .f32) (y : S128x768.Idx) :
    ∃ pc ∈ ([⟨r0_c, p0⟩] : List (View.Piece (Elt F) S128x768 .f32)), y ∈ pc.1.set :=
  View.cover_of_tiled [⟨r0_c, p0⟩] S128x768.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S128x2048 .f32) (harg1 : arg1.IsWhole)
    (arg2 : Memref sig .tc .vmem S768x2048 .f32) (harg2 : arg2.IsWhole) (arg3 : Memref sig .tc .vmem S128x768 .f32) (harg3 : arg3.IsWhole)
    (x0 : Vec F S128x2048 .f32) (x1 : Vec F S768x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the input blocks; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
/-
  The output projection kernel (the attention rows times a block of 1024 weight rows) at a generic
  grid point, over any contents `V` of the buffers at the region's entry: what each window's block is, what the
  body leaves in the output window's buffer (one store, of the product of the two loaded blocks), the body's
  triple, the proof data of the pipeline and its body obligation.
-/
import proofs.«176267_j6640019439658_2_alg».proof.Proof.Gen.KernelIdeal.Launch
import proofs.«176267_j6640019439658_2_alg».proof.Proof.Gen.KernelIdeal.Skeleton
import proofs.«176267_j6640019439658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S128x2048 := Rect.unit (s := S128x2048) ![0, 0] S128x2048.size inb_S128x2048_S128x2048_0_0
abbrev r2_b : Rect S1024x2048 := Rect.unit (s := S1024x2048) ![0, 0] S1024x2048.size inb_S1024x2048_S1024x2048_0_0
abbrev r2_c : Rect S128x1024 := Rect.unit (s := S128x1024) ![0, 0] S128x1024.size inb_S128x1024_S128x1024_0_0

/-- The output window's buffer after the body: its one store, of the product of the two loaded blocks. -/
def out2_2 (x0 : Vec F S128x2048 .f32) (x1 : Vec F S1024x2048 .f32) : Vec F S128x1024 .f32 :=
  View.canon [⟨r2_c, k2_pay1 (View.ld x0 r2_a) (View.ld x1 r2_b)⟩]

/-- The store covers the buffer. -/
theorem cover2_2 (p0 : Vec F S128x1024 .f32) (y : S128x1024.Idx) :
    ∃ pc ∈ ([⟨r2_c, p0⟩] : List (View.Piece (Elt F) S128x1024 .f32)), y ∈ pc.1.set :=
  View.cover_of_tiled [⟨r2_c, p0⟩] S128x1024.size (by rfl) y

/-! ## The body's triple -/

set_option maxHeartbeats 1000000 in
/-- The body on whole staging memrefs, the inputs' at contents `x0`, `x1` and the output's at anything, runs to the
    continuation holding the inputs' as they were and the output's at `out2_2 x0 x1`. -/
theorem sound_kernel2 (c : Dev nD) (E : Set ℕ) (i : grid2.Coords) (arg1 : Memref sig .tc .vmem S128x2048 .f32) (harg1 : arg1.IsWhole)
    (arg2 : Memref sig .tc .vmem S1024x2048 .f32) (harg2 : arg2.IsWhole) (arg3 : Memref sig .tc .vmem S128x1024 .f32) (harg3 : arg3.IsWhole)
    (x0 : Vec F S128x2048 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t`
    each input's buffer at its block and the output's at `out2_2` of the input blocks; the class's invariant (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg1.lean ====
/-
  The attention kernel (two heads of one batch row per grid point: the scores of the eight new queries against the
  cached and the new keys, the softmax over both, the weighted sum of the cached and the new values, and the two
  caches written out with the new rows appended) at a generic grid point, over any contents `V` of the buffers at
  the region's entry: each window's block, what the body leaves in the three output windows' buffers, the body's
  triple, the proof data of the pipeline and its body obligation.
-/
import proofs.«176267_j6640019439658_2_alg».proof.Proof.Gen.KernelIdeal.Launch
import proofs.«176267_j6640019439658_2_alg».proof.Proof.Gen.KernelIdeal.Skeleton
import proofs.«176267_j6640019439658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_a : Rect S8x256 := Rect.unit (s := S8x256) ![0, 0] S8x256.size inb_S8x256_S8x256_0_0
abbrev r1_b : Rect S1x2x4096x128 := Rect.unit (s := S1x2x4096x128) ![0, 0, 0, 0] S1x2x4096x128.size inb_S1x2x4096x128_S1x2x4096x128_0_0_0_0
/-- The cached rows of a cache output's buffer, -/
abbrev r1_c : Rect S1x2x4104x128 := Rect.unit (s := S1x2x4104x128) ![0, 0, 0, 0] S1x2x4096x128.size inb_S1x2x4104x128_S1x2x4096x128_0_0_0_0
/-- and its eight appended rows. -/
abbrev r1_d : Rect S1x2x4104x128 := Rect.unit (s := S1x2x4104x128) ![0, 0, 4096, 0] S1x2x8x128.size inb_S1x2x4104x128_S1x2x8x128_0_0_4096_0

/-! ## What the body leaves in each output window's buffer -/

/-- The attention rows: one store, of the softmax-weighted values of the two heads laid side by side. -/
def out1_5 (x0 : Vec F S8x256 .f32) (x1 : Vec F S8x256 .f32) (x2 : Vec F S8x256 .f32) (x3 : Vec F S1x2x4096x128 .f32) (x4 : Vec F S1x2x4096x128 .f32) : Vec F S8x256 .f32 :=
  View.canon [⟨r1_a, k1_pay5 (k1_pay8 (View.ld x2 r1_a)) (k1_pay10 (View.ld x4 r1_b))
    (k1_pay14 (View.ld x0 r1_a) (View.ld x1 r1_a) (View.ld x3 r1_b)) (k1_pay15 (View.ld x0 r1_a) (View.ld x1 r1_a) (View.ld x3 r1_b))
    (k1_pay16 (View.ld x0 r1_a) (View.ld x1 r1_a) (View.ld x3 r1_b)) (k1_pay17 (View.ld x0 r1_a) (View.ld x1 r1_a) (View.ld x3 r1_b))⟩]

/-- The key cache: the cached rows, then the new keys appended (the later store first). -/
def out1_6 (x1 : Vec F S8x256 .f32) (x3 : Vec F S1x2x4096x128 .f32) : Vec F S1x2x4104x128 .f32 :=
  View.canon [⟨r1_d, k1_pay2 (k1_pay7 (View.ld x1 r1_a))⟩, ⟨r1_c, k1_pay1 (k1_pay9 (View.ld x3 r1_b))⟩]

/-- The value cache: the cached rows, then the new values appended. -/
def out1_7 (x2 : Vec F S8x256 .f32) (x4 : Vec F S1x2x4096x128 .f32) : Vec F S1x2x4104x128 .f32 :=
  View.canon [⟨r1_d, k1_pay4 (k1_pay8 (View.ld x2 r1_a))⟩, ⟨r1_c, k1_pay3 (k1_pay10 (View.ld x4 r1_b))⟩]

theorem cover1_5 (p0 : Vec F S8x256 .f32) (y : S8x256.Idx) :
    ∃ pc ∈ ([⟨r1_a, p0⟩] : List (View.Piece (Elt F) S8x256 .f32)), y ∈ pc.1.set :=
  View.cover_of_tiled [⟨r1_a, p0⟩] S8x256.size (by rfl) y

/-- The cached rows and the appended rows tile a cache buffer. -/
theorem cover1_67 (p1 : Vec F S1x2x8x128 .f32) (p0 : Vec F S1x2x4096x128 .f32) (y : S1x2x4104x128.Idx) :
    ∃ pc ∈ ([⟨r1_d, p1⟩, ⟨r1_c, p0⟩] : List (View.Piece (Elt F) S1x2x4104x128 .f32)), y ∈ pc.1.set :=
  View.cover_of_tiledBy [⟨r1_d, p1⟩, ⟨r1_c, p0⟩] ![1, 2, 8, 128] (by sl_kernel_rfl) y

/-! ## The body's triple -/

set_option maxHeartbeats 4000000 in
/-- The body on whole staging memrefs, the inputs' at contents `x0 … x4` and the outputs' at anything, runs to the
    continuation holding the inputs' as they were and the outputs' at `out1_5`, `out1_6`, `out1_7` of the inputs'. -/
theorem sound_kernel1 (c : Dev nD) (E : Set ℕ) (i : grid1.Coords) (arg2 : Memref sig .tc .vmem S8x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x2x4096x128 .f32) (harg5 : arg5.IsWhole) (arg6 : Memref sig .tc .vmem S1x2x4096x128 .f32) (harg6 : arg6.IsWhole) (arg7 : Memref sig .tc .vmem S8x256 .f32) (harg7 : arg7.IsWhole) (arg8 : Memref sig .tc .vmem S1x2x4104x128 .f32) (harg8 : arg8.IsWhole) (arg9 : Memref sig .tc .vmem S1x2x4104x128 .f32) (harg9 : arg9.IsWhole)
    (x0 : Vec F S8x256 .f32) (x1 : Vec F S8x256 .f32) (x2 : Vec F S8x256 .f32) (x3 : Vec F S1x2x4096x128 .f32) (x4 : Vec F S1x2x4096x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4) ∗ owns (c : Thread nD τ) arg8 fullShare (out1_6 x1 x3) ∗ owns (c : Thread nD τ) arg9 fullShare (out1_7 x2 x4)) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_67 _ _)
  iexists _; isplitr
  swap; · iexact H7
  ipureintro
  exact View.read_writes_eq_canon _ _ _ (cover1_67 _ _)

/-! ## The pipeline's proof data -/

/-- The proof data of the pipeline on core `c`: the arrays as the region finds them; after the body at point `t`
    each input's buffer at its block and each output's at its function of the input blocks; the class's invariant;
    nothing owed. The three query/key/value windows read ONE array (the projection's result), so each holds it at a
    third of the whole share: the left half, and the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 1 t) (iblk1 V c 3 t)
    | ⟨7, _⟩ => out1_7 (iblk1 V c 2 t) (iblk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 3 t) := by dsimp only [dat1]
theorem after1_7 (c : Dev nD) (t : Fin cfg1.N) : (dat1 V c).after 7 t = out1_7 (iblk1 V c 2 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Share1.lean ====
/-
  The attention region's query, key and value windows all read one array, the first projection's result. At the
  region's entry that array's buffer, held whole, is split along its share into three parts, one per window; the
  other arrays are held whole. At the exit the three parts, which the region only read, are joined again, and the
  three output arrays hold what the write-backs left.
-/
import proofs.«176267_j6640019439658_2_alg».proof.Proof.KI.Reg1
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The six distinct buffers behind the region's eight windows. -/
theorem arrRefs1 : (Finset.univ.image (Pipeline.arrRef spec1))
    = ([main_v1, main_arg1, main_arg2, main_v2_0, main_v2_1, main_v2_2] : List (Ref sig .tc)).toFinset := by decide

theorem bigSep_arr1 {M : Type} [URA M] (Φ : Ref sig .tc → sProp M) :
    bigSep (Finset.univ.image (Pipeline.arrRef spec1)) Φ
      = iprop(Φ main_v1 ∗ Φ main_arg1 ∗ Φ main_arg2 ∗ Φ main_v2_0 ∗ Φ main_v2_1 ∗ Φ main_v2_2) :=
  bigSep_eq_bigSepL_of_eq [main_v1, main_arg1, main_arg2, main_v2_0, main_v2_1, main_v2_2] arrRefs1 (by decide) Φ

/-- The windows' arrays, each a whole buffer, at the share its window holds it at. -/
theorem arrays1_eq (c : Dev nD) (G : (w : Fin cfg1.W) → Buf (Elt F) ((cfg1.win w).arr.view.loc (c : Thread nD τ))) :
    (dat1 V c).arrays G
      = bigSep Finset.univ fun w : Fin cfg1.W => (((c : Thread nD τ).loc (Pipeline.arrRef spec1 w)) ↦{(dat1 V c).share w} G w : sProp 𝕄) := by
  unfold Dat.arrays
  exact bigSep_congr fun w _ => by rw [(arr_whole1 w).set_eq_univ]

/-- ENTRY: the six buffers whole at the entry contents make the eight windows' arrays, the shared one split in three. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrays1_eq]
  unfold Pipeline.arrBufs
  rw [bigSep_arr1, bigSep_W1]
  iintro ⟨Hv, Ha1, Ha2, Ho0, Ho1, Ho2⟩
  ihave Hs := (pointsTo_share (PosShare.mem_left_op_right fullShare)).1 $$ Hv
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [Ha1]; · iexact Ha1
  isplitl [Ha2]; · iexact Ha2
  isplitl [Ho0]; · iexact Ho0
  isplitl [Ho1]; · iexact Ho1
  iexact Ho2

theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_of_arrBufs1 V c) .rfl

/-! ## The contents at the exit -/

/-- The buffer contents at the region's exit, from those at its entry: the three output arrays at what the
    write-backs leave. -/
def exitVal1 (c : Dev nD) (W : Valuation τ sig (Elt F)) : Valuation τ sig (Elt F) :=
  Function.update (Function.update (Function.update W main_v2_0 ((dat1 V c).arrAt 5 cfg1.N)) main_v2_1 ((dat1 V c).arrAt 6 cfg1.N))
    main_v2_2 ((dat1 V c).arrAt 7 cfg1.N)

theorem exitVal1_v2_2 (c : Dev nD) (W : Valuation τ sig (Elt F)) : exitVal1 V c W main_v2_2 = (dat1 V c).arrAt 7 cfg1.N := by
  unfold exitVal1; exact Function.update_self ..
theorem exitVal1_v2_1 (c : Dev nD) (W : Valuation τ sig (Elt F)) : exitVal1 V c W main_v2_1 = (dat1 V c).arrAt 6 cfg1.N := by
  unfold exitVal1
  rw [Function.update_of_ne (StableHlo.devRef_ne_of_ne (by decide) : (Proc.devRef .tc main_v2_1 : DevRef τ sig) ≠ Proc.devRef .tc main_v2_2)]
  exact Function.update_self ..
theorem exitVal1_v2_0 (c : Dev nD) (W : Valuation τ sig (Elt F)) : exitVal1 V c W main_v2_0 = (dat1 V c).arrAt 5 cfg1.N := by
  unfold exitVal1
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self ..
theorem exitVal1_of_ne (c : Dev nD) (W : Valuation τ sig (Elt F)) (b : Ref sig .tc) (h0 : b ≠ main_v2_0) (h1 : b ≠ main_v2_1) (h2 : b ≠ main_v2_2) :
    exitVal1 V c W b = W b := by
  unfold exitVal1
  rw [Function.update_of_ne (StableHlo.devRef_ne_of_ne h2 : (Proc.devRef .tc b : DevRef τ sig) ≠ Proc.devRef .tc main_v2_2),
    Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

set_option maxHeartbeats 4000000 in
/-- EXIT: the eight windows' arrays after the last write-back make the six buffers whole again — the three parts of the
    shared array, each still at the entry contents, joined; the outputs at what the write-backs left. -/
theorem arrBufs_of_arrays1 (c : Dev nD) (V' : (b : Ref sig .tc) → Buf (Elt F) ((c : Thread nD τ).loc b))
    (h1 : V' main_v1 = V c main_v1) (ha1 : V' main_arg1 = V c main_arg1) (ha2 : V' main_arg2 = V c main_arg2)
    (h5 : V' main_v2_0 = (dat1 V c).arrAt 5 cfg1.N) (h6 : V' main_v2_1 = (dat1 V c).arrAt 6 cfg1.N) (h7 : V' main_v2_2 = (dat1 V c).arrAt 7 cfg1.N) :
    (dat1 V c).arrays ((dat1 V c).arrAt · cfg1.N)
      ⊢ (Pipeline.arrBufs (Ix := Unit) (Name := ℕ) (U := UR sig nD τ) (Lvl := ℕ) spec1 c V' : sProp 𝕄) := by
  rw [arrays1_eq]
  unfold Pipeline.arrBufs
  rw [bigSep_arr1, bigSep_W1, h1, ha1, ha2, h5, h6, h7,
    (dat1 V c).arrAt_in 0 rfl, (dat1 V c).arrAt_in 1 rfl, (dat1 V c).arrAt_in 2 rfl, (dat1 V c).arrAt_in 3 rfl, (dat1 V c).arrAt_in 4 rfl,
    A_eq1, A_eq1, A_eq1, A_eq1, A_eq1]
  iintro ⟨H0, H1, H2, H3, H4, H5, H6, H7⟩
  have joinR : iprop((((c : Thread nD τ).loc main_v1) ↦{fullShare.right.left} V c main_v1) ∗ (((c : Thread nD τ).loc main_v1) ↦{fullShare.right.right} V c main_v1))
      ⊢ ((((c : Thread nD τ).loc main_v1) ↦{fullShare.right} V c main_v1) : sProp 𝕄) :=
    (pointsTo_share (PosShare.mem_left_op_right fullShare.right)).2
  have joinF : iprop((((c : Thread nD τ).loc main_v1) ↦{fullShare.left} V c main_v1) ∗ (((c : Thread nD τ).loc main_v1) ↦{fullShare.right} V c main_v1))
      ⊢ ((((c : Thread nD τ).loc main_v1) ↦{fullShare} V c main_v1) : sProp 𝕄) :=
    (pointsTo_share (PosShare.mem_left_op_right fullShare)).2
  ihave HR := joinR $$ [H1 H2]
  · isplitl [H1]; · iexact H1
    iexact H2
  ihave Hv := joinF $$ [H0 HR]
  · isplitl [H0]; · iexact H0
    iexact HR
  isplitl [Hv]; · iexact Hv
  isplitl [H3]; · iexact H3
  isplitl [H4]; · iexact H4
  isplitl [H5]; · iexact H5
  isplitl [H6]; · iexact H6
  iexact H7

theorem exit1 (c : Dev nD) (W : Valuation τ sig (Elt F)) (hW : ∀ b : Ref sig .tc, W b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c (fun b => exitVal1 V c W b) : sProp 𝕄) := by
  rw [Pipeline.unscopedBufs_split₀ (Ix := Unit) (Name := ℕ) (U := UR sig nD τ) (Lvl := ℕ) cfgs 1 winFacts₀1.arr_unscoped c (fun b => exitVal1 V c W b)]
  refine sep_mono (arrBufs_of_arrays1 V c _ ?_ ?_ ?_ (exitVal1_v2_0 V c W) (exitVal1_v2_1 V c W) (exitVal1_v2_2 V c W)) (Entails.of_eq ?_)
  · exact (exitVal1_of_ne V c W main_v1 (by decide) (by decide) (by decide)).trans (hW _)
  · exact (exitVal1_of_ne V c W main_arg1 (by decide) (by decide) (by decide)).trans (hW _)
  · exact (exitVal1_of_ne V c W main_arg2 (by decide) (by decide) (by decide)).trans (hW _)
  · unfold Pipeline.unscopedRest
    refine bigSep_congr fun b hb => ?_
    have hb' := (Finset.mem_sdiff.mp hb).2
    have hne : ∀ w, Pipeline.arrRef spec1 w ≠ b := fun w e => hb' (Finset.mem_image.mpr ⟨w, Finset.mem_univ _, e⟩)
    show (((c : Thread nD τ).loc b) ↦{fullShare} V c b : sProp 𝕄) = (((c : Thread nD τ).loc b) ↦{fullShare} exitVal1 V c W b)
    rw [exitVal1_of_ne V c W b (fun e => hne 5 e.symm) (fun e => hne 6 e.symm) (fun e => hne 7 e.symm), hW]

end Cert.KernelIdeal.Hand

end
-- ==== Proof.KI.Run.lean ====
/-
  The whole program's run: a reshape of the activations, the three kernel regions, a reshape of the result. The
  contents of every unscoped buffer at each boundary are named by a fold from the launch memory (a host stretch's
  operations applied; a region's output arrays at what its write-backs leave, every other buffer as entered); each
  region is a segment entered from one boundary's contents and left at the next; the launch over the segments gives
  every weakly fair execution's final memory at the last boundary's contents.
-/
import proofs.«176267_j6640019439658_2_alg».proof.Proof.KI.Reg0
import proofs.«176267_j6640019439658_2_alg».proof.Proof.KI.Reg2
import proofs.«176267_j6640019439658_2_alg».proof.Proof.KI.Share1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the reshape of the activations (the first projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first projection: its output array at what the write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention region: its three output arrays at what the write-backs leave, every other buffer as entered
    (its input arrays are read only). -/
def W3 (c : Dev nD) : Valuation τ sig (Elt F) := exitVal1 (V2 m ρ) c (W2 m ρ c)
abbrev V3 : (c : Dev nD) → (b : Ref sig .tc) → Buf (Elt F) ((c : Thread nD τ).loc b) := fun c b => W3 m ρ c b

/-- After the output projection. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the reshape of the result: the end. -/
abbrev W5 : Dev nD → Valuation τ sig (Elt F) := fun c => StableHlo.after hostOps3 (W4 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first projection: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. Its query, key and value windows
    read one array: at entry that array's buffer is split among them along its share, at exit the three parts, each
    still at the entry contents, are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (W2 m ρ c) (fun _ => rfl)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    its final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Walk.lean ====
/-
  The fold of Run.lean read at the references that matter. No host stretch and no region writes an argument, so each
  argument's buffer walks back from the last boundary to the launch memory; each region's entry arrays are the launch
  contents or the previous region's output array after its last write-back; and the results are the attention region's
  two cache outputs and the output projection's array after their last write-backs.
-/
import proofs.«176267_j6640019439658_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## One boundary back, at a reference the step does not write -/

/-- The reshape of the activations writes only its result. -/
theorem W1_of (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The attention region changes only its three output arrays. -/
theorem W3_of (c : Dev nD) (b : Ref sig .tc) (h0 : b ≠ main_v2_0) (h1 : b ≠ main_v2_1) (h2 : b ≠ main_v2_2) :
    W3 m ρ c (Proc.devRef .tc b) = W2 m ρ c (Proc.devRef .tc b) := by
  unfold W3; exact exitVal1_of_ne (V2 m ρ) c (W2 m ρ c) b h0 h1 h2

/-- The reshape of the result writes only its result. -/
theorem W5_of (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments end as launched -/

theorem W5_arg0 (c : Dev nD) : W5 m ρ c main_arg0 = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide) (by decide) (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W5_arg1 (c : Dev nD) : W5 m ρ c main_arg1 = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide) (by decide) (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_arg2 (c : Dev nD) : W5 m ρ c main_arg2 = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide) (by decide) (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The weights of the first projection: an input window's array of that region, never written back. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

theorem W5_arg3 (c : Dev nD) : W5 m ρ c main_arg3 = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide) (by decide) (by decide)
    _ = m ((c : Thread nD τ).loc main_arg3) := W2_arg3 m ρ c

/-- The weights of the output projection at the attention region's exit: nothing before has written them. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of m ρ c main_arg4 (by decide) (by decide) (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W5_arg4 (c : Dev nD) : W5 m ρ c main_arg4 = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := (W4_arr m ρ c 1).trans (((dat2 (V3 m ρ) c).arrAt_in 1 rfl _).trans (A_eq2 (V3 m ρ) c 1))
    _ = m ((c : Thread nD τ).loc main_arg4) := W3_arg4 m ρ c

/-! ## Each region's entry arrays -/

/-- The first projection's weights at its entry. -/
theorem V1_arg3 (c : Dev nD) : V1 m ρ c main_arg3 = m ((c : Thread nD τ).loc main_arg3) :=
  (W1_of m ρ c main_arg3 (by decide)).trans rfl

/-- The attention region reads the first projection's output array after its last write-back. -/
theorem V2_v1 (c : Dev nD) : V2 m ρ c main_v1 = (dat0 (V1 m ρ) c).arrAt 2 cfg0.N :=
  W2_arr m ρ c 2

/-- The cached keys at the attention region's entry. -/
theorem V2_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The cached values at the attention region's entry. -/
theorem V2_arg2 (c : Dev nD) : V2 m ρ c main_arg2 = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The output projection reads the attention region's first output array after its last write-back. -/
theorem V3_v2_0 (c : Dev nD) : V3 m ρ c main_v2_0 = (dat1 (V2 m ρ) c).arrAt 5 cfg1.N := by
  show W3 m ρ c (Proc.devRef .tc main_v2_0) = _
  unfold W3; exact exitVal1_v2_0 (V2 m ρ) c (W2 m ρ c)

/-- The output projection's weights at its entry. -/
theorem V3_arg4 (c : Dev nD) : V3 m ρ c main_arg4 = m ((c : Thread nD τ).loc main_arg4) :=
  W3_arg4 m ρ c

/-! ## The results -/

/-- The key cache result: the attention region's second output array after its last write-back. -/
theorem W5_v2_1 (c : Dev nD) : W5 m ρ c main_v2_1 = (dat1 (V2 m ρ) c).arrAt 6 cfg1.N :=
  calc W5 m ρ c (Proc.devRef .tc main_v2_1)
    _ = W4 m ρ c (Proc.devRef .tc main_v2_1) := W5_of m ρ c main_v2_1 (by decide)
    _ = W3 m ρ c (Proc.devRef .tc main_v2_1) := W4_of_ne m ρ c main_v2_1 (by decide)
    _ = (dat1 (V2 m ρ) c).arrAt 6 cfg1.N := by unfold W3; exact exitVal1_v2_1 (V2 m ρ) c (W2 m ρ c)

/-- The value cache result: the attention region's third output array after its last write-back. -/
theorem W5_v2_2 (c : Dev nD) : W5 m ρ c main_v2_2 = (dat1 (V2 m ρ) c).arrAt 7 cfg1.N :=
  calc W5 m ρ c (Proc.devRef .tc main_v2_2)
    _ = W4 m ρ c (Proc.devRef .tc main_v2_2) := W5_of m ρ c main_v2_2 (by decide)
    _ = W3 m ρ c (Proc.devRef .tc main_v2_2) := W4_of_ne m ρ c main_v2_2 (by decide)
    _ = (dat1 (V2 m ρ) c).arrAt 7 cfg1.N := by unfold W3; exact exitVal1_v2_2 (V2 m ρ) c (W2 m ρ c)

/-- The output projection's array after its last write-back. -/
theorem W4_v3 (c : Dev nD) : W4 m ρ c main_v3 = (dat2 (V3 m ρ) c).arrAt 2 cfg2.N :=
  W4_arr m ρ c 2

end Cert.KernelIdeal.Hand

end
-- ==== Proof.KVal.LinHost.lean ====
/-
  The two host ends of the layer: before the first projection the activations [16, 8, 2048] are flattened to
  [128, 2048], and after the output projection the result is unflattened to [16, 8, 2048]. Both are row-major
  reshapes: row `8 b + n` of the flat array is position `n` of batch row `b`.
-/
import proofs.«176267_j6640019439658_2_alg».proof.Proof.Gen.KernelIdeal.Launch
import Idealize.ShloMosaic.Lib.StableHlo.Run
import Idealize.ShloMosaic.Lib.ValueIdx
import Idealize.ShloMosaic.Lib.Pipeline.Value

noncomputable section

namespace Cert.KVal

open Idealize.ShloMosaic Idealize.ShloMosaic.TcCoe Idealize.ShloMosaic.ValueIdx Idealize.ShloMosaic.StableHlo
open Cert.KernelIdeal Cert.KernelIdeal.Gen

/-- The flattened activations the first projection reads: row `8 b + n` is position `n` of batch row `b` of the
    layer's input. -/
theorem flatIn (W : Valuation τ sig (Elt Ideal)) (b : Fin 16) (n : Fin 8) (e : Fin 2048) (h : 8 * b.val + n.val < 128) :
    (StableHlo.after (hostOps0 (F := Ideal)) W (Proc.devRef .tc main_v0) : S128x2048.Idx → EReal) (ix2 ⟨8 * b.val + n.val, h⟩ e)
      = (W (Proc.devRef .tc main_arg0) : S16x8x2048.Idx → EReal) (ix3 b n e) := by
  have e0 : (StableHlo.after (hostOps0 (F := Ideal)) W (Proc.devRef .tc main_v0) : S128x2048.Idx → EReal)
      = shapeCast S128x2048 (W (Proc.devRef .tc main_arg0) : S16x8x2048.Idx → EReal) shapeCasts_S16x8x2048_S128x2048 := by
    after_results; rfl
  rw [e0]
  refine shapeCast_apply _ _ _ _ ?_
  show (S16x8x2048.rowMajor (ix3 b n e)).val = (S128x2048.rowMajor (ix2 (⟨8 * b.val + n.val, h⟩ : Fin 128) e)).val
  rw [Shape.rowMajor_val_three, Shape.rowMajor_val_two]
  show (b.val * 8 + n.val) * 2048 + e.val = (8 * b.val + n.val) * 2048 + e.val
  omega

/-- The layer's result: position `n` of batch row `b` is row `8 b + n` of what the output projection left. -/
theorem unflatOut (W : Valuation τ sig (Elt Ideal)) (b : Fin 16) (n : Fin 8) (e : Fin 2048) (h : 8 * b.val + n.val < 128) :
    (StableHlo.after (hostOps3 (F := Ideal)) W (Proc.devRef .tc main_v4) : S16x8x2048.Idx → EReal) (ix3 b n e)
      = (W (Proc.devRef .tc main_v3) : S128x2048.Idx → EReal) (ix2 ⟨8 * b.val + n.val, h⟩ e) := by
  have e0 : (StableHlo.after (hostOps3 (F := Ideal)) W (Proc.devRef .tc main_v4) : S16x8x2048.Idx → EReal)
      = shapeCast S16x8x2048 (W (Proc.devRef .tc main_v3) : S128x2048.Idx → EReal) shapeCasts_S128x2048_S16x8x2048 := by
    after_results; rfl
  rw [e0]
  refine shapeCast_apply _ _ _ _ ?_
  show (S128x2048.rowMajor (ix2 (⟨8 * b.val + n.val, h⟩ : Fin 128) e)).val = (S16x8x2048.rowMajor (ix3 b n e)).val
  rw [Shape.rowMajor_val_three, Shape.rowMajor_val_two]
  show (8 * b.val + n.val) * 2048 + e.val = (b.val * 8 + n.val) * 2048 + e.val
  omega

end Cert.KVal

end
-- ==== Proof.KVal.LinSpec.lean ====
/-
  The two projections of the attention layer as whole-array functions: entry `(r, f)` of `a · wᵀ` is the sum over
  the model dimension of a row of the activations against a row of the weights.
-/
import Idealize.ShloMosaic.PureOps.Ideal
import Idealize.ShloMosaic.Lib.ValueIdx

noncomputable section

open scoped BigOperators

namespace Cert.KVal

open Idealize.ShloMosaic Idealize.ShloMosaic.ValueIdx

/-- `a · wᵀ` for activations `a : [128, 2048]` and weights `w : [n, 2048]`: entry `(r, f)` is `∑ e, a[r, e] · w[f, e]`. -/
def kLin {n : Nat} (a : (⟨2, ![128, 2048]⟩ : Shape).Idx → EReal) (w : (⟨2, ![n, 2048]⟩ : Shape).Idx → EReal) :
    (⟨2, ![128, n]⟩ : Shape).Idx → EReal :=
  fun i => ∑ e : Fin 2048, a (ix2 (i 0) e) * w (ix2 (i 1) e)

/-- The projection at an index given by its coordinates. -/
theorem kLin_apply {n : Nat} (a : (⟨2, ![128, 2048]⟩ : Shape).Idx → EReal) (w : (⟨2, ![n, 2048]⟩ : Shape).Idx → EReal)
    (r : Fin 128) (f : Fin n) : kLin a w (ix2 r f) = ∑ e : Fin 2048, a (ix2 r e) * w (ix2 f e) := rfl

end Cert.KVal

end
-- ==== Proof.KVal.LinPay.lean ====
/-
  The two projection bodies' arithmetic read at an index: the matrix product into a zero accumulator of a block of
  activations with a block of weight rows is, at row `r` and weight row `f`, the sum over the model dimension of
  their products.
-/
import proofs.«176267_j6640019439658_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KVal

open Idealize.ShloMosaic Idealize.ShloMosaic.ValueIdx
open Cert.KernelIdeal Cert.KernelIdeal.Gen

/-! ## The first projection: blocks of 768 weight rows -/

/-- Along the activations' row axis the product's operand index is the output's row. -/
theorem lhs0_row (i : S128x768.Idx) (q : dot_S128x2048_S768x2048_S128x768_1_1_0_0_n_n.contr.Idx) : (dot_S128x2048_S768x2048_S128x768_1_1_0_0_n_n.lhsIdx i q 0).val = (i 0).val := by
  unfold DotDims.lhsIdx
  rw [dif_neg (show ¬(0 : Fin S128x2048.rank) ∈ dot_S128x2048_S768x2048_S128x768_1_1_0_0_n_n.lhsBatch by decide), dif_pos (show (0 : Fin S128x2048.rank) ∈ dot_S128x2048_S768x2048_S128x768_1_1_0_0_n_n.lhsNonContracting by decide)]
  rfl
/-- Along the model dimension it is the contraction's coordinate. -/
theorem lhs0_model (i : S128x768.Idx) (q : dot_S128x2048_S768x2048_S128x768_1_1_0_0_n_n.contr.Idx) : (dot_S128x2048_S768x2048_S128x768_1_1_0_0_n_n.lhsIdx i q 1).val = (q ⟨0, by decide⟩).val :=
  dot_S128x2048_S768x2048_S128x768_1_1_0_0_n_n.lhsIdx_val_of_single rfl i q
/-- Along the weights' row axis the operand index is the output's column. -/
theorem rhs0_row (i : S128x768.Idx) (q : dot_S128x2048_S768x2048_S128x768_1_1_0_0_n_n.contr.Idx) : (dot_S128x2048_S768x2048_S128x768_1_1_0_0_n_n.rhsIdx i q 0).val = (i 1).val := by
  unfold DotDims.rhsIdx
  rw [dif_neg (show ¬(0 : Fin S768x2048.rank) ∈ dot_S128x2048_S768x2048_S128x768_1_1_0_0_n_n.rhsBatch by decide), dif_pos (show (0 : Fin S768x2048.rank) ∈ dot_S128x2048_S768x2048_S128x768_1_1_0_0_n_n.rhsNonContracting by decide)]
  rfl
/-- Along the model dimension it is the contraction's coordinate. -/
theorem rhs0_model (i : S128x768.Idx) (q : dot_S128x2048_S768x2048_S128x768_1_1_0_0_n_n.contr.Idx) : (dot_S128x2048_S768x2048_S128x768_1_1_0_0_n_n.rhsIdx i q 1).val = (q ⟨0, by decide⟩).val :=
  dot_S128x2048_S768x2048_S128x768_1_1_0_0_n_n.rhsIdx_val_of_single rfl i q

/-- The projection body at `(r, f)`: row `r` of the activations against row `f` of the weight block. -/
theorem pay0_apply (x0 : Vec Ideal S128x2048 .f32) (x1 : Vec Ideal S768x2048 .f32) (r : Fin 128) (f : Fin 768) :
    k0_pay1 (F := Ideal) x0 x1 (ix2 r f) = ∑ e : Fin 2048, x0 (ix2 r e) * x1 (ix2 f e) := by
  unfold k0_pay1
  rw [shapeCast_self]
  refine (Ideal.matmul_constant_zero_apply dot_S128x2048_S768x2048_S128x768_1_1_0_0_n_n none x0 x1 (ix2 r f)).trans ?_
  rw [← Equiv.sum_comp (contrEquiv1 dot_S128x2048_S768x2048_S128x768_1_1_0_0_n_n 2048 rfl rfl).symm]
  refine Finset.sum_congr rfl fun k _ => ?_
  have hk := contrEquiv1_symm_val dot_S128x2048_S768x2048_S128x768_1_1_0_0_n_n 2048 rfl rfl k
  have el : dot_S128x2048_S768x2048_S128x768_1_1_0_0_n_n.lhsIdx (ix2 r f) ((contrEquiv1 dot_S128x2048_S768x2048_S128x768_1_1_0_0_n_n 2048 rfl rfl).symm k) = ix2 r k := funext fun a => Fin.ext (by
    match a with
    | ⟨0, _⟩ => exact lhs0_row _ _
    | ⟨1, _⟩ => exact (lhs0_model _ _).trans hk)
  have er : dot_S128x2048_S768x2048_S128x768_1_1_0_0_n_n.rhsIdx (ix2 r f) ((contrEquiv1 dot_S128x2048_S768x2048_S128x768_1_1_0_0_n_n 2048 rfl rfl).symm k) = ix2 f k := funext fun a => Fin.ext (by
    match a with
    | ⟨0, _⟩ => exact rhs0_row _ _
    | ⟨1, _⟩ => exact (rhs0_model _ _).trans hk)
  rw [el, er]

/-! ## The output projection: blocks of 1024 weight rows -/

/-- Along the activations' row axis the product's operand index is the output's row. -/
theorem lhs2_row (i : S128x1024.Idx) (q : dot_S128x2048_S1024x2048_S128x1024_1_1_0_0_n_n.contr.Idx) : (dot_S128x2048_S1024x2048_S128x1024_1_1_0_0_n_n.lhsIdx i q 0).val = (i 0).val := by
  unfold DotDims.lhsIdx
  rw [dif_neg (show ¬(0 : Fin S128x2048.rank) ∈ dot_S128x2048_S1024x2048_S128x1024_1_1_0_0_n_n.lhsBatch by decide), dif_pos (show (0 : Fin S128x2048.rank) ∈ dot_S128x2048_S1024x2048_S128x1024_1_1_0_0_n_n.lhsNonContracting by decide)]
  rfl
/-- Along the model dimension it is the contraction's coordinate. -/
theorem lhs2_model (i : S128x1024.Idx) (q : dot_S128x2048_S1024x2048_S128x1024_1_1_0_0_n_n.contr.Idx) : (dot_S128x2048_S1024x2048_S128x1024_1_1_0_0_n_n.lhsIdx i q 1).val = (q ⟨0, by decide⟩).val :=
  dot_S128x2048_S1024x2048_S128x1024_1_1_0_0_n_n.lhsIdx_val_of_single rfl i q
/-- Along the weights' row axis the operand index is the output's column. -/
theorem rhs2_row (i : S128x1024.Idx) (q : dot_S128x2048_S1024x2048_S128x1024_1_1_0_0_n_n.contr.Idx) : (dot_S128x2048_S1024x2048_S128x1024_1_1_0_0_n_n.rhsIdx i q 0).val = (i 1).val := by
  unfold DotDims.rhsIdx
  rw [dif_neg (show ¬(0 : Fin S1024x2048.rank) ∈ dot_S128x2048_S1024x2048_S128x1024_1_1_0_0_n_n.rhsBatch by decide), dif_pos (show (0 : Fin S1024x2048.rank) ∈ dot_S128x2048_S1024x2048_S128x1024_1_1_0_0_n_n.rhsNonContracting by decide)]
  rfl
/-- Along the model dimension it is the contraction's coordinate. -/
theorem rhs2_model (i : S128x1024.Idx) (q : dot_S128x2048_S1024x2048_S128x1024_1_1_0_0_n_n.contr.Idx) : (dot_S128x2048_S1024x2048_S128x1024_1_1_0_0_n_n.rhsIdx i q 1).val = (q ⟨0, by decide⟩).val :=
  dot_S128x2048_S1024x2048_S128x1024_1_1_0_0_n_n.rhsIdx_val_of_single rfl i q

/-- The projection body at `(r, f)`: row `r` of the activations against row `f` of the weight block. -/
theorem pay2_apply (x0 : Vec Ideal S128x2048 .f32) (x1 : Vec Ideal S1024x2048 .f32) (r : Fin 128) (f : Fin 1024) :
    k2_pay1 (F := Ideal) x0 x1 (ix2 r f) = ∑ e : Fin 2048, x0 (ix2 r e) * x1 (ix2 f e) := by
  unfold k2_pay1
  rw [shapeCast_self]
  refine (Ideal.matmul_constant_zero_apply dot_S128x2048_S1024x2048_S128x1024_1_1_0_0_n_n none x0 x1 (ix2 r f)).trans ?_
  rw [← Equiv.sum_comp (contrEquiv1 dot_S128x2048_S1024x2048_S128x1024_1_1_0_0_n_n 2048 rfl rfl).symm]
  refine Finset.sum_congr rfl fun k _ => ?_
  have hk := contrEquiv1_symm_val dot_S128x2048_S1024x2048_S128x1024_1_1_0_0_n_n 2048 rfl rfl k
  have el : dot_S128x2048_S1024x2048_S128x1024_1_1_0_0_n_n.lhsIdx (ix2 r f) ((contrEquiv1 dot_S128x2048_S1024x2048_S128x1024_1_1_0_0_n_n 2048 rfl rfl).symm k) = ix2 r k := funext fun a => Fin.ext (by
    match a with
    | ⟨0, _⟩ => exact lhs2_row _ _
    | ⟨1, _⟩ => exact (lhs2_model _ _).trans hk)
  have er : dot_S128x2048_S1024x2048_S128x1024_1_1_0_0_n_n.rhsIdx (ix2 r f) ((contrEquiv1 dot_S128x2048_S1024x2048_S128x1024_1_1_0_0_n_n 2048 rfl rfl).symm k) = ix2 f k := funext fun a => Fin.ext (by
    match a with
    | ⟨0, _⟩ => exact rhs2_row _ _
    | ⟨1, _⟩ => exact (rhs2_model _ _).trans hk)
  rw [el, er]

end Cert.KVal

end
-- ==== Proof.KVal.LinArr0.lean ====
/-
  The first projection (queries, keys and values in one product): from the blocks the grid points write back to the whole output array. Point `t` multiplies the
  whole block of activations with block `t` of 768 weight rows and writes column block `t` of the output; the 8 column
  blocks tile the output, so the array ends holding the product of the activations with all the weight rows.
-/
import proofs.«176267_j6640019439658_2_alg».proof.Proof.KI.Reg0
import proofs.«176267_j6640019439658_2_alg».proof.Proof.KVal.LinSpec
import proofs.«176267_j6640019439658_2_alg».proof.Proof.KVal.LinPay
import Idealize.ShloMosaic.Lib.ValueIdx
import Idealize.ShloMosaic.Lib.Pipeline.Value
import Idealize.ShloMosaic.PureOps.Ideal.Laws

noncomputable section

open scoped BigOperators

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The body's accesses start at the origin of their buffers. -/
theorem origin0 : (![0, 0] : Fin 2 → Nat) = fun _ => 0 := funext fun a => by fin_cases a <;> rfl

/-- The printed index maps over the grid: the activations' block never moves, the weights' row block and the
    output's column block are the point's number. -/
theorem blockIdx0 : ∀ t : Fin cfg0.N, t.val < 8
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Every column block is some point's. -/
theorem blockOnto0 : ∀ q : Fin 8, ∃ t : Fin cfg0.N, win0_2.index t = ![0, q.val] :=
  (by decide +kernel : ∀ q : Fin 8, ∃ t : Fin grid0.N, win0_2.index t = ![0, q.val])

/-- The activations' block at any point is the whole array of activations. -/
theorem actBlock0 (c : Dev nD) (t : Fin cfg0.N) (r : Fin 128) (e : Fin 2048) :
    (iblk0 V c 0 t : Vec Ideal S128x2048 .f32) (ix2 r e) = (V c main_v0 : S128x2048.Idx → EReal) (ix2 r e) := by
  obtain ⟨-, e0, e1, -⟩ := blockIdx0 t
  show V c main_v0 (((cfg0.win 0).blk t).view.emb (ix2 r e)) = V c main_v0 (ix2 r e)
  refine congrArg (V c main_v0) (funext fun a => Fin.ext ?_)
  match a with
  | ⟨0, _⟩ => show win0_0.index t (0 : Fin 2) * 128 + 1 * r.val = r.val; omega
  | ⟨1, _⟩ => show win0_0.index t (1 : Fin 2) * 2048 + 1 * e.val = e.val; omega

/-- The weights' block at point `t` is rows `768 t … 768 t + 767` of the weights. -/
theorem weightBlock0 (c : Dev nD) (t : Fin cfg0.N) (f : Fin 768) (e : Fin 2048) (h : t.val * 768 + f.val < 6144) :
    (iblk0 V c 1 t : Vec Ideal S768x2048 .f32) (ix2 f e) = (V c main_arg3 : S6144x2048.Idx → EReal) (ix2 ⟨t.val * 768 + f.val, h⟩ e) := by
  obtain ⟨-, -, -, e0, e1, -⟩ := blockIdx0 t
  show V c main_arg3 (((cfg0.win 1).blk t).view.emb (ix2 f e)) = V c main_arg3 (ix2 ⟨t.val * 768 + f.val, h⟩ e)
  refine congrArg (V c main_arg3) (funext fun a => Fin.ext ?_)
  match a with
  | ⟨0, _⟩ => show win0_1.index t (0 : Fin 2) * 768 + 1 * f.val = t.val * 768 + f.val; omega
  | ⟨1, _⟩ => show win0_1.index t (1 : Fin 2) * 2048 + 1 * e.val = e.val; omega

/-- The product of two blocks that are the activations and rows `768 q …` of the weights is column block `q` of
    the product of the arrays. -/
theorem blockProduct0 (A : S128x2048.Idx → EReal) (W : S6144x2048.Idx → EReal)
    (x0 : Vec Ideal S128x2048 .f32) (x1 : Vec Ideal S768x2048 .f32) (q : Nat)
    (r : Fin 128) (f : Fin 768) (h : q * 768 + f.val < 6144)
    (h0 : ∀ e : Fin 2048, x0 (ix2 r e) = A (ix2 r e))
    (h1 : ∀ e : Fin 2048, x1 (ix2 f e) = W (ix2 ⟨q * 768 + f.val, h⟩ e)) :
    k0_pay1 (F := Ideal) x0 x1 (ix2 r f) = kLin A W (ix2 r ⟨q * 768 + f.val, h⟩) := by
  rw [pay0_apply, kLin_apply]
  exact Finset.sum_congr rfl fun e _ => by rw [h0 e, h1 e]

/-- What point `t` writes back is block `t` of the product of the activations with all the weight rows. -/
theorem wrote0 (c : Dev nD) (t : Fin cfg0.N) :
    (dat0 (F := Ideal) V c).flushed 2 t
      = ((cfg0.win 2).blk t).view.read (Elt Ideal) (kLin (V c main_v0) (V c main_arg3)) := by
  show (cfg0.win 2).cut (grid0.coords t) ((dat0 (F := Ideal) V c).after 2 t) = _
  rw [after0_2]
  unfold out0_2
  rw [View.canon_unit_zero origin0]
  simp only [View.ld_unit_zero (S := S128x2048) origin0, View.ld_unit_zero (S := S768x2048) origin0]
  obtain ⟨ht, -, -, -, -, e0, e1⟩ := blockIdx0 t
  funext j
  have hj0 : (j 0).val < 128 := (j 0).isLt
  have hj1 : (j 1).val < 768 := (j 1).isLt
  have hcol : t.val * 768 + (j 1).val < 6144 := by omega
  have ej : (cfg0.win 2).xinj (grid0.coords t) j = ix2 (⟨(j 0).val, hj0⟩ : Fin 128) (⟨(j 1).val, hj1⟩ : Fin 768) :=
    funext fun a => by match a with | ⟨0, _⟩ => rfl | ⟨1, _⟩ => rfl
  have ei : ((cfg0.win 2).blk t).view.emb j = ix2 (⟨(j 0).val, hj0⟩ : Fin 128) (⟨t.val * 768 + (j 1).val, hcol⟩ : Fin 6144) :=
    funext fun a => Fin.ext (by
      match a with
      | ⟨0, _⟩ => show win0_2.index t (0 : Fin 2) * 128 + 1 * (j 0).val = (j 0).val; omega
      | ⟨1, _⟩ => show win0_2.index t (1 : Fin 2) * 768 + 1 * (j 1).val = t.val * 768 + (j 1).val; omega)
  show k0_pay1 (F := Ideal) (iblk0 V c 0 t) (iblk0 V c 1 t) ((cfg0.win 2).xinj (grid0.coords t) j)
    = kLin (V c main_v0) (V c main_arg3) (((cfg0.win 2).blk t).view.emb j)
  rw [ej, ei]
  exact blockProduct0 (V c main_v0) (V c main_arg3) (iblk0 V c 0 t) (iblk0 V c 1 t) t.val ⟨(j 0).val, hj0⟩ ⟨(j 1).val, hj1⟩ hcol
    (fun e => actBlock0 V c t ⟨(j 0).val, hj0⟩ e) (fun e => weightBlock0 V c t ⟨(j 1).val, hj1⟩ e hcol)

/-- An index of the output is in point `t`'s block iff each coordinate is in the block's range on its axis. -/
theorem mem_block0 (t : Fin cfg0.N) (i : S128x6144.Idx) :
    i ∈ ((cfg0.win 2).blk t).view.set ↔ ∀ a : Fin 2, win0_2.index t a * S128x768.size a ≤ (i a).val ∧ (i a).val < win0_2.index t a * S128x768.size a + S128x768.size a := by
  show i ∈ ((View.whole main_v1).slice (win0_2.rect t)).set ↔ _
  rw [View.set_slice_whole, Rect.mem_set_unit]
  exact Iff.rfl

/-- The column blocks tile the output: column `f` is in the block of point `f / 768`. -/
theorem tiled0 (i : S128x6144.Idx) :
    ∃ t : Fin cfg0.N, (cfg0.win 2).flush t = true ∧ i ∈ ((cfg0.win 2).blk t).view.set := by
  have hi0 : (i 0).val < 128 := (i 0).isLt
  have hi1 : (i 1).val < 6144 := (i 1).isLt
  obtain ⟨t, ht⟩ := blockOnto0 ⟨(i 1).val / 768, by omega⟩
  have q0 : win0_2.index t (0 : Fin 2) = 0 := congrFun ht 0
  have q1 : win0_2.index t (1 : Fin 2) = (i 1).val / 768 := congrFun ht 1
  refine ⟨t, flush0_2 t, ?_⟩
  rw [mem_block0]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 768 ≤ (i 1).val ∧ (i 1).val < win0_2.index t (1 : Fin 2) * 768 + 768; omega

/-- THE OUTPUT ARRAY after the region: the product of the activations with the weights' rows, whatever it held before. -/
theorem arr0 (c : Dev nD) :
    (dat0 (F := Ideal) V c).arrAt 2 cfg0.N = kLin (V c main_v0) (V c main_arg3) :=
  (dat0 (F := Ideal) V c).arrAt_eq_of_cover 2 (kLin (V c main_v0) (V c main_arg3)) (fun t _ => wrote0 V c t) tiled0

end Cert.KVal

end
-- ==== Proof.KVal.LinArr2.lean ====
/-
  The output projection: from the blocks the grid points write back to the whole output array. Point `t` multiplies the
  whole block of activations with block `t` of 1024 weight rows and writes column block `t` of the output; the 2 column
  blocks tile the output, so the array ends holding the product of the activations with all the weight rows.
-/
import proofs.«176267_j6640019439658_2_alg».proof.Proof.KI.Reg2
import proofs.«176267_j6640019439658_2_alg».proof.Proof.KVal.LinSpec
import proofs.«176267_j6640019439658_2_alg».proof.Proof.KVal.LinPay
import Idealize.ShloMosaic.Lib.ValueIdx
import Idealize.ShloMosaic.Lib.Pipeline.Value
import Idealize.ShloMosaic.PureOps.Ideal.Laws

noncomputable section

open scoped BigOperators

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The printed index maps over the grid: the activations' block never moves, the weights' row block and the
    output's column block are the point's number. -/
theorem blockIdx2 : ∀ t : Fin cfg2.N, t.val < 2
    ∧ win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- Every column block is some point's. -/
theorem blockOnto2 : ∀ q : Fin 2, ∃ t : Fin cfg2.N, win2_2.index t = ![0, q.val] :=
  (by decide +kernel : ∀ q : Fin 2, ∃ t : Fin grid2.N, win2_2.index t = ![0, q.val])

/-- The activations' block at any point is the whole array of activations. -/
theorem actBlock2 (c : Dev nD) (t : Fin cfg2.N) (r : Fin 128) (e : Fin 2048) :
    (iblk2 V c 0 t : Vec Ideal S128x2048 .f32) (ix2 r e) = (V c main_v2_0 : S128x2048.Idx → EReal) (ix2 r e) := by
  obtain ⟨-, e0, e1, -⟩ := blockIdx2 t
  show V c main_v2_0 (((cfg2.win 0).blk t).view.emb (ix2 r e)) = V c main_v2_0 (ix2 r e)
  refine congrArg (V c main_v2_0) (funext fun a => Fin.ext ?_)
  match a with
  | ⟨0, _⟩ => show win2_0.index t (0 : Fin 2) * 128 + 1 * r.val = r.val; omega
  | ⟨1, _⟩ => show win2_0.index t (1 : Fin 2) * 2048 + 1 * e.val = e.val; omega

/-- The weights' block at point `t` is rows `1024 t … 1024 t + 1023` of the weights. -/
theorem weightBlock2 (c : Dev nD) (t : Fin cfg2.N) (f : Fin 1024) (e : Fin 2048) (h : t.val * 1024 + f.val < 2048) :
    (iblk2 V c 1 t : Vec Ideal S1024x2048 .f32) (ix2 f e) = (V c main_arg4 : S2048x2048.Idx → EReal) (ix2 ⟨t.val * 1024 + f.val, h⟩ e) := by
  obtain ⟨-, -, -, e0, e1, -⟩ := blockIdx2 t
  show V c main_arg4 (((cfg2.win 1).blk t).view.emb (ix2 f e)) = V c main_arg4 (ix2 ⟨t.val * 1024 + f.val, h⟩ e)
  refine congrArg (V c main_arg4) (funext fun a => Fin.ext ?_)
  match a with
  | ⟨0, _⟩ => show win2_1.index t (0 : Fin 2) * 1024 + 1 * f.val = t.val * 1024 + f.val; omega
  | ⟨1, _⟩ => show win2_1.index t (1 : Fin 2) * 2048 + 1 * e.val = e.val; omega

/-- The product of two blocks that are the activations and rows `1024 q …` of the weights is column block `q` of
    the product of the arrays. -/
theorem blockProduct2 (A : S128x2048.Idx → EReal) (W : S2048x2048.Idx → EReal)
    (x0 : Vec Ideal S128x2048 .f32) (x1 : Vec Ideal S1024x2048 .f32) (q : Nat)
    (r : Fin 128) (f : Fin 1024) (h : q * 1024 + f.val < 2048)
    (h0 : ∀ e : Fin 2048, x0 (ix2 r e) = A (ix2 r e))
    (h1 : ∀ e : Fin 2048, x1 (ix2 f e) = W (ix2 ⟨q * 1024 + f.val, h⟩ e)) :
    k2_pay1 (F := Ideal) x0 x1 (ix2 r f) = kLin A W (ix2 r ⟨q * 1024 + f.val, h⟩) := by
  rw [pay2_apply, kLin_apply]
  exact Finset.sum_congr rfl fun e _ => by rw [h0 e, h1 e]

/-- What point `t` writes back is block `t` of the product of the activations with all the weight rows. -/
theorem wrote2 (c : Dev nD) (t : Fin cfg2.N) :
    (dat2 (F := Ideal) V c).flushed 2 t
      = ((cfg2.win 2).blk t).view.read (Elt Ideal) (kLin (V c main_v2_0) (V c main_arg4)) := by
  show (cfg2.win 2).cut (grid2.coords t) ((dat2 (F := Ideal) V c).after 2 t) = _
  rw [after2_2]
  unfold out2_2
  rw [View.canon_unit_zero origin2]
  simp only [View.ld_unit_zero (S := S128x2048) origin2, View.ld_unit_zero (S := S1024x2048) origin2]
  obtain ⟨ht, -, -, -, -, e0, e1⟩ := blockIdx2 t
  funext j
  have hj0 : (j 0).val < 128 := (j 0).isLt
  have hj1 : (j 1).val < 1024 := (j 1).isLt
  have hcol : t.val * 1024 + (j 1).val < 2048 := by omega
  have ej : (cfg2.win 2).xinj (grid2.coords t) j = ix2 (⟨(j 0).val, hj0⟩ : Fin 128) (⟨(j 1).val, hj1⟩ : Fin 1024) :=
    funext fun a => by match a with | ⟨0, _⟩ => rfl | ⟨1, _⟩ => rfl
  have ei : ((cfg2.win 2).blk t).view.emb j = ix2 (⟨(j 0).val, hj0⟩ : Fin 128) (⟨t.val * 1024 + (j 1).val, hcol⟩ : Fin 2048) :=
    funext fun a => Fin.ext (by
      match a with
      | ⟨0, _⟩ => show win2_2.index t (0 : Fin 2) * 128 + 1 * (j 0).val = (j 0).val; omega
      | ⟨1, _⟩ => show win2_2.index t (1 : Fin 2) * 1024 + 1 * (j 1).val = t.val * 1024 + (j 1).val; omega)
  show k2_pay1 (F := Ideal) (iblk2 V c 0 t) (iblk2 V c 1 t) ((cfg2.win 2).xinj (grid2.coords t) j)
    = kLin (V c main_v2_0) (V c main_arg4) (((cfg2.win 2).blk t).view.emb j)
  rw [ej, ei]
  exact blockProduct2 (V c main_v2_0) (V c main_arg4) (iblk2 V c 0 t) (iblk2 V c 1 t) t.val ⟨(j 0).val, hj0⟩ ⟨(j 1).val, hj1⟩ hcol
    (fun e => actBlock2 V c t ⟨(j 0).val, hj0⟩ e) (fun e => weightBlock2 V c t ⟨(j 1).val, hj1⟩ e hcol)

/-- An index of the output is in point `t`'s block iff each coordinate is in the block's range on its axis. -/
theorem mem_block2 (t : Fin cfg2.N) (i : S128x2048.Idx) :
    i ∈ ((cfg2.win 2).blk t).view.set ↔ ∀ a : Fin 2, win2_2.index t a * S128x1024.size a ≤ (i a).val ∧ (i a).val < win2_2.index t a * S128x1024.size a + S128x1024.size a := by
  show i ∈ ((View.whole main_v3).slice (win2_2.rect t)).set ↔ _
  rw [View.set_slice_whole, Rect.mem_set_unit]
  exact Iff.rfl

/-- The column blocks tile the output: column `f` is in the block of point `f / 1024`. -/
theorem tiled2 (i : S128x2048.Idx) :
    ∃ t : Fin cfg2.N, (cfg2.win 2).flush t = true ∧ i ∈ ((cfg2.win 2).blk t).view.set := by
  have hi0 : (i 0).val < 128 := (i 0).isLt
  have hi1 : (i 1).val < 2048 := (i 1).isLt
  obtain ⟨t, ht⟩ := blockOnto2 ⟨(i 1).val / 1024, by omega⟩
  have q0 : win2_2.index t (0 : Fin 2) = 0 := congrFun ht 0
  have q1 : win2_2.index t (1 : Fin 2) = (i 1).val / 1024 := congrFun ht 1
  refine ⟨t, flush2_2 t, ?_⟩
  rw [mem_block2]
  intro a
  match a with
  | ⟨0, _⟩ => show win2_2.index t (0 : Fin 2) * 128 ≤ (i 0).val ∧ (i 0).val < win2_2.index t (0 : Fin 2) * 128 + 128; omega
  | ⟨1, _⟩ => show win2_2.index t (1 : Fin 2) * 1024 ≤ (i 1).val ∧ (i 1).val < win2_2.index t (1 : Fin 2) * 1024 + 1024; omega

/-- THE OUTPUT ARRAY after the region: the product of the activations with the weights' rows, whatever it held before. -/
theorem arr2 (c : Dev nD) :
    (dat2 (F := Ideal) V c).arrAt 2 cfg2.N = kLin (V c main_v2_0) (V c main_arg4) :=
  (dat2 (F := Ideal) V c).arrAt_eq_of_cover 2 (kLin (V c main_v2_0) (V c main_arg4)) (fun t _ => wrote2 V c t) tiled2

end Cert.KVal

end
-- ==== Proof.KVal.AttnSpec.lean ====
/-
  The attention region's three results as explicit functions of the arrays the region finds, index by index, on the
  extended reals. With qkv : [128, 6144] the fused projection (row 8·b + n is query position n of batch row b; column
  128·h + d is lane d of head h of the queries, 2048 + 128·h + d of the new keys, 4096 + 128·h + d of the new
  values) and pk, pv : [16, 16, 4096, 128] the cached keys and values:
    keys(b, h, j, d)   = pk(b, h, j, d) for j < 4096, and qkv(8·b + (j − 4096), 2048 + 128·h + d) for 4096 ≤ j < 4104
    values(b, h, j, d) = pv(b, h, j, d) for j < 4096, and qkv(8·b + (j − 4096), 4096 + 128·h + d) for 4096 ≤ j < 4104
    q(d')              = qkv(8·b + n, 128·h + d')
    sP(a)              = (∑ d', q(d') · pk(b, h, a, d')) · scale                      a < 4096
    sN(j)              = (∑ d', q(d') · qkv(8·b + j, 2048 + 128·h + d')) · scale      j < 8
    m                  = max (fold of max from −∞ over a of sP(a)) (fold of max from −∞ over j of sN(j))
    pP(a)              = exp(sP(a) − m),  pN(j) = exp(sN(j) − m)
    l                  = (∑ a, pP(a)) + (∑ j, pN(j))
    inv                = 1 / l
    attn(8·b + n, 128·h + d) = (∑ a, (pP(a) · inv) · pv(b, h, a, d)) + (∑ j, (pN(j) · inv) · qkv(8·b + j, 4096 + 128·h + d))
  The float literals (the scale 128^(-1/2), −∞ and 1) are kept as the words the program prints.
-/
import Idealize.ShloMosaic.PureOps.Ideal
import Idealize.ShloMosaic.Lib.ValueIdx

noncomputable section

open scoped BigOperators

namespace Cert.KVal.Attn

open Idealize.ShloMosaic Idealize.ShloMosaic.ValueIdx

/-! ## Shapes and literals -/

/-- The fused projection's shape. -/
abbrev SQkv : Shape := ⟨2, ![128, 6144]⟩
/-- A cache as the region finds it. -/
abbrev SPast : Shape := ⟨4, ![16, 16, 4096, 128]⟩
/-- A cache with the eight new rows appended. -/
abbrev SGrown : Shape := ⟨4, ![16, 16, 4104, 128]⟩
/-- The attention rows' shape. -/
abbrev SAttn : Shape := ⟨2, ![128, 2048]⟩

/-- The softmax scale 128^(-1/2), as the f32 word the program prints. -/
def scale : EReal := Ideal.ofBits .f32 0x3DB504F3#32
/-- The f32 word of −∞: where each row maximum starts. -/
def negInf : EReal := Ideal.ofBits .f32 0xFF800000#32
/-- The f32 word of 1: the numerator of the normaliser's inverse. -/
def oneLit : EReal := Ideal.ofBits .f32 0x3F800000#32

/-- Row 8·b + n of the fused projection: query position n of batch row b. -/
abbrev row (b : Fin 16) (n : Fin 8) : Fin 128 := ⟨8 * b.val + n.val, by have := b.isLt; have := n.isLt; omega⟩

/-- Column off + 128·h + d of the fused projection: lane d of head h in the third that starts at off. -/
abbrev col (off : Nat) (hoff : off ≤ 4096) (h : Fin 16) (d : Fin 128) : Fin 6144 :=
  ⟨off + 128 * h.val + d.val, by have := h.isLt; have := d.isLt; omega⟩

/-! ## The caches with the new rows appended -/

/-- A grown cache at (b, h, j, d): the cached entry for j < 4096, and after it row j − 4096 of the batch row's new
    entries, read from the third of the fused projection that starts at column off. -/
def grownAt (off : Nat) (hoff : off ≤ 4096) (qkv : SQkv.Idx → EReal) (past : SPast.Idx → EReal)
    (b h : Fin 16) (j : Fin 4104) (d : Fin 128) : EReal :=
  if hj : j.val < 4096 then past (ix4 b h ⟨j.val, hj⟩ d)
  else qkv (ix2 (row b ⟨j.val - 4096, by have := j.isLt; omega⟩) (col off hoff h d))

/-- The key cache after the region. -/
def kKeys (qkv : SQkv.Idx → EReal) (pk : SPast.Idx → EReal) : SGrown.Idx → EReal :=
  fun i => grownAt 2048 (by omega) qkv pk (i 0) (i 1) (i 2) (i 3)

/-- The value cache after the region. -/
def kVals (qkv : SQkv.Idx → EReal) (pv : SPast.Idx → EReal) : SGrown.Idx → EReal :=
  fun i => grownAt 4096 (by omega) qkv pv (i 0) (i 1) (i 2) (i 3)

theorem kKeys_ix4 (qkv : SQkv.Idx → EReal) (pk : SPast.Idx → EReal) (b h : Fin 16) (j : Fin 4104) (d : Fin 128) :
    kKeys qkv pk (ix4 b h j d) = grownAt 2048 (by omega) qkv pk b h j d := rfl

theorem kVals_ix4 (qkv : SQkv.Idx → EReal) (pv : SPast.Idx → EReal) (b h : Fin 16) (j : Fin 4104) (d : Fin 128) :
    kVals qkv pv (ix4 b h j d) = grownAt 4096 (by omega) qkv pv b h j d := rfl

/-! ## The attention rows -/

/-- The query of position n of batch row b, head h, lane d. -/
def qAt (qkv : SQkv.Idx → EReal) (b h : Fin 16) (n : Fin 8) (d : Fin 128) : EReal :=
  qkv (ix2 (row b n) (col 0 (by omega) h d))

/-- The new key of position j. -/
def kNewAt (qkv : SQkv.Idx → EReal) (b h : Fin 16) (j : Fin 8) (d : Fin 128) : EReal :=
  qkv (ix2 (row b j) (col 2048 (by omega) h d))

/-- The new value of position j. -/
def vNewAt (qkv : SQkv.Idx → EReal) (b h : Fin 16) (j : Fin 8) (d : Fin 128) : EReal :=
  qkv (ix2 (row b j) (col 4096 (by omega) h d))

/-- The scaled score of the query against cached key a. -/
def sPast (qkv : SQkv.Idx → EReal) (pk : SPast.Idx → EReal) (b h : Fin 16) (n : Fin 8) (a : Fin 4096) : EReal :=
  (∑ d : Fin 128, qAt qkv b h n d * pk (ix4 b h a d)) * scale

/-- The scaled score of the query against new key j. -/
def sNew (qkv : SQkv.Idx → EReal) (b h : Fin 16) (n : Fin 8) (j : Fin 8) : EReal :=
  (∑ d : Fin 128, qAt qkv b h n d * kNewAt qkv b h j d) * scale

/-- The row maximum: the larger of the two lane maxima, each folded from −∞. -/
def rowMax (qkv : SQkv.Idx → EReal) (pk : SPast.Idx → EReal) (b h : Fin 16) (n : Fin 8) : EReal :=
  max ((Finset.univ : Finset (Fin 4096)).fold max negInf (fun a => sPast qkv pk b h n a))
    ((Finset.univ : Finset (Fin 8)).fold max negInf (fun j => sNew qkv b h n j))

/-- The unnormalised weight of cached position a. -/
def pPast (qkv : SQkv.Idx → EReal) (pk : SPast.Idx → EReal) (b h : Fin 16) (n : Fin 8) (a : Fin 4096) : EReal :=
  Ideal.exp (sPast qkv pk b h n a - rowMax qkv pk b h n)

/-- The unnormalised weight of new position j. -/
def pNew (qkv : SQkv.Idx → EReal) (pk : SPast.Idx → EReal) (b h : Fin 16) (n : Fin 8) (j : Fin 8) : EReal :=
  Ideal.exp (sNew qkv b h n j - rowMax qkv pk b h n)

/-- The normaliser: the two lane sums added. -/
def rowSum (qkv : SQkv.Idx → EReal) (pk : SPast.Idx → EReal) (b h : Fin 16) (n : Fin 8) : EReal :=
  (∑ a : Fin 4096, pPast qkv pk b h n a) + (∑ j : Fin 8, pNew qkv pk b h n j)

/-- Its inverse, the kernel's division of the literal 1. -/
def rowInv (qkv : SQkv.Idx → EReal) (pk : SPast.Idx → EReal) (b h : Fin 16) (n : Fin 8) : EReal :=
  Ideal.div oneLit (rowSum qkv pk b h n)

/-- The attention output of position n of batch row b, head h, lane d: the weighted cached values plus the weighted
    new values, each weight normalised before its product. -/
def attnAt (qkv : SQkv.Idx → EReal) (pk pv : SPast.Idx → EReal) (b h : Fin 16) (n : Fin 8) (d : Fin 128) : EReal :=
  (∑ a : Fin 4096, (pPast qkv pk b h n a * rowInv qkv pk b h n) * pv (ix4 b h a d))
    + (∑ j : Fin 8, (pNew qkv pk b h n j * rowInv qkv pk b h n) * vNewAt qkv b h j d)

/-- The attention rows after the region: entry (r, c) is batch row r / 8, position r % 8, head c / 128, lane c % 128. -/
def kAttn (qkv : SQkv.Idx → EReal) (pk pv : SPast.Idx → EReal) : SAttn.Idx → EReal :=
  fun i => attnAt qkv pk pv ⟨(i 0).val / 8, by have := idx2_lt0 i; omega⟩ ⟨(i 1).val / 128, by have := idx2_lt1 i; omega⟩
    ⟨(i 0).val % 8, Nat.mod_lt _ (by omega)⟩ ⟨(i 1).val % 128, Nat.mod_lt _ (by omega)⟩

end Cert.KVal.Attn

end
-- ==== Proof.KVal.LinChain.lean ====
/-
  The three regions chained, over any boundary contents: if the attention region finds the first projection's output
  array, and the output projection finds the attention rows, then the cache results are the grown caches of the fused
  projection `x · W_qkvᵀ` and the output projection's array is `attention(x · W_qkvᵀ) · W_outᵀ`. The attention
  region's three arrays enter as hypotheses on its proof data, for every entry contents.
-/
import proofs.«176267_j6640019439658_2_alg».proof.Proof.KI.Reg1
import proofs.«176267_j6640019439658_2_alg».proof.Proof.KVal.LinArr0
import proofs.«176267_j6640019439658_2_alg».proof.Proof.KVal.LinArr2
import proofs.«176267_j6640019439658_2_alg».proof.Proof.KVal.AttnSpec

noncomputable section

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

/-- Contents of every unscoped buffer of every core at a boundary. -/
abbrev Contents : Type := (c : Dev nD) → (b : Ref sig .tc) → Buf (Elt Ideal) ((c : Thread nD τ).loc b)

/-- The attention rows after the attention region, for every entry contents. -/
abbrev AttnRows : Prop := ∀ (V : Contents) (c : Dev nD),
  (dat1 (F := Ideal) V c).arrAt 5 cfg1.N = Attn.kAttn (V c main_v1) (V c main_arg1) (V c main_arg2)
/-- The grown key cache after the attention region, for every entry contents. -/
abbrev GrownKeys : Prop := ∀ (V : Contents) (c : Dev nD),
  (dat1 (F := Ideal) V c).arrAt 6 cfg1.N = Attn.kKeys (V c main_v1) (V c main_arg1)
/-- The grown value cache after the attention region, for every entry contents. -/
abbrev GrownVals : Prop := ∀ (V : Contents) (c : Dev nD),
  (dat1 (F := Ideal) V c).arrAt 7 cfg1.N = Attn.kVals (V c main_v1) (V c main_arg2)

variable (V1 V2 V3 : Contents) (c : Dev nD)
variable (wq : S6144x2048.Idx → EReal) (wo : S2048x2048.Idx → EReal) (pk pv : Attn.SPast.Idx → EReal)

/-- The fused projection as the attention region finds it. -/
theorem chain_qkv (h21 : V2 c main_v1 = (dat0 (F := Ideal) V1 c).arrAt 2 cfg0.N)
    (hwq : (V1 c main_arg3 : S6144x2048.Idx → EReal) = wq) :
    (V2 c main_v1 : S128x6144.Idx → EReal) = kLin (V1 c main_v0) wq :=
  h21.trans ((arr0 V1 c).trans (congrArg (kLin (n := 6144) (V1 c main_v0)) hwq))

/-- The key cache result. -/
theorem chain_keys (h6 : GrownKeys) (h21 : V2 c main_v1 = (dat0 (F := Ideal) V1 c).arrAt 2 cfg0.N)
    (hwq : (V1 c main_arg3 : S6144x2048.Idx → EReal) = wq) (hpk : (V2 c main_arg1 : Attn.SPast.Idx → EReal) = pk) :
    (dat1 (F := Ideal) V2 c).arrAt 6 cfg1.N = Attn.kKeys (kLin (V1 c main_v0) wq) pk := by
  rw [h6 V2 c, chain_qkv V1 V2 c wq h21 hwq, hpk]

/-- The value cache result. -/
theorem chain_vals (h7 : GrownVals) (h21 : V2 c main_v1 = (dat0 (F := Ideal) V1 c).arrAt 2 cfg0.N)
    (hwq : (V1 c main_arg3 : S6144x2048.Idx → EReal) = wq) (hpv : (V2 c main_arg2 : Attn.SPast.Idx → EReal) = pv) :
    (dat1 (F := Ideal) V2 c).arrAt 7 cfg1.N = Attn.kVals (kLin (V1 c main_v0) wq) pv := by
  rw [h7 V2 c, chain_qkv V1 V2 c wq h21 hwq, hpv]

/-- The attention rows as the output projection finds them. -/
theorem chain_attn (h5 : AttnRows) (h21 : V2 c main_v1 = (dat0 (F := Ideal) V1 c).arrAt 2 cfg0.N)
    (hwq : (V1 c main_arg3 : S6144x2048.Idx → EReal) = wq) (hpk : (V2 c main_arg1 : Attn.SPast.Idx → EReal) = pk)
    (hpv : (V2 c main_arg2 : Attn.SPast.Idx → EReal) = pv)
    (h32 : V3 c main_v2_0 = (dat1 (F := Ideal) V2 c).arrAt 5 cfg1.N) :
    (V3 c main_v2_0 : S128x2048.Idx → EReal) = Attn.kAttn (kLin (V1 c main_v0) wq) pk pv := by
  rw [h32, h5 V2 c, chain_qkv V1 V2 c wq h21 hwq, hpk, hpv]

/-- The output projection's array after the region. -/
theorem chain_out (h5 : AttnRows) (h21 : V2 c main_v1 = (dat0 (F := Ideal) V1 c).arrAt 2 cfg0.N)
    (hwq : (V1 c main_arg3 : S6144x2048.Idx → EReal) = wq) (hpk : (V2 c main_arg1 : Attn.SPast.Idx → EReal) = pk)
    (hpv : (V2 c main_arg2 : Attn.SPast.Idx → EReal) = pv)
    (h32 : V3 c main_v2_0 = (dat1 (F := Ideal) V2 c).arrAt 5 cfg1.N)
    (hwo : (V3 c main_arg4 : S2048x2048.Idx → EReal) = wo) :
    (dat2 (F := Ideal) V3 c).arrAt 2 cfg2.N = kLin (Attn.kAttn (kLin (V1 c main_v0) wq) pk pv) wo :=
  (arr2 V3 c).trans (by rw [chain_attn V1 V2 V3 c wq pk pv h5 h21 hwq hpk hpv h32, hwo])

end Cert.KVal

end
-- ==== Proof.KI.Assemble.lean ====
/-
  The kernel side assembled: the program's results as functions of the launch memory. With `x` the layer's input
  [16, 8, 2048], `pk`, `pv` the cached keys and values and `W_qkv`, `W_out` the weights, the flattened
  activations `X` have row `r` at position `r % 8` of batch row `r / 8` of `x`; the cache results are the caches
  grown by the new keys and values of `X · W_qkvᵀ`; and the layer's result at position `n` of batch row `b` is row
  `8 b + n` of `attention(X · W_qkvᵀ) · W_outᵀ`.
-/
import proofs.«176267_j6640019439658_2_alg».proof.Proof.KI.Walk
import proofs.«176267_j6640019439658_2_alg».proof.Proof.KVal.LinHost
import proofs.«176267_j6640019439658_2_alg».proof.Proof.KVal.LinChain

noncomputable section

namespace Cert.KVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The flattened activations the first projection reads, on core `c`. -/
abbrev flatX (c : Dev nD) : S128x2048.Idx → EReal := V1 m ρ c main_v0
/-- The fused projection `X · W_qkvᵀ` on core `c`. -/
abbrev fusedQKV (c : Dev nD) : S128x6144.Idx → EReal :=
  kLin (flatX m ρ c) (m ((c : Thread nD τ).loc main_arg3) : S6144x2048.Idx → EReal)

/-- Row `r` of the flattened activations is position `r % 8` of batch row `r / 8` of the layer's input. -/
theorem flatX_apply (c : Dev nD) (r : Fin 128) (e : Fin 2048) :
    flatX m ρ c (ix2 r e) = (m ((c : Thread nD τ).loc main_arg0) : S16x8x2048.Idx → EReal)
      (ix3 (⟨r.val / 8, by have := r.isLt; omega⟩ : Fin 16) (⟨r.val % 8, by omega⟩ : Fin 8) e) := by
  have h : 8 * (r.val / 8) + r.val % 8 < 128 := by have := r.isLt; omega
  have hr : (⟨8 * (r.val / 8) + r.val % 8, h⟩ : Fin 128) = r := Fin.ext (by show 8 * (r.val / 8) + r.val % 8 = r.val; omega)
  refine (congrArg (fun q : Fin 128 => flatX m ρ c (ix2 q e)) hr).symm.trans ?_
  exact flatIn (W0 m ρ c) ⟨r.val / 8, by have := r.isLt; omega⟩ ⟨r.val % 8, by omega⟩ e h

/-- The key cache result: the cached keys grown by the new keys of the fused projection. -/
theorem keys_result (h6 : GrownKeys) (c : Dev nD) :
    (W5 m ρ c (Proc.devRef .tc main_v2_1) : Attn.SGrown.Idx → EReal)
      = Attn.kKeys (fusedQKV m ρ c) (m ((c : Thread nD τ).loc main_arg1)) :=
  (W5_v2_1 m ρ c).trans
    (chain_keys (V1 m ρ) (V2 m ρ) c _ _ h6 (V2_v1 m ρ c) (V1_arg3 m ρ c) (V2_arg1 m ρ c))

/-- The value cache result: the cached values grown by the new values of the fused projection. -/
theorem vals_result (h7 : GrownVals) (c : Dev nD) :
    (W5 m ρ c (Proc.devRef .tc main_v2_2) : Attn.SGrown.Idx → EReal)
      = Attn.kVals (fusedQKV m ρ c) (m ((c : Thread nD τ).loc main_arg2)) :=
  (W5_v2_2 m ρ c).trans
    (chain_vals (V1 m ρ) (V2 m ρ) c _ _ h7 (V2_v1 m ρ c) (V1_arg3 m ρ c) (V2_arg2 m ρ c))

/-- The output projection's array at the last boundary but one. -/
theorem out_rows (h5 : AttnRows) (c : Dev nD) :
    (W4 m ρ c (Proc.devRef .tc main_v3) : S128x2048.Idx → EReal)
      = kLin (Attn.kAttn (fusedQKV m ρ c) (m ((c : Thread nD τ).loc main_arg1)) (m ((c : Thread nD τ).loc main_arg2)))
          (m ((c : Thread nD τ).loc main_arg4) : S2048x2048.Idx → EReal) :=
  (W4_v3 m ρ c).trans
    (chain_out (V1 m ρ) (V2 m ρ) (V3 m ρ) c _ _ _ _ h5 (V2_v1 m ρ c) (V1_arg3 m ρ c) (V2_arg1 m ρ c)
      (V2_arg2 m ρ c) (V3_v2_0 m ρ c) (V3_arg4 m ρ c))

/-- The layer's result at position `n` of batch row `b`: row `8 b + n` of the output projection of the attention rows. -/
theorem layer_result (h5 : AttnRows) (c : Dev nD) (b : Fin 16) (n : Fin 8) (f : Fin 2048) (h : 8 * b.val + n.val < 128) :
    (W5 m ρ c (Proc.devRef .tc main_v4) : S16x8x2048.Idx → EReal) (ix3 b n f)
      = kLin (Attn.kAttn (fusedQKV m ρ c) (m ((c : Thread nD τ).loc main_arg1)) (m ((c : Thread nD τ).loc main_arg2)))
          (m ((c : Thread nD τ).loc main_arg4) : S2048x2048.Idx → EReal) (ix2 (⟨8 * b.val + n.val, h⟩ : Fin 128) f) :=
  (unflatOut (W4 m ρ c) b n f h).trans (congrFun (out_rows m ρ h5 c) _)

end Cert.KVal

end
-- ==== Proof.RefSpec.lean ====
/-
  The reference's three results as explicit functions of the five argument arrays, index by index, on the
  extended reals: multi-head attention over a key/value cache. With x : [16, 8, 2048], cached keys and values
  pk, pv : [16, 16, 4096, 128], wq : [6144, 2048] and wo : [2048, 2048]:
    qkv(b, n, f)      = ∑ e, x(b, n, e) · wq(f, e)
    q(b, h, n, d)     = qkv(b, n, h·128 + d)
    K(b, h, j, d)     = pk(b, h, j, d) for j < 4096, and qkv(b, j − 4096, 2048 + h·128 + d) for 4096 ≤ j < 4104
    V(b, h, j, d)     = pv(b, h, j, d) for j < 4096, and qkv(b, j − 4096, 4096 + h·128 + d) for 4096 ≤ j < 4104
    s(b, h, n, j)     = (∑ d, q(b, h, n, d) · K(b, h, j, d)) · scale
    m(b, h, n)        = max(−∞, fold of max from −∞ over j of s(b, h, n, j))
    p(b, h, n, j)     = exp(s(b, h, n, j) − m(b, h, n))
    l(b, h, n)        = 0 + ∑ j, p(b, h, n, j)
    a(b, h, n, j)     = p(b, h, n, j) / l(b, h, n)
    o(b, h, n, d)     = ∑ j, a(b, h, n, j) · V(b, h, j, d)
    out(b, n, f)      = ∑ e, o(b, e / 128, n, e % 128) · wo(f, e)
  The three float literals (the scale 128^(-1/2), −∞ and 0) are kept as the words the program prints.
-/
import Idealize.ShloMosaic.PureOps.Ideal
import Idealize.ShloMosaic.Lib.ValueIdx

noncomputable section

open scoped BigOperators

namespace Cert.RefSide

open Idealize.ShloMosaic Idealize.ShloMosaic.ValueIdx

/-! ## Shapes and literals -/

abbrev SX : Shape := ⟨3, ![16, 8, 2048]⟩
abbrev SCache : Shape := ⟨4, ![16, 16, 4096, 128]⟩
abbrev SWqkv : Shape := ⟨2, ![6144, 2048]⟩
abbrev SWout : Shape := ⟨2, ![2048, 2048]⟩
abbrev SKV : Shape := ⟨4, ![16, 16, 4104, 128]⟩

/-- The softmax scale 128^(-1/2), as the f32 word the program prints. -/
def scale : EReal := Ideal.ofBits .f32 0x3DB504F3#32
/-- The f32 word of −∞: the initial value of the row maximum. -/
def negInf : EReal := Ideal.ofBits .f32 0xFF800000#32
/-- The f32 zero word: the initial value of the row sum. -/
def zeroLit : EReal := Ideal.ofBits .f32 0x00000000#32

/-- Column `off + h·128 + d` of the fused projection: head `h`, lane `d` of the third starting at `off`. -/
abbrev col (off : Nat) (hoff : off ≤ 4096) (h : Fin 16) (d : Fin 128) : Fin 6144 :=
  ⟨off + h.val * 128 + d.val, by have := h.isLt; have := d.isLt; omega⟩

/-! ## The fused projection and its three thirds by heads -/

/-- qkv(b, n, f) = ∑ e, x(b, n, e) · wq(f, e). -/
def refQKV (x : SX.Idx → EReal) (wq : SWqkv.Idx → EReal) (b : Fin 16) (n : Fin 8) (f : Fin 6144) : EReal :=
  ∑ e : Fin 2048, x (ix3 b n e) * wq (ix2 f e)

/-- q(b, h, n, d) = qkv(b, n, h·128 + d). -/
def refQ (x : SX.Idx → EReal) (wq : SWqkv.Idx → EReal) (b h : Fin 16) (n : Fin 8) (d : Fin 128) : EReal :=
  refQKV x wq b n (col 0 (by omega) h d)

/-- The new key rows: k_new(b, h, n, d) = qkv(b, n, 2048 + h·128 + d). -/
def refKnew (x : SX.Idx → EReal) (wq : SWqkv.Idx → EReal) (b h : Fin 16) (n : Fin 8) (d : Fin 128) : EReal :=
  refQKV x wq b n (col 2048 (by omega) h d)

/-- The new value rows: v_new(b, h, n, d) = qkv(b, n, 4096 + h·128 + d). -/
def refVnew (x : SX.Idx → EReal) (wq : SWqkv.Idx → EReal) (b h : Fin 16) (n : Fin 8) (d : Fin 128) : EReal :=
  refQKV x wq b n (col 4096 (by omega) h d)

/-! ## The cache with the new rows appended -/

/-- K(b, h, j, d): the cached key for j < 4096, the new key row j − 4096 after it. -/
def refKat (x : SX.Idx → EReal) (pk : SCache.Idx → EReal) (wq : SWqkv.Idx → EReal)
    (b h : Fin 16) (j : Fin 4104) (d : Fin 128) : EReal :=
  if hj : j.val < 4096 then pk (ix4 b h ⟨j.val, hj⟩ d)
  else refKnew x wq b h ⟨j.val - 4096, by have := j.isLt; omega⟩ d

/-- V(b, h, j, d): the cached value for j < 4096, the new value row j − 4096 after it. -/
def refVat (x : SX.Idx → EReal) (pv : SCache.Idx → EReal) (wq : SWqkv.Idx → EReal)
    (b h : Fin 16) (j : Fin 4104) (d : Fin 128) : EReal :=
  if hj : j.val < 4096 then pv (ix4 b h ⟨j.val, hj⟩ d)
  else refVnew x wq b h ⟨j.val - 4096, by have := j.isLt; omega⟩ d

/-- The second result: the key cache with the new rows appended, as an array. -/
def refK (x : SX.Idx → EReal) (pk : SCache.Idx → EReal) (wq : SWqkv.Idx → EReal) : SKV.Idx → EReal :=
  fun i => refKat x pk wq (i 0) (i 1) (i 2) (i 3)

/-- The third result: the value cache with the new rows appended, as an array. -/
def refV (x : SX.Idx → EReal) (pv : SCache.Idx → EReal) (wq : SWqkv.Idx → EReal) : SKV.Idx → EReal :=
  fun i => refVat x pv wq (i 0) (i 1) (i 2) (i 3)

/-! ## Scaled scores, softmax, and the output projection -/

/-- s(b, h, n, j) = (∑ d, q(b, h, n, d) · K(b, h, j, d)) · scale. -/
def refScore (x : SX.Idx → EReal) (pk : SCache.Idx → EReal) (wq : SWqkv.Idx → EReal)
    (b h : Fin 16) (n : Fin 8) (j : Fin 4104) : EReal :=
  (∑ d : Fin 128, refQ x wq b h n d * refKat x pk wq b h j d) * scale

/-- m(b, h, n): the maximum of −∞ and the fold of `max` from −∞ over the row's scores, as the reference spells it. -/
def refMax (x : SX.Idx → EReal) (pk : SCache.Idx → EReal) (wq : SWqkv.Idx → EReal)
    (b h : Fin 16) (n : Fin 8) : EReal :=
  max negInf ((Finset.univ : Finset (Fin 4104)).fold max negInf (fun j => refScore x pk wq b h n j))

/-- p(b, h, n, j) = exp(s(b, h, n, j) − m(b, h, n)). -/
def refP (x : SX.Idx → EReal) (pk : SCache.Idx → EReal) (wq : SWqkv.Idx → EReal)
    (b h : Fin 16) (n : Fin 8) (j : Fin 4104) : EReal :=
  Ideal.exp (refScore x pk wq b h n j - refMax x pk wq b h n)

/-- l(b, h, n) = 0 + ∑ j, p(b, h, n, j). -/
def refL (x : SX.Idx → EReal) (pk : SCache.Idx → EReal) (wq : SWqkv.Idx → EReal)
    (b h : Fin 16) (n : Fin 8) : EReal :=
  zeroLit + ∑ j : Fin 4104, refP x pk wq b h n j

/-- a(b, h, n, j) = p(b, h, n, j) / l(b, h, n), the host's division. -/
def refAttn (x : SX.Idx → EReal) (pk : SCache.Idx → EReal) (wq : SWqkv.Idx → EReal)
    (b h : Fin 16) (n : Fin 8) (j : Fin 4104) : EReal :=
  Ideal.div (refP x pk wq b h n j) (refL x pk wq b h n)

/-- o(b, h, n, d) = ∑ j, a(b, h, n, j) · V(b, h, j, d). -/
def refO (x : SX.Idx → EReal) (pk pv : SCache.Idx → EReal) (wq : SWqkv.Idx → EReal)
    (b h : Fin 16) (n : Fin 8) (d : Fin 128) : EReal :=
  ∑ j : Fin 4104, refAttn x pk wq b h n j * refVat x pv wq b h j d

/-- out(b, n, f) = ∑ e, o(b, e / 128, n, e % 128) · wo(f, e). -/
def refOutAt (x : SX.Idx → EReal) (pk pv : SCache.Idx → EReal) (wq : SWqkv.Idx → EReal) (wo : SWout.Idx → EReal)
    (b : Fin 16) (n : Fin 8) (f : Fin 2048) : EReal :=
  ∑ e : Fin 2048, refO x pk pv wq b ⟨e.val / 128, by have := e.isLt; omega⟩ n ⟨e.val % 128, Nat.mod_lt _ (by decide)⟩
    * wo (ix2 f e)

/-- The first result: the attention output after the output projection, as an array. -/
def refOut (x : SX.Idx → EReal) (pk pv : SCache.Idx → EReal) (wq : SWqkv.Idx → EReal) (wo : SWout.Idx → EReal) :
    SX.Idx → EReal :=
  fun i => refOutAt x pk pv wq wo (i 0) (i 1) (i 2)

end Cert.RefSide

end
-- ==== Proof.AlgSoftmax.lean ====
/-
  SOFTMAX-WEIGHTED SUMS ON THE EXTENDED REALS: TWO ARRANGEMENTS, ONE VALUE.

  Fix one query row. Its keys are indexed by a finite type ι that is split into two parts, α (the cached keys) and
  β (the new keys), by a bijection e : α ⊕ β ≃ ι. With scores s and values v on ι:

    reference   m' = max ⊥ (max over ι of s, from ⊥),  p j = exp (s j - m'),  l' = 0 + ∑ j, p j,
                o' = ∑ j, (p j / l') * v j;
    kernel      m  = max (max over α of s, from ⊥) (max over β of s, from ⊥),  p as above with m,
                l = (∑ over α of p) + (∑ over β of p),  inv = 1 / l,
                o = ∑ over α of (p * inv) * v + ∑ over β of (p * inv) * v.

  When every score and value is a real number (and ι is not empty) the two are equal: m = m' is the largest score,
  a real; every p is a positive real; l = l' is a positive real, so 1 / l is its real inverse and
  p * (1 / l) = p / l; both sides are then the same finite sum of real products, split along e.
  Every operation is the one the ideal float instance uses: the order's max, EReal's + - *, `Ideal.exp`, `Ideal.div`.
  The law fails at infinite entries (there l may be ⊤ and ⊤ * ⊤⁻¹ is 0, not 1), hence the hypothesis.
-/
import Idealize.ShloMosaic.PureOps.Ideal
import Idealize.ShloMosaic.PureOps.Ideal.Laws

noncomputable section

namespace Cert.Alg

open Idealize.ShloMosaic
open scoped BigOperators

/-! ## The three literals -/

/-- The f32 pattern of +0.0 denotes 0. -/
theorem ofBits_zero : Ideal.ofBits .f32 0x00000000#32 = (0 : EReal) := by simp [Ideal.ofBits, Ideal.ieee]
/-- The f32 pattern of 1.0 denotes 1. -/
theorem ofBits_one : Ideal.ofBits .f32 0x3F800000#32 = (1 : EReal) := by
  simp [Ideal.ofBits, Ideal.ieee, -EReal.coe_mul] <;> norm_num
/-- The f32 pattern of -∞ denotes ⊥. -/
theorem ofBits_neg_inf : Ideal.ofBits .f32 0xFF800000#32 = (⊥ : EReal) := by simp [Ideal.ofBits, Ideal.ieee]

/-! ## Finite sums of coerced reals are coerced reals -/

section Coe
variable {κ : Type*}

/-- The coercion of the reals into the extended reals commutes with finite sums. -/
theorem coe_sum (t : Finset κ) (x : κ → ℝ) : ∑ k ∈ t, ((x k : ℝ) : EReal) = ((∑ k ∈ t, x k : ℝ) : EReal) := by
  classical
  induction t using Finset.induction_on with
  | empty => simp
  | insert a t ha ih => rw [Finset.sum_insert ha, Finset.sum_insert ha, ih, EReal.coe_add]

/-- A finite sum of products of coerced reals is the coerced real sum of products. -/
theorem sum_coe_mul_coe (t : Finset κ) (x y : κ → ℝ) :
    ∑ k ∈ t, ((x k : ℝ) : EReal) * ((y k : ℝ) : EReal) = ((∑ k ∈ t, x k * y k : ℝ) : EReal) := by
  rw [← coe_sum]; exact Finset.sum_congr rfl fun k _ => (EReal.coe_mul _ _).symm

/-- … from an initial 0 (a contraction onto a zero accumulator). -/
theorem zero_add_sum_coe_mul_coe (t : Finset κ) (x y : κ → ℝ) :
    (0 : EReal) + ∑ k ∈ t, ((x k : ℝ) : EReal) * ((y k : ℝ) : EReal) = ((∑ k ∈ t, x k * y k : ℝ) : EReal) := by
  rw [zero_add, sum_coe_mul_coe]

/-- … times a coerced real on the right (a contraction then scaled by a literal). -/
theorem sum_coe_mul_coe_mul (t : Finset κ) (x y : κ → ℝ) (c : ℝ) :
    (∑ k ∈ t, ((x k : ℝ) : EReal) * ((y k : ℝ) : EReal)) * ((c : ℝ) : EReal)
      = (((∑ k ∈ t, x k * y k) * c : ℝ) : EReal) := by
  rw [sum_coe_mul_coe, ← EReal.coe_mul]

/-- … times a coerced real on the left. -/
theorem mul_sum_coe_mul_coe (t : Finset κ) (x y : κ → ℝ) (c : ℝ) :
    ((c : ℝ) : EReal) * (∑ k ∈ t, ((x k : ℝ) : EReal) * ((y k : ℝ) : EReal))
      = ((c * (∑ k ∈ t, x k * y k) : ℝ) : EReal) := by
  rw [sum_coe_mul_coe, ← EReal.coe_mul]

end Coe

/-! ## "Is a real number", closed under the operations a score or a value is built from -/

/-- z is (the coercion of) a real number: neither ⊥ nor ⊤. -/
def IsReal (z : EReal) : Prop := ∃ r : ℝ, z = ((r : ℝ) : EReal)

theorem IsReal.coe (r : ℝ) : IsReal ((r : ℝ) : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.exp {x : EReal} (hx : IsReal x) : IsReal (Ideal.exp x) := by
  obtain ⟨a, rfl⟩ := hx; exact ⟨Real.exp a, rfl⟩
theorem IsReal.sum {κ : Type*} (t : Finset κ) (f : κ → EReal) (h : ∀ k ∈ t, IsReal (f k)) : IsReal (∑ k ∈ t, f k) := by
  classical
  induction t using Finset.induction_on with
  | empty => rw [Finset.sum_empty]; exact IsReal.zero
  | insert a t ha ih =>
    rw [Finset.sum_insert ha]
    exact (h a (Finset.mem_insert_self a t)).add (ih fun k hk => h k (Finset.mem_insert_of_mem hk))
theorem IsReal.dite {c : Prop} [Decidable c] {x : c → EReal} {y : ¬c → EReal} (hx : ∀ h, IsReal (x h)) (hy : ∀ h, IsReal (y h)) :
    IsReal (if h : c then x h else y h) := by
  split
  · exact hx _
  · exact hy _

/-- A family of reals is the coercion of a real family. -/
theorem exists_real_fun {κ : Type*} {f : κ → EReal} (h : ∀ k, IsReal (f k)) :
    ∃ g : κ → ℝ, f = fun k => ((g k : ℝ) : EReal) := by
  choose g hg using h
  exact ⟨g, funext hg⟩

/-- The softmax scale's f32 word 0x3DB504F3 (128^(-1/2) rounded) denotes a real number. -/
theorem isReal_ofBits_scale : IsReal (Ideal.ofBits .f32 0x3DB504F3#32) := by
  unfold Ideal.ofBits Ideal.ieee
  dsimp only
  rw [if_neg (by decide), if_neg (by decide)]
  exact ⟨_, rfl⟩

/-! ## The running maximum from ⊥ -/

section FoldMax
variable {α β ι : Type*} [Fintype α] [Fintype β] [Fintype ι]

/-- The maximum from ⊥ over the whole index set (with the reference's extra `max ⊥`) is the maximum of the two
    parts' maxima from ⊥. -/
theorem foldmax_split (e : α ⊕ β ≃ ι) (f : ι → EReal) :
    max ⊥ ((Finset.univ : Finset ι).fold max ⊥ f)
      = max ((Finset.univ : Finset α).fold max ⊥ fun a => f (e (Sum.inl a)))
          ((Finset.univ : Finset β).fold max ⊥ fun b => f (e (Sum.inr b))) := by
  rw [max_bot_left]
  apply le_antisymm
  · refine (Finset.fold_max_le _).2 ⟨bot_le, fun j _ => ?_⟩
    obtain ⟨x, rfl⟩ := e.surjective j
    cases x with
    | inl a => exact le_max_of_le_left ((Finset.le_fold_max _).2 (Or.inr ⟨a, Finset.mem_univ a, le_rfl⟩))
    | inr b => exact le_max_of_le_right ((Finset.le_fold_max _).2 (Or.inr ⟨b, Finset.mem_univ b, le_rfl⟩))
  · exact max_le
      ((Finset.fold_max_le _).2 ⟨bot_le, fun a _ => (Finset.le_fold_max _).2 (Or.inr ⟨e (Sum.inl a), Finset.mem_univ _, le_rfl⟩)⟩)
      ((Finset.fold_max_le _).2 ⟨bot_le, fun b _ => (Finset.le_fold_max _).2 (Or.inr ⟨e (Sum.inr b), Finset.mem_univ _, le_rfl⟩)⟩)

/-- Over a nonempty index set the maximum from ⊥ of real scores is a real: the largest score. -/
theorem foldmax_coe [Nonempty ι] (s : ι → ℝ) :
    ∃ M : ℝ, (Finset.univ : Finset ι).fold max (⊥ : EReal) (fun j => ((s j : ℝ) : EReal)) = ((M : ℝ) : EReal) := by
  obtain ⟨i, -, hi⟩ := Finset.exists_max_image Finset.univ s Finset.univ_nonempty
  refine ⟨s i, le_antisymm ?_ ?_⟩
  · exact (Finset.fold_max_le _).2 ⟨bot_le, fun j hj => EReal.coe_le_coe_iff.2 (hi j hj)⟩
  · exact (Finset.le_fold_max _).2 (Or.inr ⟨i, Finset.mem_univ i, le_rfl⟩)

end FoldMax

/-! ## The two arrangements -/

section Softmax
variable {α β ι : Type*} [Fintype α] [Fintype β] [Fintype ι]

/-- The reference's arrangement given the subtracted maximum m. -/
def refOutAt (m : EReal) (s v : ι → EReal) : EReal :=
  ∑ j, Ideal.div (Ideal.exp (s j - m)) (0 + ∑ j, Ideal.exp (s j - m)) * v j

/-- The reference's arrangement: subtract the overall maximum, exponentiate, divide by the sum, weigh the values. -/
def refOut (s v : ι → EReal) : EReal :=
  refOutAt (max ⊥ ((Finset.univ : Finset ι).fold max ⊥ s)) s v

/-- The kernel's arrangement given the subtracted maximum m. -/
def kernelOutAt (m : EReal) (sP vP : α → EReal) (sN vN : β → EReal) : EReal :=
  (∑ a, (Ideal.exp (sP a - m) * Ideal.div 1 ((∑ a, Ideal.exp (sP a - m)) + (∑ b, Ideal.exp (sN b - m)))) * vP a)
    + ∑ b, (Ideal.exp (sN b - m) * Ideal.div 1 ((∑ a, Ideal.exp (sP a - m)) + (∑ b, Ideal.exp (sN b - m)))) * vN b

/-- The kernel's arrangement: the two parts' maxima combined, one reciprocal of the two partial sums' sum, the two
    parts' weighted sums added. -/
def kernelOut (sP vP : α → EReal) (sN vN : β → EReal) : EReal :=
  kernelOutAt (max ((Finset.univ : Finset α).fold max ⊥ sP) ((Finset.univ : Finset β).fold max ⊥ sN)) sP vP sN vN

/-- A finite real sum split along e. -/
theorem sum_split (e : α ⊕ β ≃ ι) (g : ι → ℝ) : ∑ j, g j = ∑ a, g (e (Sum.inl a)) + ∑ b, g (e (Sum.inr b)) := by
  rw [← Equiv.sum_comp e g, Fintype.sum_sum_type]

/-- exp of a difference of coerced reals. -/
theorem exp_coe_sub_coe (x M : ℝ) : Ideal.exp (((x : ℝ) : EReal) - ((M : ℝ) : EReal)) = ((Real.exp (x - M) : ℝ) : EReal) := by
  rw [← EReal.coe_sub, Ideal.exp_coe]

/-- The reference's arrangement at real scores, values and maximum is a coerced real. -/
theorem refOutAt_coe [Nonempty ι] (M : ℝ) (s v : ι → ℝ) :
    refOutAt ((M : ℝ) : EReal) (fun j => ((s j : ℝ) : EReal)) (fun j => ((v j : ℝ) : EReal))
      = ((∑ j, Real.exp (s j - M) / (∑ j, Real.exp (s j - M)) * v j : ℝ) : EReal) := by
  have hL : (∑ j, Real.exp (s j - M)) ≠ 0 :=
    (Finset.sum_pos (fun j _ => Real.exp_pos _) Finset.univ_nonempty).ne'
  have hd : ∀ x : ℝ, Ideal.div ((x : ℝ) : EReal) (((∑ j, Real.exp (s j - M) : ℝ)) : EReal)
      = ((x / (∑ j, Real.exp (s j - M)) : ℝ) : EReal) := fun x => by
    rw [Ideal.div_coe hL, ← EReal.coe_mul, one_div, div_eq_mul_inv]
  unfold refOutAt
  simp only [exp_coe_sub_coe, coe_sum, zero_add, hd, ← EReal.coe_mul]

/-- The kernel's arrangement at real scores, values and maximum is a coerced real. -/
theorem kernelOutAt_coe (M : ℝ) (sP vP : α → ℝ) (sN vN : β → ℝ)
    (hL : (∑ a, Real.exp (sP a - M)) + (∑ b, Real.exp (sN b - M)) ≠ 0) :
    kernelOutAt ((M : ℝ) : EReal) (fun a => ((sP a : ℝ) : EReal)) (fun a => ((vP a : ℝ) : EReal))
        (fun b => ((sN b : ℝ) : EReal)) (fun b => ((vN b : ℝ) : EReal))
      = (((∑ a, Real.exp (sP a - M) * ((∑ a, Real.exp (sP a - M)) + (∑ b, Real.exp (sN b - M)))⁻¹ * vP a)
          + ∑ b, Real.exp (sN b - M) * ((∑ a, Real.exp (sP a - M)) + (∑ b, Real.exp (sN b - M)))⁻¹ * vN b : ℝ) : EReal) := by
  have hinv : Ideal.div 1 ((((∑ a, Real.exp (sP a - M)) + (∑ b, Real.exp (sN b - M)) : ℝ)) : EReal)
      = (((((∑ a, Real.exp (sP a - M)) + (∑ b, Real.exp (sN b - M)))⁻¹ : ℝ)) : EReal) := by
    rw [Ideal.div_coe hL, one_mul, one_div]
  unfold kernelOutAt
  simp only [exp_coe_sub_coe, coe_sum, zero_add, ← EReal.coe_add, hinv, ← EReal.coe_mul]

/-- THE LAW: at real scores and values the kernel's arrangement over the two parts equals the reference's over the whole. -/
theorem kernelOut_eq_refOut [Nonempty ι] (e : α ⊕ β ≃ ι) (s v : ι → ℝ) :
    kernelOut (fun a => ((s (e (Sum.inl a)) : ℝ) : EReal)) (fun a => ((v (e (Sum.inl a)) : ℝ) : EReal))
        (fun b => ((s (e (Sum.inr b)) : ℝ) : EReal)) (fun b => ((v (e (Sum.inr b)) : ℝ) : EReal))
      = refOut (fun j => ((s j : ℝ) : EReal)) (fun j => ((v j : ℝ) : EReal)) := by
  obtain ⟨M, hM⟩ := foldmax_coe s
  have hm' : max ⊥ ((Finset.univ : Finset ι).fold max ⊥ fun j => ((s j : ℝ) : EReal)) = ((M : ℝ) : EReal) := by
    rw [hM]; exact max_bot_left _
  have hm : max ((Finset.univ : Finset α).fold max ⊥ fun a => ((s (e (Sum.inl a)) : ℝ) : EReal))
      ((Finset.univ : Finset β).fold max ⊥ fun b => ((s (e (Sum.inr b)) : ℝ) : EReal)) = ((M : ℝ) : EReal) :=
    (foldmax_split e fun j => ((s j : ℝ) : EReal)).symm.trans hm'
  have hLpos : 0 < ∑ j, Real.exp (s j - M) := Finset.sum_pos (fun j _ => Real.exp_pos _) Finset.univ_nonempty
  have hLs := sum_split e fun j => Real.exp (s j - M)
  unfold kernelOut refOut
  rw [hm, hm', refOutAt_coe, kernelOutAt_coe M _ _ _ _ (by rw [← hLs]; exact hLpos.ne')]
  refine congrArg _ ?_
  rw [← hLs, sum_split e fun j => Real.exp (s j - M) / (∑ j, Real.exp (s j - M)) * v j]
  simp only [div_eq_mul_inv]

/-- The reference's arrangement at real scores and values is a real. -/
theorem refOut_isReal [Nonempty ι] (s v : ι → EReal) (hs : ∀ j, IsReal (s j)) (hv : ∀ j, IsReal (v j)) :
    IsReal (refOut s v) := by
  obtain ⟨sr, rfl⟩ := exists_real_fun hs
  obtain ⟨vr, rfl⟩ := exists_real_fun hv
  obtain ⟨M, hM⟩ := foldmax_coe sr
  unfold refOut
  rw [hM, max_bot_left, refOutAt_coe]
  exact IsReal.coe _

/-- THE LAW, in the form a certificate applies: the whole row's scores s and values v are reals, and the kernel's four
    families are s and v read through the two halves of e. -/
theorem kernelOut_eq_refOut_of [Nonempty ι] (e : α ⊕ β ≃ ι) (s v : ι → EReal) (sP vP : α → EReal) (sN vN : β → EReal)
    (hs : ∀ j, IsReal (s j)) (hv : ∀ j, IsReal (v j))
    (hsP : ∀ a, sP a = s (e (Sum.inl a))) (hvP : ∀ a, vP a = v (e (Sum.inl a)))
    (hsN : ∀ b, sN b = s (e (Sum.inr b))) (hvN : ∀ b, vN b = v (e (Sum.inr b))) :
    kernelOut sP vP sN vN = refOut s v := by
  obtain ⟨sr, rfl⟩ := exists_real_fun hs
  obtain ⟨vr, rfl⟩ := exists_real_fun hv
  obtain rfl : sP = fun a => ((sr (e (Sum.inl a)) : ℝ) : EReal) := funext hsP
  obtain rfl : vP = fun a => ((vr (e (Sum.inl a)) : ℝ) : EReal) := funext hvP
  obtain rfl : sN = fun b => ((sr (e (Sum.inr b)) : ℝ) : EReal) := funext hsN
  obtain rfl : vN = fun b => ((vr (e (Sum.inr b)) : ℝ) : EReal) := funext hvN
  exact kernelOut_eq_refOut e sr vr

end Softmax

/-! ## The split of Fin n into its first a and last b indices -/

/-- Fin a ⊕ Fin b ≃ Fin n for a + b = n: the first a indices, then the last b shifted by a. -/
def splitEquiv {a b n : Nat} (h : a + b = n) : Fin a ⊕ Fin b ≃ Fin n := finSumFinEquiv.trans (finCongr h)

theorem splitEquiv_inl_val {a b n : Nat} (h : a + b = n) (i : Fin a) : (splitEquiv h (Sum.inl i)).val = i.val := rfl
theorem splitEquiv_inr_val {a b n : Nat} (h : a + b = n) (i : Fin b) : (splitEquiv h (Sum.inr i)).val = a + i.val := rfl
theorem splitEquiv_inl {a b n : Nat} (h : a + b = n) (i : Fin a) :
    splitEquiv h (Sum.inl i) = ⟨i.val, by have := i.isLt; omega⟩ := Fin.ext rfl
theorem splitEquiv_inr {a b n : Nat} (h : a + b = n) (i : Fin b) :
    splitEquiv h (Sum.inr i) = ⟨a + i.val, by have := i.isLt; omega⟩ := Fin.ext rfl

end Cert.Alg
-- ==== Proof.AlgRef.lean ====
/-
  THE REFERENCE'S ATTENTION ROW, SPLIT INTO CACHED AND NEW KEYS.

  For one (batch b, head h, query row n, lane d) the reference's o(b, h, n, d) is the softmax-weighted sum over the 4104 key
  positions j of the values V(b, h, j, d), with scores s(b, h, n, j). The first 4096 positions read the cache, the last 8
  the new rows. When every input entry is a real number, every score and every value is a real, and the weighted sum over
  the 4104 positions equals the arrangement that treats the 4096 cached positions and the 8 new ones separately (two
  maxima combined, the two partial sums added, one reciprocal, two weighted sums added).
-/
import proofs.«176267_j6640019439658_2_alg».proof.Proof.RefSpec
import proofs.«176267_j6640019439658_2_alg».proof.Proof.AlgSoftmax

noncomputable section

open scoped BigOperators

namespace Cert.Alg

open Idealize.ShloMosaic Idealize.ShloMosaic.ValueIdx Cert.RefSide

/-! ## The three literals of the reference -/

theorem negInf_eq : negInf = (⊥ : EReal) := ofBits_neg_inf
theorem zeroLit_eq : zeroLit = (0 : EReal) := ofBits_zero
theorem scale_isReal : IsReal scale := isReal_ofBits_scale

/-! ## Every intermediate of a row is a real when the inputs are -/

section Real
variable {x : SX.Idx → EReal} {pk pv : SCache.Idx → EReal} {wq : SWqkv.Idx → EReal}

theorem refQKV_isReal (hx : ∀ i, IsReal (x i)) (hwq : ∀ i, IsReal (wq i)) (b : Fin 16) (n : Fin 8) (f : Fin 6144) :
    IsReal (refQKV x wq b n f) :=
  IsReal.sum _ _ fun e _ => (hx _).mul (hwq _)

theorem refQ_isReal (hx : ∀ i, IsReal (x i)) (hwq : ∀ i, IsReal (wq i)) (b h : Fin 16) (n : Fin 8) (d : Fin 128) :
    IsReal (refQ x wq b h n d) := refQKV_isReal hx hwq _ _ _

theorem refKnew_isReal (hx : ∀ i, IsReal (x i)) (hwq : ∀ i, IsReal (wq i)) (b h : Fin 16) (n : Fin 8) (d : Fin 128) :
    IsReal (refKnew x wq b h n d) := refQKV_isReal hx hwq _ _ _

theorem refVnew_isReal (hx : ∀ i, IsReal (x i)) (hwq : ∀ i, IsReal (wq i)) (b h : Fin 16) (n : Fin 8) (d : Fin 128) :
    IsReal (refVnew x wq b h n d) := refQKV_isReal hx hwq _ _ _

theorem refKat_isReal (hx : ∀ i, IsReal (x i)) (hpk : ∀ i, IsReal (pk i)) (hwq : ∀ i, IsReal (wq i))
    (b h : Fin 16) (j : Fin 4104) (d : Fin 128) : IsReal (refKat x pk wq b h j d) :=
  IsReal.dite (fun _ => hpk _) (fun _ => refKnew_isReal hx hwq _ _ _ _)

theorem refVat_isReal (hx : ∀ i, IsReal (x i)) (hpv : ∀ i, IsReal (pv i)) (hwq : ∀ i, IsReal (wq i))
    (b h : Fin 16) (j : Fin 4104) (d : Fin 128) : IsReal (refVat x pv wq b h j d) :=
  IsReal.dite (fun _ => hpv _) (fun _ => refVnew_isReal hx hwq _ _ _ _)

theorem refScore_isReal (hx : ∀ i, IsReal (x i)) (hpk : ∀ i, IsReal (pk i)) (hwq : ∀ i, IsReal (wq i))
    (b h : Fin 16) (n : Fin 8) (j : Fin 4104) : IsReal (refScore x pk wq b h n j) :=
  (IsReal.sum _ _ fun d _ => (refQ_isReal hx hwq _ _ _ _).mul (refKat_isReal hx hpk hwq _ _ _ _)).mul scale_isReal

end Real

/-! ## The row as the reference's arrangement of its scores and values -/

variable (x : SX.Idx → EReal) (pk pv : SCache.Idx → EReal) (wq : SWqkv.Idx → EReal)

/-- o(b, h, n, d) is the reference's arrangement of the row's scores and the lane's values. -/
theorem refO_eq_refOut (b h : Fin 16) (n : Fin 8) (d : Fin 128) :
    refO x pk pv wq b h n d = refOut (fun j => refScore x pk wq b h n j) (fun j => refVat x pv wq b h j d) := by
  unfold refO refAttn refL refP refMax
  rw [negInf_eq, zeroLit_eq]
  rfl

/-- The 4104 key positions: the 4096 cached ones, then the 8 new ones. -/
def keySplit : Fin 4096 ⊕ Fin 8 ≃ Fin 4104 := splitEquiv (by decide : 4096 + 8 = 4104)

theorem refKat_cached (b h : Fin 16) (a : Fin 4096) (d : Fin 128) :
    refKat x pk wq b h (keySplit (Sum.inl a)) d = pk (ix4 b h a d) := by
  unfold refKat
  rw [dif_pos (show (keySplit (Sum.inl a)).val < 4096 from a.isLt)]
  rfl

theorem refKat_new (b h : Fin 16) (c : Fin 8) (d : Fin 128) :
    refKat x pk wq b h (keySplit (Sum.inr c)) d = refKnew x wq b h c d := by
  unfold refKat
  rw [dif_neg (show ¬ (keySplit (Sum.inr c)).val < 4096 from by
    show ¬ (4096 + c.val < 4096); omega)]
  exact congrArg (fun t => refKnew x wq b h t d) (Fin.ext (show 4096 + c.val - 4096 = c.val by omega))

theorem refVat_cached (b h : Fin 16) (a : Fin 4096) (d : Fin 128) :
    refVat x pv wq b h (keySplit (Sum.inl a)) d = pv (ix4 b h a d) := by
  unfold refVat
  rw [dif_pos (show (keySplit (Sum.inl a)).val < 4096 from a.isLt)]
  rfl

theorem refVat_new (b h : Fin 16) (c : Fin 8) (d : Fin 128) :
    refVat x pv wq b h (keySplit (Sum.inr c)) d = refVnew x wq b h c d := by
  unfold refVat
  rw [dif_neg (show ¬ (keySplit (Sum.inr c)).val < 4096 from by
    show ¬ (4096 + c.val < 4096); omega)]
  exact congrArg (fun t => refVnew x wq b h t d) (Fin.ext (show 4096 + c.val - 4096 = c.val by omega))

/-- The score of query row n against cached key a. -/
def scoreCached (b h : Fin 16) (n : Fin 8) (a : Fin 4096) : EReal :=
  (∑ d : Fin 128, refQ x wq b h n d * pk (ix4 b h a d)) * scale

/-- The score of query row n against new key c. -/
def scoreNew (b h : Fin 16) (n : Fin 8) (c : Fin 8) : EReal :=
  (∑ d : Fin 128, refQ x wq b h n d * refKnew x wq b h c d) * scale

theorem refScore_cached (b h : Fin 16) (n : Fin 8) (a : Fin 4096) :
    refScore x pk wq b h n (keySplit (Sum.inl a)) = scoreCached x pk wq b h n a := by
  unfold refScore scoreCached
  exact congrArg (· * scale) (Finset.sum_congr rfl fun d _ => by rw [refKat_cached])

theorem refScore_new (b h : Fin 16) (n : Fin 8) (c : Fin 8) :
    refScore x pk wq b h n (keySplit (Sum.inr c)) = scoreNew x wq b h n c := by
  unfold refScore scoreNew
  exact congrArg (· * scale) (Finset.sum_congr rfl fun d _ => by rw [refKat_new])

/-- THE ROW, SPLIT: for real inputs the reference's o(b, h, n, d) is the two-part arrangement over the 4096 cached and the
    8 new key positions. -/
theorem refO_eq_kernelOut (hx : ∀ i, IsReal (x i)) (hpk : ∀ i, IsReal (pk i)) (hpv : ∀ i, IsReal (pv i))
    (hwq : ∀ i, IsReal (wq i)) (b h : Fin 16) (n : Fin 8) (d : Fin 128) :
    refO x pk pv wq b h n d
      = kernelOut (fun a : Fin 4096 => scoreCached x pk wq b h n a) (fun a : Fin 4096 => pv (ix4 b h a d))
          (fun c : Fin 8 => scoreNew x wq b h n c) (fun c : Fin 8 => refVnew x wq b h c d) := by
  rw [refO_eq_refOut]
  exact (kernelOut_eq_refOut_of keySplit _ _ _ _ _ _
    (fun j => refScore_isReal hx hpk hwq b h n j) (fun j => refVat_isReal hx hpv hwq b h j d)
    (fun a => (refScore_cached x pk wq b h n a).symm) (fun a => (refVat_cached x pv wq b h a d).symm)
    (fun c => (refScore_new x pk wq b h n c).symm) (fun c => (refVat_new x pv wq b h c d).symm)).symm

end Cert.Alg

end
-- ==== Proof.AlgFinal.lean ====
/-
  THE KERNEL'S THREE RESULTS ARE THE REFERENCE'S, AS FUNCTIONS OF THE FIVE INPUT ARRAYS.

  The kernel first forms the fused projection QKV = X2 · wqᵀ of the activations X2, the row-major [128, 2048] reading of
  x : [16, 8, 2048] (row 8·b + n is position n of batch row b). Entry (8·b + n, f) of QKV is the reference's qkv(b, n, f),
  so the grown key and value caches agree entry by entry (layout only), and each query, new key and new value the
  attention rows read is the reference's. For one (b, h, n, d) the kernel's attention entry is the two-part arrangement of
  the row's scores (4096 cached keys, 8 new keys) and the reference's is the one-part arrangement over all 4104; when
  every input entry is a real number the two are equal (the softmax law). The output projection then sums the same
  products on both sides.
-/
import proofs.«176267_j6640019439658_2_alg».proof.Proof.RefSpec
import proofs.«176267_j6640019439658_2_alg».proof.Proof.AlgSoftmax
import proofs.«176267_j6640019439658_2_alg».proof.Proof.AlgRef
import proofs.«176267_j6640019439658_2_alg».proof.Proof.KVal.LinSpec
import proofs.«176267_j6640019439658_2_alg».proof.Proof.KVal.AttnSpec

noncomputable section

open scoped BigOperators

namespace Cert.Alg

open Idealize.ShloMosaic Idealize.ShloMosaic.ValueIdx
open Cert.RefSide (SX SCache SWqkv SWout SKV refQKV refQ refKnew refVnew refKat refVat refK refV refScore refO)
open Cert.KVal (kLin kLin_apply)
open Cert.KVal.Attn (row kKeys kVals kAttn attnAt grownAt qAt kNewAt vNewAt sPast sNew rowMax pPast pNew rowSum rowInv)

/-- The activations as the kernel's first projection reads them: [128, 2048], row r = position r % 8 of batch row r / 8. -/
abbrev SX2 : Shape := ⟨2, ![128, 2048]⟩

variable (x : SX.Idx → EReal) (pk pv : SCache.Idx → EReal) (wq : SWqkv.Idx → EReal) (wo : SWout.Idx → EReal)
variable (X2 : SX2.Idx → EReal)

/-- X2 is the row-major reshape of x. -/
def IsReshape : Prop :=
  ∀ (r : Fin 128) (e : Fin 2048),
    X2 (ix2 r e) = x (ix3 (⟨r.val / 8, by have := r.isLt; omega⟩ : Fin 16) (⟨r.val % 8, Nat.mod_lt _ (by decide)⟩ : Fin 8) e)

/-! ## The fused projection is the reference's -/

theorem qkv_row (hX2 : IsReshape x X2) (b : Fin 16) (n : Fin 8) (f : Fin 6144) :
    kLin X2 wq (ix2 (row b n) f) = refQKV x wq b n f := by
  rw [kLin_apply]
  unfold refQKV
  refine Finset.sum_congr rfl fun e _ => ?_
  rw [hX2]
  have hb : (⟨(row b n).val / 8, by have := (row b n).isLt; omega⟩ : Fin 16) = b :=
    Fin.ext (by have := n.isLt; show (8 * b.val + n.val) / 8 = b.val; omega)
  have hn : (⟨(row b n).val % 8, Nat.mod_lt _ (by decide)⟩ : Fin 8) = n :=
    Fin.ext (by have := n.isLt; show (8 * b.val + n.val) % 8 = n.val; omega)
  exact congrArg (· * wq (ix2 f e)) (congrArg x (congrArg₂ (fun p q => ix3 p q e) hb hn))

/-- Column off + 128·h + d, in the two spellings. -/
theorem col_eq (off : Nat) (hoff : off ≤ 4096) (h : Fin 16) (d : Fin 128) :
    Cert.KVal.Attn.col off hoff h d = Cert.RefSide.col off hoff h d :=
  Fin.ext (by show off + 128 * h.val + d.val = off + h.val * 128 + d.val; omega)

theorem qkv_at (hX2 : IsReshape x X2) (b : Fin 16) (n : Fin 8) (off : Nat) (hoff : off ≤ 4096) (h : Fin 16) (d : Fin 128) :
    kLin X2 wq (ix2 (row b n) (Cert.KVal.Attn.col off hoff h d)) = refQKV x wq b n (Cert.RefSide.col off hoff h d) :=
  (qkv_row x wq X2 hX2 b n _).trans (congrArg (refQKV x wq b n) (col_eq off hoff h d))

theorem qAt_eq (hX2 : IsReshape x X2) (b h : Fin 16) (n : Fin 8) (d : Fin 128) :
    qAt (kLin X2 wq) b h n d = refQ x wq b h n d := qkv_at x wq X2 hX2 b n 0 (by omega) h d

theorem kNewAt_eq (hX2 : IsReshape x X2) (b h : Fin 16) (j : Fin 8) (d : Fin 128) :
    kNewAt (kLin X2 wq) b h j d = refKnew x wq b h j d := qkv_at x wq X2 hX2 b j 2048 (by omega) h d

theorem vNewAt_eq (hX2 : IsReshape x X2) (b h : Fin 16) (j : Fin 8) (d : Fin 128) :
    vNewAt (kLin X2 wq) b h j d = refVnew x wq b h j d := qkv_at x wq X2 hX2 b j 4096 (by omega) h d

/-! ## (i), (ii): the grown caches -/

theorem grownAt_keys (hX2 : IsReshape x X2) (b h : Fin 16) (j : Fin 4104) (d : Fin 128) :
    grownAt 2048 (by omega) (kLin X2 wq) pk b h j d = refKat x pk wq b h j d := by
  unfold grownAt refKat
  split
  · rfl
  · exact kNewAt_eq x wq X2 hX2 b h _ d

theorem grownAt_vals (hX2 : IsReshape x X2) (b h : Fin 16) (j : Fin 4104) (d : Fin 128) :
    grownAt 4096 (by omega) (kLin X2 wq) pv b h j d = refVat x pv wq b h j d := by
  unfold grownAt refVat
  split
  · rfl
  · exact vNewAt_eq x wq X2 hX2 b h _ d

/-- (i) The key cache the kernel leaves is the reference's. -/
theorem kKeys_eq_refK (hX2 : IsReshape x X2) : kKeys (kLin X2 wq) pk = refK x pk wq :=
  funext fun i => grownAt_keys x pk wq X2 hX2 (i 0) (i 1) (i 2) (i 3)

/-- (ii) The value cache the kernel leaves is the reference's. -/
theorem kVals_eq_refV (hX2 : IsReshape x X2) : kVals (kLin X2 wq) pv = refV x pv wq :=
  funext fun i => grownAt_vals x pv wq X2 hX2 (i 0) (i 1) (i 2) (i 3)

/-! ## The attention entry -/

/-- The kernel's attention entry is the two-part arrangement of its scores and values. -/
theorem attnAt_eq_kernelOut (qkv : Cert.KVal.Attn.SQkv.Idx → EReal) (b h : Fin 16) (n : Fin 8) (d : Fin 128) :
    attnAt qkv pk pv b h n d
      = kernelOut (fun a : Fin 4096 => sPast qkv pk b h n a) (fun a : Fin 4096 => pv (ix4 b h a d))
          (fun j : Fin 8 => sNew qkv b h n j) (fun j : Fin 8 => vNewAt qkv b h j d) := by
  unfold attnAt rowInv rowSum pPast pNew rowMax kernelOut kernelOutAt
  rw [show Cert.KVal.Attn.oneLit = (1 : EReal) from ofBits_one, show Cert.KVal.Attn.negInf = (⊥ : EReal) from ofBits_neg_inf]

theorem sPast_eq (hX2 : IsReshape x X2) (b h : Fin 16) (n : Fin 8) (a : Fin 4096) :
    sPast (kLin X2 wq) pk b h n a = scoreCached x pk wq b h n a := by
  unfold sPast scoreCached
  exact congrArg (· * Cert.RefSide.scale) (Finset.sum_congr rfl fun d _ => by rw [qAt_eq x wq X2 hX2])

theorem sNew_eq (hX2 : IsReshape x X2) (b h : Fin 16) (n : Fin 8) (j : Fin 8) :
    sNew (kLin X2 wq) b h n j = scoreNew x wq b h n j := by
  unfold sNew scoreNew
  exact congrArg (· * Cert.RefSide.scale) (Finset.sum_congr rfl fun d _ => by
    rw [qAt_eq x wq X2 hX2, kNewAt_eq x wq X2 hX2])

/-- For real inputs the kernel's attention entry is the reference's. -/
theorem attnAt_eq_refO (hx : ∀ i, IsReal (x i)) (hpk : ∀ i, IsReal (pk i)) (hpv : ∀ i, IsReal (pv i))
    (hwq : ∀ i, IsReal (wq i)) (hX2 : IsReshape x X2) (b h : Fin 16) (n : Fin 8) (d : Fin 128) :
    attnAt (kLin X2 wq) pk pv b h n d = refO x pk pv wq b h n d := by
  rw [attnAt_eq_kernelOut, refO_eq_kernelOut x pk pv wq hx hpk hpv hwq]
  have e1 : (fun a : Fin 4096 => sPast (kLin X2 wq) pk b h n a) = fun a => scoreCached x pk wq b h n a :=
    funext fun a => sPast_eq x pk wq X2 hX2 b h n a
  have e2 : (fun j : Fin 8 => sNew (kLin X2 wq) b h n j) = fun j => scoreNew x wq b h n j :=
    funext fun j => sNew_eq x wq X2 hX2 b h n j
  have e3 : (fun j : Fin 8 => vNewAt (kLin X2 wq) b h j d) = fun j => refVnew x wq b h j d :=
    funext fun j => vNewAt_eq x wq X2 hX2 b h j d
  rw [e1, e2, e3]

/-- The attention rows at row 8·b + n and column e: batch row b, head e / 128, position n, lane e % 128. -/
theorem kAttn_row (qkv : Cert.KVal.Attn.SQkv.Idx → EReal) (b : Fin 16) (n : Fin 8) (e : Fin 2048) :
    kAttn qkv pk pv (ix2 (row b n) e)
      = attnAt qkv pk pv b (⟨e.val / 128, by have := e.isLt; omega⟩ : Fin 16) n (⟨e.val % 128, Nat.mod_lt _ (by decide)⟩ : Fin 128) := by
  have hb : (⟨(row b n).val / 8, by have := (row b n).isLt; omega⟩ : Fin 16) = b :=
    Fin.ext (by have := n.isLt; show (8 * b.val + n.val) / 8 = b.val; omega)
  have hn : (⟨(row b n).val % 8, Nat.mod_lt _ (by decide)⟩ : Fin 8) = n :=
    Fin.ext (by have := n.isLt; show (8 * b.val + n.val) % 8 = n.val; omega)
  show attnAt qkv pk pv ⟨(row b n).val / 8, _⟩ ⟨e.val / 128, _⟩ ⟨(row b n).val % 8, _⟩ ⟨e.val % 128, _⟩ = _
  rw [hb, hn]

/-! ## (iii): the output projection -/

/-- (iii) For real inputs, entry (8·b + n, f) of the kernel's output projection is the reference's out(b, n, f). -/
theorem out_eq_refOutAt (hx : ∀ i, IsReal (x i)) (hpk : ∀ i, IsReal (pk i)) (hpv : ∀ i, IsReal (pv i))
    (hwq : ∀ i, IsReal (wq i)) (hX2 : IsReshape x X2) (b : Fin 16) (n : Fin 8) (f : Fin 2048) :
    kLin (kAttn (kLin X2 wq) pk pv) wo (ix2 (row b n) f) = Cert.RefSide.refOutAt x pk pv wq wo b n f := by
  rw [kLin_apply]
  unfold Cert.RefSide.refOutAt
  refine Finset.sum_congr rfl fun e _ => ?_
  rw [kAttn_row, attnAt_eq_refO x pk pv wq X2 hx hpk hpv hwq hX2]

end Cert.Alg

end
-- ==== Proof.AlgFinite.lean ====
/-
  The precondition "every input is finite", read back. The printed predicate is the conjunction, over the five
  input arrays, of "every element x has |x| < +∞". On the extended reals |x| = max x (-x) is below ⊤ exactly
  when x is neither ⊥ nor ⊤, that is, when x is (the coercion of) a real number. So from the predicate being
  true we get, for every array and every index, a real number whose coercion is the element.
-/
import proofs.«176267_j6640019439658_2_alg».proof.Pre_finite_inputs
import Idealize.ShloMosaic.Lib.ReduceAll
import Idealize.ShloMosaic.PureOps.Ideal

noncomputable section

namespace Cert.Alg

open Idealize.ShloMosaic Cert.Pre_finite_inputs

/-- A rank-0 shape has one index. -/
instance subsingleton_S_Idx : Subsingleton S_.Idx := ⟨fun a b => funext fun d => d.elim0⟩

/-- The f32 pattern 0x7F800000 denotes +∞. -/
theorem ofBits_pos_inf : Ideal.ofBits .f32 0x7F800000#32 = (⊤ : EReal) := by
  simp [Ideal.ofBits, Ideal.ieee]

/-- An extended real whose absolute value max x (-x) is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- THE PRECONDITION DECODED: if the printed predicate is true on the five arrays, every element of each is a real. -/
theorem finite_of_pre [Facts] (a0 : FVec Ideal S16x8x2048 .f32) (a1 a2 : FVec Ideal S16x16x4096x128 .f32)
    (a3 : FVec Ideal S6144x2048 .f32) (a4 : FVec Ideal S2048x2048 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) := by
  have e := congrFun h (fun d => d.elim0)
  dsimp only [Cert.Pre_finite_inputs.fn, Cert.Pre_finite_inputs.fn_part1] at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i)⟩

end Cert.Alg
-- ==== Proof.KI.Value.lean ====
/-
  THE KERNEL'S THREE RESULTS ARE THE REFERENCE'S FUNCTIONS OF THE FIVE INPUT ARRAYS.

  At the end of the program's run, on every core, the layer's output array and the two grown caches are functions of the
  launch memory: with X the flattened activations and QKV = X · W_qkvᵀ, the caches are the cached keys and values grown by
  the new rows of QKV, and the output at position n of batch row b is row 8·b + n of attention(QKV) · W_outᵀ. The
  precondition says every input entry is finite, that is, a real number; under it each of the three is the reference's
  whole-array function of the same five arrays (the grown caches by layout alone, the output by the softmax law).
-/
import proofs.«176267_j6640019439658_2_alg».proof.Defs
import proofs.«176267_j6640019439658_2_alg».proof.Proof.KI.Assemble
import proofs.«176267_j6640019439658_2_alg».proof.Proof.AlgFinal
import proofs.«176267_j6640019439658_2_alg».proof.Proof.AlgFinite

noncomputable section

namespace Cert.Alg

open Idealize.ShloMosaic Idealize.ShloMosaic.TcCoe Idealize.ShloMosaic.ValueIdx
open Cert.KernelIdeal Cert.KernelIdeal.Gen Cert.KernelIdeal.Hand
open Cert.KVal (AttnRows GrownKeys GrownVals flatX fusedQKV flatX_apply keys_result vals_result layer_result)

variable (m : (ℓ : Loc nD τ sig) → Buf (Elt Ideal) ℓ) (ρ : Dev nD → PrngReg)

/-- The five input arrays on core c, as functions of their indices. -/
abbrev inX (c : Dev nD) : Cert.RefSide.SX.Idx → EReal := m ((c : Thread nD τ).loc main_arg0)
abbrev inPk (c : Dev nD) : Cert.RefSide.SCache.Idx → EReal := m ((c : Thread nD τ).loc main_arg1)
abbrev inPv (c : Dev nD) : Cert.RefSide.SCache.Idx → EReal := m ((c : Thread nD τ).loc main_arg2)
abbrev inWq (c : Dev nD) : Cert.RefSide.SWqkv.Idx → EReal := m ((c : Thread nD τ).loc main_arg3)
abbrev inWo (c : Dev nD) : Cert.RefSide.SWout.Idx → EReal := m ((c : Thread nD τ).loc main_arg4)

/-- The flattened activations are the row-major reshape of the layer's input. -/
theorem flatX_isReshape (c : Dev nD) : IsReshape (inX m c) (flatX m ρ c) :=
  fun r e => flatX_apply m ρ c r e

/-- The precondition on core c: every entry of the five input arrays is a real number. -/
theorem inputs_real [Cert.Pre_finite_inputs.Facts] (hpre : Cert.Pre_KernelIdeal m) (c : Dev nD) :
    (∀ i, IsReal (inX m c i)) ∧ (∀ i, IsReal (inPk m c i)) ∧ (∀ i, IsReal (inPv m c i)) ∧
    (∀ i, IsReal (inWq m c i)) ∧ (∀ i, IsReal (inWo m c i)) :=
  finite_of_pre _ _ _ _ _ (hpre c)

/-- THE KERNEL'S VALUE: on every core, at the end of the run, the output and the two grown caches are the reference's
    functions of the input arrays. -/
theorem kernel_value [Cert.Pre_finite_inputs.Facts] (hpre : Cert.Pre_KernelIdeal m)
    (h5 : AttnRows) (h6 : GrownKeys) (h7 : GrownVals) (c : Dev nD) :
    (W5 m ρ c (Proc.devRef .tc main_v4) : S16x8x2048.Idx → EReal)
        = Cert.RefSide.refOut (inX m c) (inPk m c) (inPv m c) (inWq m c) (inWo m c)
    ∧ (W5 m ρ c (Proc.devRef .tc main_v2_1) : Cert.KVal.Attn.SGrown.Idx → EReal)
        = Cert.RefSide.refK (inX m c) (inPk m c) (inWq m c)
    ∧ (W5 m ρ c (Proc.devRef .tc main_v2_2) : Cert.KVal.Attn.SGrown.Idx → EReal)
        = Cert.RefSide.refV (inX m c) (inPv m c) (inWq m c) := by
  obtain ⟨hx, hpk, hpv, hwq, -⟩ := inputs_real m hpre c
  have hX2 := flatX_isReshape m ρ c
  refine ⟨funext fun i => ?_, ?_, ?_⟩
  · obtain ⟨b, n, f, rfl⟩ : ∃ (b : Fin 16) (n : Fin 8) (f : Fin 2048), i = ix3 b n f := ⟨i 0, i 1, i 2, eq_ix3 i⟩
    have hrow : 8 * b.val + n.val < 128 := by have := b.isLt; have := n.isLt; omega
    refine (layer_result m ρ h5 c b n f hrow).trans ?_
    exact out_eq_refOutAt (inX m c) (inPk m c) (inPv m c) (inWq m c) (inWo m c) (flatX m ρ c) hx hpk hpv hwq hX2 b n f
  · exact (keys_result m ρ h6 c).trans (kKeys_eq_refK (inX m c) (inPk m c) (inWq m c) (flatX m ρ c) hX2)
  · exact (vals_result m ρ h7 c).trans (kVals_eq_refV (inX m c) (inPv m c) (inWq m c) (flatX m ρ c) hX2)

end Cert.Alg

end
-- ==== Proof.KVal.AttnRow.lean ====
/-
  Attention of ONE query row against 4096 cached and 8 new positions, as a function of the row's own data: the
  query's 128 lanes q, the keys' lanes kP, kN, and one lane of the values vP, vN. The region's attention rows are this
  function of entries of the fused projection and the caches; the body's block is the same function of entries of the
  blocks it loaded.
-/
import proofs.«176267_j6640019439658_2_alg».proof.Proof.KVal.AttnSpec

noncomputable section

open scoped BigOperators

namespace Cert.KVal.Attn

open Idealize.ShloMosaic Idealize.ShloMosaic.ValueIdx

/-- The scaled score of the query against key a of a family of K keys. -/
def rowScore {K : Nat} (q : Fin 128 → EReal) (k : Fin K → Fin 128 → EReal) (a : Fin K) : EReal :=
  (∑ d : Fin 128, q d * k a d) * scale

/-- The row maximum over both families, each folded from −∞. -/
def rowTop (q : Fin 128 → EReal) (kP : Fin 4096 → Fin 128 → EReal) (kN : Fin 8 → Fin 128 → EReal) : EReal :=
  max ((Finset.univ : Finset (Fin 4096)).fold max negInf (fun a => rowScore q kP a))
    ((Finset.univ : Finset (Fin 8)).fold max negInf (fun j => rowScore q kN j))

/-- The unnormalised weight of key a of the family k. -/
def rowWeight {K : Nat} (q : Fin 128 → EReal) (kP : Fin 4096 → Fin 128 → EReal) (kN : Fin 8 → Fin 128 → EReal)
    (k : Fin K → Fin 128 → EReal) (a : Fin K) : EReal :=
  Ideal.exp (rowScore q k a - rowTop q kP kN)

/-- The normaliser: the two families' weight sums added. -/
def rowNorm (q : Fin 128 → EReal) (kP : Fin 4096 → Fin 128 → EReal) (kN : Fin 8 → Fin 128 → EReal) : EReal :=
  (∑ a : Fin 4096, rowWeight q kP kN kP a) + (∑ j : Fin 8, rowWeight q kP kN kN j)

/-- One lane of the row's output. -/
def attnRow (q : Fin 128 → EReal) (kP : Fin 4096 → Fin 128 → EReal) (kN : Fin 8 → Fin 128 → EReal)
    (vP : Fin 4096 → EReal) (vN : Fin 8 → EReal) : EReal :=
  (∑ a : Fin 4096, (rowWeight q kP kN kP a * Ideal.div oneLit (rowNorm q kP kN)) * vP a)
    + (∑ j : Fin 8, (rowWeight q kP kN kN j * Ideal.div oneLit (rowNorm q kP kN)) * vN j)

/-- The region's attention entry is the one-row function of the fused projection's and the caches' entries. -/
theorem attnAt_eq_attnRow (qkv : SQkv.Idx → EReal) (pk pv : SPast.Idx → EReal) (b h : Fin 16) (n : Fin 8) (d : Fin 128) :
    attnAt qkv pk pv b h n d
      = attnRow (fun d' => qAt qkv b h n d') (fun a d' => pk (ix4 b h a d')) (fun j d' => kNewAt qkv b h j d')
          (fun a => pv (ix4 b h a d)) (fun j => vNewAt qkv b h j d) := rfl

/-- An entry of the attention rows through coordinate equations: row 8·b + n, column 128·h + d. -/
theorem kAttn_at (qkv : SQkv.Idx → EReal) (pk pv : SPast.Idx → EReal) (i : SAttn.Idx) (b h : Fin 16) (n : Fin 8) (d : Fin 128)
    (h0 : (i 0).val = 8 * b.val + n.val) (h1 : (i 1).val = 128 * h.val + d.val) :
    kAttn qkv pk pv i = attnAt qkv pk pv b h n d := by
  have eb : (⟨(i 0).val / 8, by have := idx2_lt0 i; omega⟩ : Fin 16) = b := Fin.ext (by show (i 0).val / 8 = b.val; have := n.isLt; omega)
  have en : (⟨(i 0).val % 8, Nat.mod_lt _ (by omega)⟩ : Fin 8) = n := Fin.ext (by show (i 0).val % 8 = n.val; have := n.isLt; omega)
  have eh : (⟨(i 1).val / 128, by have := idx2_lt1 i; omega⟩ : Fin 16) = h := Fin.ext (by show (i 1).val / 128 = h.val; have := d.isLt; omega)
  have ed : (⟨(i 1).val % 128, Nat.mod_lt _ (by omega)⟩ : Fin 128) = d := Fin.ext (by show (i 1).val % 128 = d.val; have := d.isLt; omega)
  unfold kAttn
  rw [eb, en, eh, ed]

end Cert.KVal.Attn

end
-- ==== Proof.KVal.AttnLayout.lean ====
/-
  The layout operations of the attention body read at an index, over any element type: a block of eight rows by two
  heads' 128 lanes side by side split into its two heads (a reshape to [8, 2, 128] and the exchange of the first two
  axes), the inverse merge, and the unit leading axis of a cache block dropped or added.
-/
import Idealize.ShloMosaic.Lib.ValueIdx
import Idealize.ShloMosaic.Lib.ValueLayout
import Idealize.ShloMosaic.Lib.Pipeline.Value

noncomputable section

namespace Cert.KVal.Attn

open Idealize.ShloMosaic Idealize.ShloMosaic.ValueIdx

variable {α : Type}

/-- Lane 128·hh + d of a row of two heads side by side. -/
abbrev lane2 (hh : Fin 2) (d : Fin 128) : Fin 256 := ⟨128 * hh.val + d.val, by have := hh.isLt; have := d.isLt; omega⟩

/-- Two heads side by side, split: entry (hh, n, d) of the split is entry (n, 128·hh + d) of the block. -/
theorem splitHeads_apply (x : (⟨2, ![8, 256]⟩ : Shape).Idx → α)
    (h0 : (⟨2, ![8, 256]⟩ : Shape).ShapeCasts ⟨2, ![8, 256]⟩)
    (h1 : (⟨2, ![8, 256]⟩ : Shape).ShapeCasts ⟨3, ![8, 2, 128]⟩)
    (h2 : (⟨3, ![8, 2, 128]⟩ : Shape).Transposes [1, 0, 2] ⟨3, ![2, 8, 128]⟩)
    (hh : Fin 2) (n : Fin 8) (d : Fin 128) :
    transpose ⟨3, ![2, 8, 128]⟩ [1, 0, 2] (shapeCast ⟨3, ![8, 2, 128]⟩ (shapeCast ⟨2, ![8, 256]⟩ x h0) h1) h2 (ix3 hh n d)
      = x (ix2 n (lane2 hh d)) := by
  rw [shapeCast_self]
  refine (transpose_apply _ _ h2 (ix3 hh n d) (ix3 n hh d) fun c => match c with | ⟨0, _⟩ => rfl | ⟨1, _⟩ => rfl | ⟨2, _⟩ => rfl).trans ?_
  refine shapeCast_apply x h1 (ix3 n hh d) (ix2 n (lane2 hh d)) ?_
  rw [Shape.rowMajor_val_three, Shape.rowMajor_val_two]
  show n.val * 256 + (128 * hh.val + d.val) = (n.val * 2 + hh.val) * 128 + d.val
  omega

/-- Two heads merged side by side: entry (n, c) of the merged block is entry (c / 128, n, c % 128) of the heads. -/
theorem mergeHeads_apply (v : (⟨3, ![2, 8, 128]⟩ : Shape).Idx → α)
    (h2 : (⟨3, ![2, 8, 128]⟩ : Shape).Transposes [1, 0, 2] ⟨3, ![8, 2, 128]⟩)
    (h1 : (⟨3, ![8, 2, 128]⟩ : Shape).ShapeCasts ⟨2, ![8, 256]⟩)
    (n : Fin 8) (hh : Fin 2) (d : Fin 128) :
    shapeCast ⟨2, ![8, 256]⟩ (transpose ⟨3, ![8, 2, 128]⟩ [1, 0, 2] v h2) h1 (ix2 n (lane2 hh d)) = v (ix3 hh n d) := by
  refine (shapeCast_apply _ h1 (ix2 n (lane2 hh d)) (ix3 n hh d) ?_).trans ?_
  · rw [Shape.rowMajor_val_three, Shape.rowMajor_val_two]
    show (n.val * 2 + hh.val) * 128 + d.val = n.val * 256 + (128 * hh.val + d.val)
    omega
  · exact transpose_apply _ v h2 (ix3 n hh d) (ix3 hh n d) fun c => match c with | ⟨0, _⟩ => rfl | ⟨1, _⟩ => rfl | ⟨2, _⟩ => rfl

/-- A [2, 8] vector given a trailing unit axis reads, at (hh, n, u), the vector at (hh, n). -/
theorem colCast_apply (v : (⟨2, ![2, 8]⟩ : Shape).Idx → α) (h : (⟨2, ![2, 8]⟩ : Shape).ShapeCasts ⟨3, ![2, 8, 1]⟩)
    (hh : Fin 2) (n : Fin 8) (u : Fin 1) : shapeCast ⟨3, ![2, 8, 1]⟩ v h (ix3 hh n u) = v (ix2 hh n) := by
  refine shapeCast_apply v h (ix3 hh n u) (ix2 hh n) ?_
  rw [Shape.rowMajor_val_three, Shape.rowMajor_val_two]
  show hh.val * 8 + n.val = (hh.val * 8 + n.val) * 1 + u.val
  have := u.isLt
  omega

/-- A [2, 8, 1] column broadcast along K lanes reads, at (hh, n, a), the column at (hh, n, 0). -/
theorem colBroadcast_apply {K : ℕ} (v : (⟨3, ![2, 8, 1]⟩ : Shape).Idx → α)
    (h : (⟨3, ![2, 8, 1]⟩ : Shape).Broadcasts ⟨3, ![2, 8, K]⟩) (hh : Fin 2) (n : Fin 8) (a : Fin K) :
    broadcastTo ⟨3, ![2, 8, K]⟩ v h (ix3 hh n a) = v (ix3 hh n (0 : Fin 1)) :=
  broadcastTo_apply v h (ix3 hh n a) (ix3 hh n (0 : Fin 1)) fun c => match c with
    | ⟨0, _⟩ => (if_neg (show ¬(2 : ℕ) = 1 by decide)).symm
    | ⟨1, _⟩ => (if_neg (show ¬(8 : ℕ) = 1 by decide)).symm
    | ⟨2, _⟩ => (if_pos rfl).symm

/-- Every lane of a 256-lane row is lane d of one of the two heads. -/
theorem exists_lane2 (c : Fin 256) : ∃ (hh : Fin 2) (d : Fin 128), c = lane2 hh d :=
  ⟨⟨c.val / 128, by have := c.isLt; omega⟩, ⟨c.val % 128, Nat.mod_lt _ (by omega)⟩, Fin.ext (by show c.val = 128 * (c.val / 128) + c.val % 128; omega)⟩

end Cert.KVal.Attn

end
-- ==== Proof.KVal.AttnDots.lean ====
/-
  The four matrix products of the attention body read at an index, on the extended reals: each is, per head, the sum
  over its one contracted axis of the products of the operands' entries — the scores contract the 128 lanes of a query
  with those of a key, the weighted values contract the positions.
-/
import proofs.«176267_j6640019439658_2_alg».proof.Proof.Gen.KernelIdeal
import Idealize.ShloMosaic.Lib.ValueIdx
import Idealize.ShloMosaic.PureOps.Ideal.Laws

noncomputable section

open scoped BigOperators

namespace Cert.KVal.Attn

open Idealize.ShloMosaic Idealize.ShloMosaic.ValueIdx
open Cert.KernelIdeal

/-! ## Queries against cached keys -/

theorem dotQP_l0 (i : S2x8x4096.Idx) (q : dot_S2x8x128_S2x4096x128_S2x8x4096_2_2_1_1_0_0.contr.Idx) :
    (dot_S2x8x128_S2x4096x128_S2x8x4096_2_2_1_1_0_0.lhsIdx i q 0).val = (i 0).val := by
  unfold DotDims.lhsIdx
  rw [dif_pos (show (0 : Fin S2x8x128.rank) ∈ dot_S2x8x128_S2x4096x128_S2x8x4096_2_2_1_1_0_0.lhsBatch by decide)]
  rfl
theorem dotQP_l1 (i : S2x8x4096.Idx) (q : dot_S2x8x128_S2x4096x128_S2x8x4096_2_2_1_1_0_0.contr.Idx) :
    (dot_S2x8x128_S2x4096x128_S2x8x4096_2_2_1_1_0_0.lhsIdx i q 1).val = (i 1).val := by
  unfold DotDims.lhsIdx
  rw [dif_neg (show ¬(1 : Fin S2x8x128.rank) ∈ dot_S2x8x128_S2x4096x128_S2x8x4096_2_2_1_1_0_0.lhsBatch by decide), dif_pos (show (1 : Fin S2x8x128.rank) ∈ dot_S2x8x128_S2x4096x128_S2x8x4096_2_2_1_1_0_0.lhsNonContracting by decide)]
  rfl
theorem dotQP_l2 (i : S2x8x4096.Idx) (q : dot_S2x8x128_S2x4096x128_S2x8x4096_2_2_1_1_0_0.contr.Idx) :
    (dot_S2x8x128_S2x4096x128_S2x8x4096_2_2_1_1_0_0.lhsIdx i q 2).val = (q ⟨0, by decide⟩).val :=
  dot_S2x8x128_S2x4096x128_S2x8x4096_2_2_1_1_0_0.lhsIdx_val_of_single rfl i q
theorem dotQP_r0 (i : S2x8x4096.Idx) (q : dot_S2x8x128_S2x4096x128_S2x8x4096_2_2_1_1_0_0.contr.Idx) :
    (dot_S2x8x128_S2x4096x128_S2x8x4096_2_2_1_1_0_0.rhsIdx i q 0).val = (i 0).val := by
  unfold DotDims.rhsIdx
  rw [dif_pos (show (0 : Fin S2x4096x128.rank) ∈ dot_S2x8x128_S2x4096x128_S2x8x4096_2_2_1_1_0_0.rhsBatch by decide)]
  rfl
theorem dotQP_r1 (i : S2x8x4096.Idx) (q : dot_S2x8x128_S2x4096x128_S2x8x4096_2_2_1_1_0_0.contr.Idx) :
    (dot_S2x8x128_S2x4096x128_S2x8x4096_2_2_1_1_0_0.rhsIdx i q 1).val = (i 2).val := by
  unfold DotDims.rhsIdx
  rw [dif_neg (show ¬(1 : Fin S2x4096x128.rank) ∈ dot_S2x8x128_S2x4096x128_S2x8x4096_2_2_1_1_0_0.rhsBatch by decide), dif_pos (show (1 : Fin S2x4096x128.rank) ∈ dot_S2x8x128_S2x4096x128_S2x8x4096_2_2_1_1_0_0.rhsNonContracting by decide)]
  rfl
theorem dotQP_r2 (i : S2x8x4096.Idx) (q : dot_S2x8x128_S2x4096x128_S2x8x4096_2_2_1_1_0_0.contr.Idx) :
    (dot_S2x8x128_S2x4096x128_S2x8x4096_2_2_1_1_0_0.rhsIdx i q 2).val = (q ⟨0, by decide⟩).val :=
  dot_S2x8x128_S2x4096x128_S2x8x4096_2_2_1_1_0_0.rhsIdx_val_of_single rfl i q

/-- Head hh's query n against its cached key a: the sum over the 128 lanes. -/
theorem dotQP_apply (L : FVec Ideal S2x8x128 .f32) (R : FVec Ideal S2x4096x128 .f32) (hh : Fin 2) (n : Fin 8) (a : Fin 4096) :
    matmul dot_S2x8x128_S2x4096x128_S2x8x4096_2_2_1_1_0_0 none L R (constant (F := Ideal) S2x8x4096 .f32 0x00000000#32) (ix3 hh n a)
      = ∑ k : Fin 128, L (ix3 hh n k) * R (ix3 hh a k) := by
  refine (Ideal.matmul_constant_zero_apply dot_S2x8x128_S2x4096x128_S2x8x4096_2_2_1_1_0_0 none L R (ix3 hh n a)).trans ?_
  rw [← Equiv.sum_comp (contrEquiv1 dot_S2x8x128_S2x4096x128_S2x8x4096_2_2_1_1_0_0 128 rfl rfl).symm]
  refine Finset.sum_congr rfl fun k _ => ?_
  have hk := contrEquiv1_symm_val dot_S2x8x128_S2x4096x128_S2x8x4096_2_2_1_1_0_0 128 rfl rfl k
  have el : dot_S2x8x128_S2x4096x128_S2x8x4096_2_2_1_1_0_0.lhsIdx (ix3 hh n a) ((contrEquiv1 dot_S2x8x128_S2x4096x128_S2x8x4096_2_2_1_1_0_0 128 rfl rfl).symm k) = ix3 hh n k := funext fun ax => Fin.ext (by
    match ax with
    | ⟨0, _⟩ => exact dotQP_l0 _ _
    | ⟨1, _⟩ => exact dotQP_l1 _ _
    | ⟨2, _⟩ => exact (dotQP_l2 _ _).trans hk)
  have er : dot_S2x8x128_S2x4096x128_S2x8x4096_2_2_1_1_0_0.rhsIdx (ix3 hh n a) ((contrEquiv1 dot_S2x8x128_S2x4096x128_S2x8x4096_2_2_1_1_0_0 128 rfl rfl).symm k) = ix3 hh a k := funext fun ax => Fin.ext (by
    match ax with
    | ⟨0, _⟩ => exact dotQP_r0 _ _
    | ⟨1, _⟩ => exact dotQP_r1 _ _
    | ⟨2, _⟩ => exact (dotQP_r2 _ _).trans hk)
  rw [el, er]

/-! ## Queries against new keys -/

theorem dotQN_l0 (i : S2x8x8.Idx) (q : dot_S2x8x128_S2x8x128_S2x8x8_2_2_1_1_0_0.contr.Idx) :
    (dot_S2x8x128_S2x8x128_S2x8x8_2_2_1_1_0_0.lhsIdx i q 0).val = (i 0).val := by
  unfold DotDims.lhsIdx
  rw [dif_pos (show (0 : Fin S2x8x128.rank) ∈ dot_S2x8x128_S2x8x128_S2x8x8_2_2_1_1_0_0.lhsBatch by decide)]
  rfl
theorem dotQN_l1 (i : S2x8x8.Idx) (q : dot_S2x8x128_S2x8x128_S2x8x8_2_2_1_1_0_0.contr.Idx) :
    (dot_S2x8x128_S2x8x128_S2x8x8_2_2_1_1_0_0.lhsIdx i q 1).val = (i 1).val := by
  unfold DotDims.lhsIdx
  rw [dif_neg (show ¬(1 : Fin S2x8x128.rank) ∈ dot_S2x8x128_S2x8x128_S2x8x8_2_2_1_1_0_0.lhsBatch by decide), dif_pos (show (1 : Fin S2x8x128.rank) ∈ dot_S2x8x128_S2x8x128_S2x8x8_2_2_1_1_0_0.lhsNonContracting by decide)]
  rfl
theorem dotQN_l2 (i : S2x8x8.Idx) (q : dot_S2x8x128_S2x8x128_S2x8x8_2_2_1_1_0_0.contr.Idx) :
    (dot_S2x8x128_S2x8x128_S2x8x8_2_2_1_1_0_0.lhsIdx i q 2).val = (q ⟨0, by decide⟩).val :=
  dot_S2x8x128_S2x8x128_S2x8x8_2_2_1_1_0_0.lhsIdx_val_of_single rfl i q
theorem dotQN_r0 (i : S2x8x8.Idx) (q : dot_S2x8x128_S2x8x128_S2x8x8_2_2_1_1_0_0.contr.Idx) :
    (dot_S2x8x128_S2x8x128_S2x8x8_2_2_1_1_0_0.rhsIdx i q 0).val = (i 0).val := by
  unfold DotDims.rhsIdx
  rw [dif_pos (show (0 : Fin S2x8x128.rank) ∈ dot_S2x8x128_S2x8x128_S2x8x8_2_2_1_1_0_0.rhsBatch by decide)]
  rfl
theorem dotQN_r1 (i : S2x8x8.Idx) (q : dot_S2x8x128_S2x8x128_S2x8x8_2_2_1_1_0_0.contr.Idx) :
    (dot_S2x8x128_S2x8x128_S2x8x8_2_2_1_1_0_0.rhsIdx i q 1).val = (i 2).val := by
  unfold DotDims.rhsIdx
  rw [dif_neg (show ¬(1 : Fin S2x8x128.rank) ∈ dot_S2x8x128_S2x8x128_S2x8x8_2_2_1_1_0_0.rhsBatch by decide), dif_pos (show (1 : Fin S2x8x128.rank) ∈ dot_S2x8x128_S2x8x128_S2x8x8_2_2_1_1_0_0.rhsNonContracting by decide)]
  rfl
theorem dotQN_r2 (i : S2x8x8.Idx) (q : dot_S2x8x128_S2x8x128_S2x8x8_2_2_1_1_0_0.contr.Idx) :
    (dot_S2x8x128_S2x8x128_S2x8x8_2_2_1_1_0_0.rhsIdx i q 2).val = (q ⟨0, by decide⟩).val :=
  dot_S2x8x128_S2x8x128_S2x8x8_2_2_1_1_0_0.rhsIdx_val_of_single rfl i q

/-- Head hh's query n against its new key j: the sum over the 128 lanes. -/
theorem dotQN_apply (L : FVec Ideal S2x8x128 .f32) (R : FVec Ideal S2x8x128 .f32) (hh : Fin 2) (n : Fin 8) (j : Fin 8) :
    matmul dot_S2x8x128_S2x8x128_S2x8x8_2_2_1_1_0_0 none L R (constant (F := Ideal) S2x8x8 .f32 0x00000000#32) (ix3 hh n j)
      = ∑ k : Fin 128, L (ix3 hh n k) * R (ix3 hh j k) := by
  refine (Ideal.matmul_constant_zero_apply dot_S2x8x128_S2x8x128_S2x8x8_2_2_1_1_0_0 none L R (ix3 hh n j)).trans ?_
  rw [← Equiv.sum_comp (contrEquiv1 dot_S2x8x128_S2x8x128_S2x8x8_2_2_1_1_0_0 128 rfl rfl).symm]
  refine Finset.sum_congr rfl fun k _ => ?_
  have hk := contrEquiv1_symm_val dot_S2x8x128_S2x8x128_S2x8x8_2_2_1_1_0_0 128 rfl rfl k
  have el : dot_S2x8x128_S2x8x128_S2x8x8_2_2_1_1_0_0.lhsIdx (ix3 hh n j) ((contrEquiv1 dot_S2x8x128_S2x8x128_S2x8x8_2_2_1_1_0_0 128 rfl rfl).symm k) = ix3 hh n k := funext fun ax => Fin.ext (by
    match ax with
    | ⟨0, _⟩ => exact dotQN_l0 _ _
    | ⟨1, _⟩ => exact dotQN_l1 _ _
    | ⟨2, _⟩ => exact (dotQN_l2 _ _).trans hk)
  have er : dot_S2x8x128_S2x8x128_S2x8x8_2_2_1_1_0_0.rhsIdx (ix3 hh n j) ((contrEquiv1 dot_S2x8x128_S2x8x128_S2x8x8_2_2_1_1_0_0 128 rfl rfl).symm k) = ix3 hh j k := funext fun ax => Fin.ext (by
    match ax with
    | ⟨0, _⟩ => exact dotQN_r0 _ _
    | ⟨1, _⟩ => exact dotQN_r1 _ _
    | ⟨2, _⟩ => exact (dotQN_r2 _ _).trans hk)
  rw [el, er]

/-! ## Weights against cached values -/

theorem dotPV_l0 (i : S2x8x128.Idx) (q : dot_S2x8x4096_S2x4096x128_S2x8x128_2_1_1_2_0_0.contr.Idx) :
    (dot_S2x8x4096_S2x4096x128_S2x8x128_2_1_1_2_0_0.lhsIdx i q 0).val = (i 0).val := by
  unfold DotDims.lhsIdx
  rw [dif_pos (show (0 : Fin S2x8x4096.rank) ∈ dot_S2x8x4096_S2x4096x128_S2x8x128_2_1_1_2_0_0.lhsBatch by decide)]
  rfl
theorem dotPV_l1 (i : S2x8x128.Idx) (q : dot_S2x8x4096_S2x4096x128_S2x8x128_2_1_1_2_0_0.contr.Idx) :
    (dot_S2x8x4096_S2x4096x128_S2x8x128_2_1_1_2_0_0.lhsIdx i q 1).val = (i 1).val := by
  unfold DotDims.lhsIdx
  rw [dif_neg (show ¬(1 : Fin S2x8x4096.rank) ∈ dot_S2x8x4096_S2x4096x128_S2x8x128_2_1_1_2_0_0.lhsBatch by decide), dif_pos (show (1 : Fin S2x8x4096.rank) ∈ dot_S2x8x4096_S2x4096x128_S2x8x128_2_1_1_2_0_0.lhsNonContracting by decide)]
  rfl
theorem dotPV_l2 (i : S2x8x128.Idx) (q : dot_S2x8x4096_S2x4096x128_S2x8x128_2_1_1_2_0_0.contr.Idx) :
    (dot_S2x8x4096_S2x4096x128_S2x8x128_2_1_1_2_0_0.lhsIdx i q 2).val = (q ⟨0, by decide⟩).val :=
  dot_S2x8x4096_S2x4096x128_S2x8x128_2_1_1_2_0_0.lhsIdx_val_of_single rfl i q
theorem dotPV_r0 (i : S2x8x128.Idx) (q : dot_S2x8x4096_S2x4096x128_S2x8x128_2_1_1_2_0_0.contr.Idx) :
    (dot_S2x8x4096_S2x4096x128_S2x8x128_2_1_1_2_0_0.rhsIdx i q 0).val = (i 0).val := by
  unfold DotDims.rhsIdx
  rw [dif_pos (show (0 : Fin S2x4096x128.rank) ∈ dot_S2x8x4096_S2x4096x128_S2x8x128_2_1_1_2_0_0.rhsBatch by decide)]
  rfl
theorem dotPV_r1 (i : S2x8x128.Idx) (q : dot_S2x8x4096_S2x4096x128_S2x8x128_2_1_1_2_0_0.contr.Idx) :
    (dot_S2x8x4096_S2x4096x128_S2x8x128_2_1_1_2_0_0.rhsIdx i q 1).val = (q ⟨0, by decide⟩).val :=
  dot_S2x8x4096_S2x4096x128_S2x8x128_2_1_1_2_0_0.rhsIdx_val_of_single rfl i q
theorem dotPV_r2 (i : S2x8x128.Idx) (q : dot_S2x8x4096_S2x4096x128_S2x8x128_2_1_1_2_0_0.contr.Idx) :
    (dot_S2x8x4096_S2x4096x128_S2x8x128_2_1_1_2_0_0.rhsIdx i q 2).val = (i 2).val := by
  unfold DotDims.rhsIdx
  rw [dif_neg (show ¬(2 : Fin S2x4096x128.rank) ∈ dot_S2x8x4096_S2x4096x128_S2x8x128_2_1_1_2_0_0.rhsBatch by decide), dif_pos (show (2 : Fin S2x4096x128.rank) ∈ dot_S2x8x4096_S2x4096x128_S2x8x128_2_1_1_2_0_0.rhsNonContracting by decide)]
  rfl

/-- Head hh's weights of query n against lane d of its cached values: the sum over the 4096 cached positions. -/
theorem dotPV_apply (L : FVec Ideal S2x8x4096 .f32) (R : FVec Ideal S2x4096x128 .f32) (hh : Fin 2) (n : Fin 8) (d : Fin 128) :
    matmul dot_S2x8x4096_S2x4096x128_S2x8x128_2_1_1_2_0_0 none L R (constant (F := Ideal) S2x8x128 .f32 0x00000000#32) (ix3 hh n d)
      = ∑ k : Fin 4096, L (ix3 hh n k) * R (ix3 hh k d) := by
  refine (Ideal.matmul_constant_zero_apply dot_S2x8x4096_S2x4096x128_S2x8x128_2_1_1_2_0_0 none L R (ix3 hh n d)).trans ?_
  rw [← Equiv.sum_comp (contrEquiv1 dot_S2x8x4096_S2x4096x128_S2x8x128_2_1_1_2_0_0 4096 rfl rfl).symm]
  refine Finset.sum_congr rfl fun k _ => ?_
  have hk := contrEquiv1_symm_val dot_S2x8x4096_S2x4096x128_S2x8x128_2_1_1_2_0_0 4096 rfl rfl k
  have el : dot_S2x8x4096_S2x4096x128_S2x8x128_2_1_1_2_0_0.lhsIdx (ix3 hh n d) ((contrEquiv1 dot_S2x8x4096_S2x4096x128_S2x8x128_2_1_1_2_0_0 4096 rfl rfl).symm k) = ix3 hh n k := funext fun ax => Fin.ext (by
    match ax with
    | ⟨0, _⟩ => exact dotPV_l0 _ _
    | ⟨1, _⟩ => exact dotPV_l1 _ _
    | ⟨2, _⟩ => exact (dotPV_l2 _ _).trans hk)
  have er : dot_S2x8x4096_S2x4096x128_S2x8x128_2_1_1_2_0_0.rhsIdx (ix3 hh n d) ((contrEquiv1 dot_S2x8x4096_S2x4096x128_S2x8x128_2_1_1_2_0_0 4096 rfl rfl).symm k) = ix3 hh k d := funext fun ax => Fin.ext (by
    match ax with
    | ⟨0, _⟩ => exact dotPV_r0 _ _
    | ⟨1, _⟩ => exact (dotPV_r1 _ _).trans hk
    | ⟨2, _⟩ => exact dotPV_r2 _ _)
  rw [el, er]

/-! ## Weights against new values -/

theorem dotNV_l0 (i : S2x8x128.Idx) (q : dot_S2x8x8_S2x8x128_S2x8x128_2_1_1_2_0_0.contr.Idx) :
    (dot_S2x8x8_S2x8x128_S2x8x128_2_1_1_2_0_0.lhsIdx i q 0).val = (i 0).val := by
  unfold DotDims.lhsIdx
  rw [dif_pos (show (0 : Fin S2x8x8.rank) ∈ dot_S2x8x8_S2x8x128_S2x8x128_2_1_1_2_0_0.lhsBatch by decide)]
  rfl
theorem dotNV_l1 (i : S2x8x128.Idx) (q : dot_S2x8x8_S2x8x128_S2x8x128_2_1_1_2_0_0.contr.Idx) :
    (dot_S2x8x8_S2x8x128_S2x8x128_2_1_1_2_0_0.lhsIdx i q 1).val = (i 1).val := by
  unfold DotDims.lhsIdx
  rw [dif_neg (show ¬(1 : Fin S2x8x8.rank) ∈ dot_S2x8x8_S2x8x128_S2x8x128_2_1_1_2_0_0.lhsBatch by decide), dif_pos (show (1 : Fin S2x8x8.rank) ∈ dot_S2x8x8_S2x8x128_S2x8x128_2_1_1_2_0_0.lhsNonContracting by decide)]
  rfl
theorem dotNV_l2 (i : S2x8x128.Idx) (q : dot_S2x8x8_S2x8x128_S2x8x128_2_1_1_2_0_0.contr.Idx) :
    (dot_S2x8x8_S2x8x128_S2x8x128_2_1_1_2_0_0.lhsIdx i q 2).val = (q ⟨0, by decide⟩).val :=
  dot_S2x8x8_S2x8x128_S2x8x128_2_1_1_2_0_0.lhsIdx_val_of_single rfl i q
theorem dotNV_r0 (i : S2x8x128.Idx) (q : dot_S2x8x8_S2x8x128_S2x8x128_2_1_1_2_0_0.contr.Idx) :
    (dot_S2x8x8_S2x8x128_S2x8x128_2_1_1_2_0_0.rhsIdx i q 0).val = (i 0).val := by
  unfold DotDims.rhsIdx
  rw [dif_pos (show (0 : Fin S2x8x128.rank) ∈ dot_S2x8x8_S2x8x128_S2x8x128_2_1_1_2_0_0.rhsBatch by decide)]
  rfl
theorem dotNV_r1 (i : S2x8x128.Idx) (q : dot_S2x8x8_S2x8x128_S2x8x128_2_1_1_2_0_0.contr.Idx) :
    (dot_S2x8x8_S2x8x128_S2x8x128_2_1_1_2_0_0.rhsIdx i q 1).val = (q ⟨0, by decide⟩).val :=
  dot_S2x8x8_S2x8x128_S2x8x128_2_1_1_2_0_0.rhsIdx_val_of_single rfl i q
theorem dotNV_r2 (i : S2x8x128.Idx) (q : dot_S2x8x8_S2x8x128_S2x8x128_2_1_1_2_0_0.contr.Idx) :
    (dot_S2x8x8_S2x8x128_S2x8x128_2_1_1_2_0_0.rhsIdx i q 2).val = (i 2).val := by
  unfold DotDims.rhsIdx
  rw [dif_neg (show ¬(2 : Fin S2x8x128.rank) ∈ dot_S2x8x8_S2x8x128_S2x8x128_2_1_1_2_0_0.rhsBatch by decide), dif_pos (show (2 : Fin S2x8x128.rank) ∈ dot_S2x8x8_S2x8x128_S2x8x128_2_1_1_2_0_0.rhsNonContracting by decide)]
  rfl

/-- Head hh's weights of query n against lane d of its new values: the sum over the 8 new positions. -/
theorem dotNV_apply (L : FVec Ideal S2x8x8 .f32) (R : FVec Ideal S2x8x128 .f32) (hh : Fin 2) (n : Fin 8) (d : Fin 128) :
    matmul dot_S2x8x8_S2x8x128_S2x8x128_2_1_1_2_0_0 none L R (constant (F := Ideal) S2x8x128 .f32 0x00000000#32) (ix3 hh n d)
      = ∑ k : Fin 8, L (ix3 hh n k) * R (ix3 hh k d) := by
  refine (Ideal.matmul_constant_zero_apply dot_S2x8x8_S2x8x128_S2x8x128_2_1_1_2_0_0 none L R (ix3 hh n d)).trans ?_
  rw [← Equiv.sum_comp (contrEquiv1 dot_S2x8x8_S2x8x128_S2x8x128_2_1_1_2_0_0 8 rfl rfl).symm]
  refine Finset.sum_congr rfl fun k _ => ?_
  have hk := contrEquiv1_symm_val dot_S2x8x8_S2x8x128_S2x8x128_2_1_1_2_0_0 8 rfl rfl k
  have el : dot_S2x8x8_S2x8x128_S2x8x128_2_1_1_2_0_0.lhsIdx (ix3 hh n d) ((contrEquiv1 dot_S2x8x8_S2x8x128_S2x8x128_2_1_1_2_0_0 8 rfl rfl).symm k) = ix3 hh n k := funext fun ax => Fin.ext (by
    match ax with
    | ⟨0, _⟩ => exact dotNV_l0 _ _
    | ⟨1, _⟩ => exact dotNV_l1 _ _
    | ⟨2, _⟩ => exact (dotNV_l2 _ _).trans hk)
  have er : dot_S2x8x8_S2x8x128_S2x8x128_2_1_1_2_0_0.rhsIdx (ix3 hh n d) ((contrEquiv1 dot_S2x8x8_S2x8x128_S2x8x128_2_1_1_2_0_0 8 rfl rfl).symm k) = ix3 hh k d := funext fun ax => Fin.ext (by
    match ax with
    | ⟨0, _⟩ => exact dotNV_r0 _ _
    | ⟨1, _⟩ => exact (dotNV_r1 _ _).trans hk
    | ⟨2, _⟩ => exact dotNV_r2 _ _)
  rw [el, er]

end Cert.KVal.Attn

end
-- ==== Proof.KVal.AttnLanes.lean ====
/-
  The lane reductions of the attention body read at an index, on the extended reals: over the last axis of a
  [2, 8, K] vector, a maximum is the fold of max from −∞ over the K lanes, and a sum is the sum over them.
-/
import proofs.«176267_j6640019439658_2_alg».proof.Proof.Gen.KernelIdeal
import proofs.«176267_j6640019439658_2_alg».proof.Proof.KVal.AttnSpec
import Idealize.ShloMosaic.Lib.ValueIdx
import Idealize.ShloMosaic.PureOps.Ideal.Laws

noncomputable section

open scoped BigOperators

namespace Cert.KVal.Attn

open Idealize.ShloMosaic Idealize.ShloMosaic.ValueIdx
open Cert.KernelIdeal Cert.KernelIdeal.Gen

/-- The reduced index (hh, n) with lane a put back is (hh, n, a). -/
theorem liftP (hh : Fin 2) (n : Fin 8) (a : Fin 4096) :
    reduces_S2x8x4096_S2x8.lift (ix2 hh n) a = ix3 hh n a :=
  funext fun c => Fin.ext (match c with | ⟨0, _⟩ => rfl | ⟨1, _⟩ => rfl | ⟨2, _⟩ => rfl)

theorem liftN (hh : Fin 2) (n : Fin 8) (j : Fin 8) :
    reduces_S2x8x8_S2x8.lift (ix2 hh n) j = ix3 hh n j :=
  funext fun c => Fin.ext (match c with | ⟨0, _⟩ => rfl | ⟨1, _⟩ => rfl | ⟨2, _⟩ => rfl)

/-- The lane maximum over the 4096 cached positions. -/
theorem laneMaxP_apply (src : FVec Ideal S2x8x4096 .f32) (hh : Fin 2) (n : Fin 8) :
    multiReduction .maximumf [2] S2x8 src 0xFF800000#32 reduces_S2x8x4096_S2x8 (.inl rfl) rfl (ix2 hh n)
      = (Finset.univ : Finset (Fin 4096)).fold max negInf (fun a => src (ix3 hh n a)) := by
  refine (Ideal.multiReduction_maximumf_single src 0xFF800000#32 reduces_S2x8x4096_S2x8 (.inl rfl) rfl (ix2 hh n)).trans ?_
  refine congrArg ((Finset.univ : Finset (Fin 4096)).fold max negInf) (funext fun a => ?_)
  exact congrArg src (liftP hh n a)

/-- The lane maximum over the 8 new positions. -/
theorem laneMaxN_apply (src : FVec Ideal S2x8x8 .f32) (hh : Fin 2) (n : Fin 8) :
    multiReduction .maximumf [2] S2x8 src 0xFF800000#32 reduces_S2x8x8_S2x8 (.inl rfl) rfl (ix2 hh n)
      = (Finset.univ : Finset (Fin 8)).fold max negInf (fun j => src (ix3 hh n j)) := by
  refine (Ideal.multiReduction_maximumf_single src 0xFF800000#32 reduces_S2x8x8_S2x8 (.inl rfl) rfl (ix2 hh n)).trans ?_
  refine congrArg ((Finset.univ : Finset (Fin 8)).fold max negInf) (funext fun j => ?_)
  exact congrArg src (liftN hh n j)

/-- The lane sum over the 4096 cached positions. -/
theorem laneSumP_apply (src : FVec Ideal S2x8x4096 .f32) (hh : Fin 2) (n : Fin 8) :
    multiReduction .add [2] S2x8 src 0x00000000#32 reduces_S2x8x4096_S2x8 (.inl rfl) rfl (ix2 hh n)
      = ∑ a : Fin 4096, src (ix3 hh n a) := by
  refine (Ideal.multiReduction_add_single src 0x00000000#32 reduces_S2x8x4096_S2x8 (.inl rfl) rfl (ix2 hh n)).trans ?_
  exact Finset.sum_congr rfl fun a _ => congrArg src (liftP hh n a)

/-- The lane sum over the 8 new positions. -/
theorem laneSumN_apply (src : FVec Ideal S2x8x8 .f32) (hh : Fin 2) (n : Fin 8) :
    multiReduction .add [2] S2x8 src 0x00000000#32 reduces_S2x8x8_S2x8 (.inl rfl) rfl (ix2 hh n)
      = ∑ j : Fin 8, src (ix3 hh n j) := by
  refine (Ideal.multiReduction_add_single src 0x00000000#32 reduces_S2x8x8_S2x8 (.inl rfl) rfl (ix2 hh n)).trans ?_
  exact Finset.sum_congr rfl fun j _ => congrArg src (liftN hh n j)

end Cert.KVal.Attn

end
-- ==== Proof.KVal.AttnPay.lean ====
/-
  The attention body's arithmetic read at an index, on the extended reals, over any contents x0 … x4 of the five
  blocks it loads (queries, new keys, new values: 8 rows by two heads' 128 lanes side by side; cached keys and values:
  two heads by 4096 rows by 128 lanes). Entry (n, 128·hh + d) of the block it stores is the one-row attention of
  head hh's query n: its lanes x0(n, 128·hh + ·), the cached keys x3(0, hh, ·, ·), the new keys x1(·, 128·hh + ·), and
  lane d of the cached values x4(0, hh, ·, d) and the new values x2(·, 128·hh + d).
-/
import proofs.«176267_j6640019439658_2_alg».proof.Proof.KI.Reg1
import proofs.«176267_j6640019439658_2_alg».proof.Proof.KVal.AttnRow
import proofs.«176267_j6640019439658_2_alg».proof.Proof.KVal.AttnLayout
import proofs.«176267_j6640019439658_2_alg».proof.Proof.KVal.AttnDots
import proofs.«176267_j6640019439658_2_alg».proof.Proof.KVal.AttnLanes
import Idealize.ShloMosaic.Lib.ValueIdx
import Idealize.ShloMosaic.Lib.ValueLayout
import Idealize.ShloMosaic.Lib.Pipeline.Value

noncomputable section

open scoped BigOperators

namespace Cert.KVal.Attn

open Idealize.ShloMosaic Idealize.ShloMosaic.ValueIdx
open Cert.KernelIdeal Cert.KernelIdeal.Gen Cert.KernelIdeal.Hand

/-! ## The row's data, read off the blocks -/

/-- Head hh's query n: its 128 lanes of the query block. -/
abbrev qOf (x0 : Vec Ideal S8x256 .f32) (hh : Fin 2) (n : Fin 8) : Fin 128 → EReal := fun d => x0 (ix2 n (lane2 hh d))
/-- Head hh's rows of a block of eight new rows. -/
abbrev newOf (x : Vec Ideal S8x256 .f32) (hh : Fin 2) : Fin 8 → Fin 128 → EReal := fun j d => x (ix2 j (lane2 hh d))
/-- Head hh's rows of a cache block. -/
abbrev pastOf (x : Vec Ideal S1x2x4096x128 .f32) (hh : Fin 2) : Fin 4096 → Fin 128 → EReal := fun a d => x (ix4 (0 : Fin 1) hh a d)

/-! ## The five loaded blocks by heads -/

theorem heads6_apply (x0 : Vec Ideal S8x256 .f32) (hh : Fin 2) (n : Fin 8) (d : Fin 128) :
    k1_pay6 x0 (ix3 hh n d) = x0 (ix2 n (lane2 hh d)) :=
  splitHeads_apply x0 shapeCasts_S8x256_S8x256 shapeCasts_S8x256_S8x2x128 transposes_S8x2x128_p1_0_2_S2x8x128 hh n d

theorem heads7_apply (x1 : Vec Ideal S8x256 .f32) (hh : Fin 2) (j : Fin 8) (d : Fin 128) :
    k1_pay7 x1 (ix3 hh j d) = x1 (ix2 j (lane2 hh d)) :=
  splitHeads_apply x1 shapeCasts_S8x256_S8x256 shapeCasts_S8x256_S8x2x128 transposes_S8x2x128_p1_0_2_S2x8x128 hh j d

theorem heads8_apply (x2 : Vec Ideal S8x256 .f32) (hh : Fin 2) (j : Fin 8) (d : Fin 128) :
    k1_pay8 x2 (ix3 hh j d) = x2 (ix2 j (lane2 hh d)) :=
  splitHeads_apply x2 shapeCasts_S8x256_S8x256 shapeCasts_S8x256_S8x2x128 transposes_S8x2x128_p1_0_2_S2x8x128 hh j d

theorem heads9_apply (x3 : Vec Ideal S1x2x4096x128 .f32) (hh : Fin 2) (a : Fin 4096) (d : Fin 128) :
    k1_pay9 x3 (ix3 hh a d) = x3 (ix4 (0 : Fin 1) hh a d) :=
  shapeCast_1abc_abc_apply x3 shapeCasts_S1x2x4096x128_S2x4096x128 hh a d

theorem heads10_apply (x4 : Vec Ideal S1x2x4096x128 .f32) (hh : Fin 2) (a : Fin 4096) (d : Fin 128) :
    k1_pay10 x4 (ix3 hh a d) = x4 (ix4 (0 : Fin 1) hh a d) :=
  shapeCast_1abc_abc_apply x4 shapeCasts_S1x2x4096x128_S2x4096x128 hh a d

/-! ## Scores -/

/-- The scaled scores against the cached keys. -/
theorem scoresP_apply (x0 : Vec Ideal S8x256 .f32) (x3 : Vec Ideal S1x2x4096x128 .f32) (hh : Fin 2) (n : Fin 8) (a : Fin 4096) :
    k1_pay11 x0 x3 (ix3 hh n a) = rowScore (qOf x0 hh n) (pastOf x3 hh) a := by
  refine (congrArg (fun z : EReal => z * Ideal.ofBits .f32 0x3DB504F3#32) (dotQP_apply (k1_pay6 x0) (k1_pay9 x3) hh n a)).trans ?_
  refine congrArg (fun z : EReal => z * Ideal.ofBits .f32 0x3DB504F3#32) (Finset.sum_congr rfl fun k _ => ?_)
  rw [heads6_apply, heads9_apply]

/-- The scaled scores against the new keys. -/
theorem scoresN_apply (x0 x1 : Vec Ideal S8x256 .f32) (hh : Fin 2) (n : Fin 8) (j : Fin 8) :
    k1_pay12 x0 x1 (ix3 hh n j) = rowScore (qOf x0 hh n) (newOf x1 hh) j := by
  refine (congrArg (fun z : EReal => z * Ideal.ofBits .f32 0x3DB504F3#32) (dotQN_apply (k1_pay6 x0) (k1_pay7 x1) hh n j)).trans ?_
  refine congrArg (fun z : EReal => z * Ideal.ofBits .f32 0x3DB504F3#32) (Finset.sum_congr rfl fun k _ => ?_)
  rw [heads6_apply, heads7_apply]

/-! ## The row maximum -/

theorem top_apply (x0 x1 : Vec Ideal S8x256 .f32) (x3 : Vec Ideal S1x2x4096x128 .f32) (hh : Fin 2) (n : Fin 8) (u : Fin 1) :
    k1_pay13 x0 x1 x3 (ix3 hh n u) = rowTop (qOf x0 hh n) (pastOf x3 hh) (newOf x1 hh) := by
  refine (congrArg₂ max
    ((colCast_apply _ shapeCasts_S2x8_S2x8x1 hh n u).trans (laneMaxP_apply (k1_pay11 x0 x3) hh n))
    ((colCast_apply _ shapeCasts_S2x8_S2x8x1 hh n u).trans (laneMaxN_apply (k1_pay12 x0 x1) hh n))).trans ?_
  exact congrArg₂ max
    (congrArg ((Finset.univ : Finset (Fin 4096)).fold max negInf) (funext fun a => scoresP_apply x0 x3 hh n a))
    (congrArg ((Finset.univ : Finset (Fin 8)).fold max negInf) (funext fun j => scoresN_apply x0 x1 hh n j))

/-! ## The weights -/

theorem weightsP_apply (x0 x1 : Vec Ideal S8x256 .f32) (x3 : Vec Ideal S1x2x4096x128 .f32) (hh : Fin 2) (n : Fin 8) (a : Fin 4096) :
    k1_pay14 x0 x1 x3 (ix3 hh n a) = rowWeight (qOf x0 hh n) (pastOf x3 hh) (newOf x1 hh) (pastOf x3 hh) a :=
  congrArg Ideal.exp (congrArg₂ (fun p q : EReal => p - q) (scoresP_apply x0 x3 hh n a)
    ((colBroadcast_apply _ broadcasts_S2x8x1_S2x8x4096 hh n a).trans (top_apply x0 x1 x3 hh n 0)))

theorem weightsN_apply (x0 x1 : Vec Ideal S8x256 .f32) (x3 : Vec Ideal S1x2x4096x128 .f32) (hh : Fin 2) (n : Fin 8) (j : Fin 8) :
    k1_pay15 x0 x1 x3 (ix3 hh n j) = rowWeight (qOf x0 hh n) (pastOf x3 hh) (newOf x1 hh) (newOf x1 hh) j :=
  congrArg Ideal.exp (congrArg₂ (fun p q : EReal => p - q) (scoresN_apply x0 x1 hh n j)
    ((colBroadcast_apply _ broadcasts_S2x8x1_S2x8x8 hh n j).trans (top_apply x0 x1 x3 hh n 0)))

/-! ## The two lane sums -/

theorem sumP_apply (x0 x1 : Vec Ideal S8x256 .f32) (x3 : Vec Ideal S1x2x4096x128 .f32) (hh : Fin 2) (n : Fin 8) (u : Fin 1) :
    k1_pay16 x0 x1 x3 (ix3 hh n u) = ∑ a : Fin 4096, rowWeight (qOf x0 hh n) (pastOf x3 hh) (newOf x1 hh) (pastOf x3 hh) a :=
  ((colCast_apply _ shapeCasts_S2x8_S2x8x1 hh n u).trans (laneSumP_apply (k1_pay14 x0 x1 x3) hh n)).trans
    (Finset.sum_congr rfl fun a _ => weightsP_apply x0 x1 x3 hh n a)

theorem sumN_apply (x0 x1 : Vec Ideal S8x256 .f32) (x3 : Vec Ideal S1x2x4096x128 .f32) (hh : Fin 2) (n : Fin 8) :
    k1_pay17 x0 x1 x3 (ix2 hh n) = ∑ j : Fin 8, rowWeight (qOf x0 hh n) (pastOf x3 hh) (newOf x1 hh) (newOf x1 hh) j :=
  (laneSumN_apply (k1_pay15 x0 x1 x3) hh n).trans (Finset.sum_congr rfl fun j _ => weightsN_apply x0 x1 x3 hh n j)

/-! ## The stored block over any weights and sums -/

/-- The normalised weights against the values, the two heads merged side by side. -/
theorem store_apply (v11 : FVec Ideal S2x8x128 .f32) (v15 : FVec Ideal S2x4096x128 .f32) (v29 : FVec Ideal S2x8x4096 .f32)
    (v32 : FVec Ideal S2x8x8 .f32) (v34 : FVec Ideal S2x8x1 .f32) (v35 : FVec Ideal S2x8 .f32) (n : Fin 8) (hh : Fin 2) (d : Fin 128) :
    k1_pay5 v11 v15 v29 v32 v34 v35 (ix2 n (lane2 hh d))
      = (∑ a : Fin 4096, (v29 (ix3 hh n a) * Ideal.div oneLit (v34 (ix3 hh n (0 : Fin 1)) + v35 (ix2 hh n))) * v15 (ix3 hh a d))
        + (∑ j : Fin 8, (v32 (ix3 hh n j) * Ideal.div oneLit (v34 (ix3 hh n (0 : Fin 1)) + v35 (ix2 hh n))) * v11 (ix3 hh j d)) := by
  refine (mergeHeads_apply _ transposes_S2x8x128_p1_0_2_S8x2x128 shapeCasts_S8x2x128_S8x256 n hh d).trans ?_
  refine (congrArg₂ (fun p q : EReal => p + q) (dotPV_apply _ v15 hh n d) (dotNV_apply _ v11 hh n d)).trans ?_
  refine congrArg₂ (fun p q : EReal => p + q) (Finset.sum_congr rfl fun a _ => ?_) (Finset.sum_congr rfl fun j _ => ?_)
  · refine congrArg (fun z : EReal => z * v15 (ix3 hh a d)) (congrArg (fun z : EReal => v29 (ix3 hh n a) * z) ?_)
    refine (colBroadcast_apply _ broadcasts_S2x8x1_S2x8x4096 hh n a).trans ?_
    exact congrArg (fun z : EReal => Ideal.div oneLit (v34 (ix3 hh n (0 : Fin 1)) + z)) (colCast_apply v35 shapeCasts_S2x8_S2x8x1 hh n 0)
  · refine congrArg (fun z : EReal => z * v11 (ix3 hh j d)) (congrArg (fun z : EReal => v32 (ix3 hh n j) * z) ?_)
    refine (colBroadcast_apply _ broadcasts_S2x8x1_S2x8x8 hh n j).trans ?_
    exact congrArg (fun z : EReal => Ideal.div oneLit (v34 (ix3 hh n (0 : Fin 1)) + z)) (colCast_apply v35 shapeCasts_S2x8_S2x8x1 hh n 0)

/-! ## The attention window's buffer -/

theorem zeros2' : (![0, 0] : Fin 2 → Nat) = fun _ => 0 := funext fun a => by fin_cases a <;> rfl
theorem zeros4' : (![0, 0, 0, 0] : Fin 4 → Nat) = fun _ => 0 := funext fun a => by fin_cases a <;> rfl

/-- Entry (n, 128·hh + d) of what the body leaves in the attention window's buffer. -/
theorem attnBuf_apply (x0 x1 x2 : Vec Ideal S8x256 .f32) (x3 x4 : Vec Ideal S1x2x4096x128 .f32) (n : Fin 8) (hh : Fin 2) (d : Fin 128) :
    out1_5 x0 x1 x2 x3 x4 (ix2 n (lane2 hh d))
      = attnRow (qOf x0 hh n) (pastOf x3 hh) (newOf x1 hh) (fun a => x4 (ix4 (0 : Fin 1) hh a d)) (fun j => x2 (ix2 j (lane2 hh d))) := by
  unfold out1_5
  rw [View.canon_unit_zero zeros2']
  simp only [View.ld_unit_zero (S := S8x256) zeros2', View.ld_unit_zero (S := S1x2x4096x128) zeros4']
  refine (store_apply _ _ _ _ _ _ n hh d).trans ?_
  unfold attnRow rowNorm
  refine congrArg₂ (fun p q : EReal => p + q) (Finset.sum_congr rfl fun a _ => ?_) (Finset.sum_congr rfl fun j _ => ?_)
  · rw [weightsP_apply, sumP_apply, sumN_apply, heads10_apply]
  · rw [weightsN_apply, sumP_apply, sumN_apply, heads8_apply]

end Cert.KVal.Attn

end
-- ==== Proof.KVal.AttnGrid.lean ====
/-
  The attention region's grid: point t is batch row b = t / 8 and head pair hp = t % 8. The eight windows' block
  indices, related once over the 128 points: the queries', the attention rows' and the four caches' blocks sit at
  (b, hp) (the caches' at (b, hp, 0, 0)), the new keys' at (b, 8 + hp), the new values' at (b, 16 + hp); and every
  (b, hp) is some point's.
-/
import proofs.«176267_j6640019439658_2_alg».proof.Proof.Gen.KernelIdeal

namespace Cert.KVal.Attn

open Idealize.ShloMosaic
open Cert.KernelIdeal

/-- The attention rows' block index stays in range. -/
theorem idx_range : ∀ t : Fin cfg1.N, win1_5.index t (0 : Fin 2) ≤ 15 ∧ win1_5.index t (1 : Fin 2) ≤ 7 :=
  (by decide +kernel : ∀ t : Fin grid1.N, _)

/-- The three column blocks of the fused projection against the attention rows' block. -/
theorem idx_qkv : ∀ t : Fin cfg1.N, win1_0.index t (0 : Fin 2) = win1_5.index t (0 : Fin 2)
    ∧ win1_0.index t (1 : Fin 2) = win1_5.index t (1 : Fin 2)
    ∧ win1_1.index t (0 : Fin 2) = win1_5.index t (0 : Fin 2)
    ∧ win1_1.index t (1 : Fin 2) = win1_5.index t (1 : Fin 2) + 8
    ∧ win1_2.index t (0 : Fin 2) = win1_5.index t (0 : Fin 2)
    ∧ win1_2.index t (1 : Fin 2) = win1_5.index t (1 : Fin 2) + 16 :=
  (by decide +kernel : ∀ t : Fin grid1.N, _)

/-- The caches as found against the attention rows' block. -/
theorem idx_past : ∀ t : Fin cfg1.N, win1_3.index t (0 : Fin 4) = win1_5.index t (0 : Fin 2)
    ∧ win1_3.index t (1 : Fin 4) = win1_5.index t (1 : Fin 2)
    ∧ win1_3.index t (2 : Fin 4) = 0 ∧ win1_3.index t (3 : Fin 4) = 0
    ∧ win1_4.index t (0 : Fin 4) = win1_5.index t (0 : Fin 2)
    ∧ win1_4.index t (1 : Fin 4) = win1_5.index t (1 : Fin 2)
    ∧ win1_4.index t (2 : Fin 4) = 0 ∧ win1_4.index t (3 : Fin 4) = 0 :=
  (by decide +kernel : ∀ t : Fin grid1.N, _)

/-- The grown caches against the attention rows' block. -/
theorem idx_grown : ∀ t : Fin cfg1.N, win1_6.index t (0 : Fin 4) = win1_5.index t (0 : Fin 2)
    ∧ win1_6.index t (1 : Fin 4) = win1_5.index t (1 : Fin 2)
    ∧ win1_6.index t (2 : Fin 4) = 0 ∧ win1_6.index t (3 : Fin 4) = 0
    ∧ win1_7.index t (0 : Fin 4) = win1_5.index t (0 : Fin 2)
    ∧ win1_7.index t (1 : Fin 4) = win1_5.index t (1 : Fin 2)
    ∧ win1_7.index t (2 : Fin 4) = 0 ∧ win1_7.index t (3 : Fin 4) = 0 :=
  (by decide +kernel : ∀ t : Fin grid1.N, _)

/-- Every (batch row, head pair) is some point's. -/
theorem idx_onto : ∀ (b : Fin 16) (hp : Fin 8), ∃ t : Fin cfg1.N, win1_5.index t (0 : Fin 2) = b.val ∧ win1_5.index t (1 : Fin 2) = hp.val :=
  (by decide +kernel : ∀ (b : Fin 16) (hp : Fin 8), ∃ t : Fin grid1.N, win1_5.index t (0 : Fin 2) = b.val ∧ win1_5.index t (1 : Fin 2) = hp.val)

end Cert.KVal.Attn
-- ==== Proof.KVal.AttnArr.lean ====
/-
  The attention rows after the region. Point t = (batch row b, head pair hp) writes back the block (b, hp) of the
  [128, 2048] array: rows 8·b … 8·b + 7, columns 256·hp … 256·hp + 255, that is heads 2·hp and 2·hp + 1. Entry
  (n, 128·hh + d) of what the body left is the one-row attention of the loaded blocks' entries, and those are the
  entries of the fused projection and the caches that the whole-array function names for row 8·b + n and column
  128·(2·hp + hh) + d; and the 128 blocks tile the array.
-/
import proofs.«176267_j6640019439658_2_alg».proof.Proof.KI.Reg1
import proofs.«176267_j6640019439658_2_alg».proof.Proof.KVal.AttnPay
import proofs.«176267_j6640019439658_2_alg».proof.Proof.KVal.AttnGrid
import Idealize.ShloMosaic.Lib.Pipeline.Value

noncomputable section

open scoped BigOperators

namespace Cert.KVal.Attn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## What a point writes back -/

/-- Point t writes back block t of the attention rows. -/
theorem attn_flushed (c : Dev nD) (t : Fin cfg1.N) :
    (dat1 (F := Ideal) V c).flushed 5 t
      = ((cfg1.win 5).blk t).view.read (Elt Ideal) (kAttn (V c main_v1) (V c main_arg1) (V c main_arg2)) := by
  show (cfg1.win 5).cut (grid1.coords t) ((dat1 (F := Ideal) V c).after 5 t) = _
  rw [after1_5]
  obtain ⟨q0, q1, k0, k1, v0, v1⟩ := idx_qkv t
  obtain ⟨p0, p1, p2, p3, w0, w1, w2, w3⟩ := idx_past t
  obtain ⟨r0, r1⟩ := idx_range t
  funext y
  have hy0 : (y 0).val < 8 := (y 0).isLt
  have hy1 : (y 1).val < 256 := (y 1).isLt
  obtain ⟨n, hn⟩ : ∃ n : Fin 8, n.val = (y 0).val := ⟨⟨_, hy0⟩, rfl⟩
  obtain ⟨hh, hhh⟩ : ∃ hh : Fin 2, hh.val = (y 1).val / 128 := ⟨⟨(y 1).val / 128, by omega⟩, rfl⟩
  obtain ⟨d, hd⟩ : ∃ d : Fin 128, d.val = (y 1).val % 128 := ⟨⟨(y 1).val % 128, Nat.mod_lt _ (by omega)⟩, rfl⟩
  obtain ⟨b, hb⟩ : ∃ b : Fin 16, b.val = win1_5.index t (0 : Fin 2) := ⟨⟨win1_5.index t (0 : Fin 2), by omega⟩, rfl⟩
  obtain ⟨h, hh'⟩ : ∃ h : Fin 16, h.val = 2 * win1_5.index t (1 : Fin 2) + hh.val := ⟨⟨2 * win1_5.index t (1 : Fin 2) + hh.val, by omega⟩, rfl⟩
  have ey : (cfg1.win 5).xinj (grid1.coords t) y = (ix2 n (lane2 hh d) : S8x256.Idx) := funext fun a => Fin.ext (by
    match a with
    | ⟨0, _⟩ => show (y 0).val = n.val; omega
    | ⟨1, _⟩ => show (y 1).val = 128 * hh.val + d.val; omega)
  show out1_5 (iblk1 V c 0 t) (iblk1 V c 1 t) (iblk1 V c 2 t) (iblk1 V c 3 t) (iblk1 V c 4 t) ((cfg1.win 5).xinj (grid1.coords t) y)
    = kAttn (V c main_v1) (V c main_arg1) (V c main_arg2) (((cfg1.win 5).blk t).view.emb y)
  refine (congrArg (out1_5 (iblk1 V c 0 t) (iblk1 V c 1 t) (iblk1 V c 2 t) (iblk1 V c 3 t) (iblk1 V c 4 t)) ey).trans ?_
  refine (attnBuf_apply (iblk1 V c 0 t) (iblk1 V c 1 t) (iblk1 V c 2 t) (iblk1 V c 3 t) (iblk1 V c 4 t) n hh d).trans ?_
  refine Eq.trans ?_ ((kAttn_at (V c main_v1) (V c main_arg1) (V c main_arg2) (((cfg1.win 5).blk t).view.emb y) b h n d ?_ ?_).trans
    (attnAt_eq_attnRow (V c main_v1) (V c main_arg1) (V c main_arg2) b h n d)).symm
  · -- the five families of entries, block against array
    have e1 : qOf (iblk1 V c 0 t) hh n = fun d' => qAt (V c main_v1) b h n d' := funext fun d' => by
      show V c main_v1 (((cfg1.win 0).blk t).view.emb (ix2 n (lane2 hh d'))) = V c main_v1 (ix2 (row b n) (col 0 (by omega) h d'))
      refine congrArg (V c main_v1) (funext fun a => Fin.ext ?_)
      match a with
      | ⟨0, _⟩ => show win1_0.index t (0 : Fin 2) * 8 + 1 * n.val = 8 * b.val + n.val; omega
      | ⟨1, _⟩ => show win1_0.index t (1 : Fin 2) * 256 + 1 * (128 * hh.val + d'.val) = 0 + 128 * h.val + d'.val; omega
    have e2 : pastOf (iblk1 V c 3 t) hh = fun a d' => V c main_arg1 (ix4 b h a d') := funext fun a => funext fun d' => by
      show V c main_arg1 (((cfg1.win 3).blk t).view.emb (ix4 (0 : Fin 1) hh a d')) = V c main_arg1 (ix4 b h a d')
      refine congrArg (V c main_arg1) (funext fun ax => Fin.ext ?_)
      match ax with
      | ⟨0, _⟩ => show win1_3.index t (0 : Fin 4) * 1 + 1 * 0 = b.val; omega
      | ⟨1, _⟩ => show win1_3.index t (1 : Fin 4) * 2 + 1 * hh.val = h.val; omega
      | ⟨2, _⟩ => show win1_3.index t (2 : Fin 4) * 4096 + 1 * a.val = a.val; omega
      | ⟨3, _⟩ => show win1_3.index t (3 : Fin 4) * 128 + 1 * d'.val = d'.val; omega
    have e3 : newOf (iblk1 V c 1 t) hh = fun j d' => kNewAt (V c main_v1) b h j d' := funext fun j => funext fun d' => by
      show V c main_v1 (((cfg1.win 1).blk t).view.emb (ix2 j (lane2 hh d'))) = V c main_v1 (ix2 (row b j) (col 2048 (by omega) h d'))
      refine congrArg (V c main_v1) (funext fun a => Fin.ext ?_)
      match a with
      | ⟨0, _⟩ => show win1_1.index t (0 : Fin 2) * 8 + 1 * j.val = 8 * b.val + j.val; omega
      | ⟨1, _⟩ => show win1_1.index t (1 : Fin 2) * 256 + 1 * (128 * hh.val + d'.val) = 2048 + 128 * h.val + d'.val; omega
    have e4 : (fun a => iblk1 V c 4 t (ix4 (0 : Fin 1) hh a d)) = fun a => V c main_arg2 (ix4 b h a d) := funext fun a => by
      show V c main_arg2 (((cfg1.win 4).blk t).view.emb (ix4 (0 : Fin 1) hh a d)) = V c main_arg2 (ix4 b h a d)
      refine congrArg (V c main_arg2) (funext fun ax => Fin.ext ?_)
      match ax with
      | ⟨0, _⟩ => show win1_4.index t (0 : Fin 4) * 1 + 1 * 0 = b.val; omega
      | ⟨1, _⟩ => show win1_4.index t (1 : Fin 4) * 2 + 1 * hh.val = h.val; omega
      | ⟨2, _⟩ => show win1_4.index t (2 : Fin 4) * 4096 + 1 * a.val = a.val; omega
      | ⟨3, _⟩ => show win1_4.index t (3 : Fin 4) * 128 + 1 * d.val = d.val; omega
    have e5 : (fun j => iblk1 V c 2 t (ix2 j (lane2 hh d))) = fun j => vNewAt (V c main_v1) b h j d := funext fun j => by
      show V c main_v1 (((cfg1.win 2).blk t).view.emb (ix2 j (lane2 hh d))) = V c main_v1 (ix2 (row b j) (col 4096 (by omega) h d))
      refine congrArg (V c main_v1) (funext fun a => Fin.ext ?_)
      match a with
      | ⟨0, _⟩ => show win1_2.index t (0 : Fin 2) * 8 + 1 * j.val = 8 * b.val + j.val; omega
      | ⟨1, _⟩ => show win1_2.index t (1 : Fin 2) * 256 + 1 * (128 * hh.val + d.val) = 4096 + 128 * h.val + d.val; omega
    exact congr (congr (congr (congr (congrArg attnRow e1) e2) e3) e4) e5
  · show win1_5.index t (0 : Fin 2) * 8 + 1 * (y 0).val = 8 * b.val + n.val; omega
  · show win1_5.index t (1 : Fin 2) * 256 + 1 * (y 1).val = 128 * h.val + d.val; omega

/-! ## The blocks tile the array -/

/-- An index of the attention rows is in point t's block iff each coordinate is in the block's range on its axis. -/
theorem mem_attnBlk (t : Fin cfg1.N) (i : S128x2048.Idx) :
    i ∈ ((cfg1.win 5).blk t).view.set ↔ ∀ a : Fin 2, win1_5.index t a * S8x256.size a ≤ (i a).val ∧ (i a).val < win1_5.index t a * S8x256.size a + S8x256.size a := by
  show i ∈ ((View.whole main_v2_0).slice (win1_5.rect t)).set ↔ _
  rw [View.set_slice_whole, Rect.mem_set_unit]
  exact Iff.rfl

/-- Entry (r, c) lies in the block of the point (r / 8, c / 256). -/
theorem attn_cover (i : S128x2048.Idx) :
    ∃ t : Fin cfg1.N, (cfg1.win 5).flush t = true ∧ i ∈ ((cfg1.win 5).blk t).view.set := by
  have hi0 : (i 0).val < 128 := (i 0).isLt
  have hi1 : (i 1).val < 2048 := (i 1).isLt
  obtain ⟨t, e0, e1⟩ := idx_onto ⟨(i 0).val / 8, by omega⟩ ⟨(i 1).val / 256, by omega⟩
  have e0' : win1_5.index t (0 : Fin 2) = (i 0).val / 8 := e0
  have e1' : win1_5.index t (1 : Fin 2) = (i 1).val / 256 := e1
  refine ⟨t, flush1_5 t, ?_⟩
  rw [mem_attnBlk]
  intro a
  match a with
  | ⟨0, _⟩ => show win1_5.index t (0 : Fin 2) * 8 ≤ (i 0).val ∧ (i 0).val < win1_5.index t (0 : Fin 2) * 8 + 8; omega
  | ⟨1, _⟩ => show win1_5.index t (1 : Fin 2) * 256 ≤ (i 1).val ∧ (i 1).val < win1_5.index t (1 : Fin 2) * 256 + 256; omega

/-! ## The array after the region -/

/-- The attention rows after the region: softmax attention of each query over the cached and the new positions. -/
theorem attn_final (c : Dev nD) :
    (dat1 (F := Ideal) V c).arrAt 5 cfg1.N = kAttn (V c main_v1) (V c main_arg1) (V c main_arg2) :=
  (dat1 (F := Ideal) V c).arrAt_eq_of_cover 5 (kAttn (V c main_v1) (V c main_arg1) (V c main_arg2)) (fun t _ => attn_flushed V c t) attn_cover

end Cert.KVal.Attn

end
-- ==== Proof.KVal.AttnSpecAt.lean ====
/-
  The grown caches read at an array index through coordinate equations: an entry of a cached row is the cache as the
  region found it at the same coordinates; an entry of an appended row j ≥ 4096 of batch row b, head h, lane d is the
  fused projection at row 8·b + (j − 4096) and column off + 128·h + d.
-/
import proofs.«176267_j6640019439658_2_alg».proof.Proof.KVal.AttnSpec

noncomputable section

namespace Cert.KVal.Attn

open Idealize.ShloMosaic Idealize.ShloMosaic.ValueIdx

theorem grownAt_old (off : Nat) (hoff : off ≤ 4096) (qkv : SQkv.Idx → EReal) (past : SPast.Idx → EReal)
    (b h : Fin 16) (j : Fin 4104) (d : Fin 128) (k : SPast.Idx) (hj : j.val < 4096)
    (h0 : (k 0).val = b.val) (h1 : (k 1).val = h.val) (h2 : (k 2).val = j.val) (h3 : (k 3).val = d.val) :
    grownAt off hoff qkv past b h j d = past k := by
  unfold grownAt
  rw [dif_pos hj]
  refine congrArg past (funext fun a => Fin.ext ?_)
  match a with
  | ⟨0, _⟩ => exact h0.symm
  | ⟨1, _⟩ => exact h1.symm
  | ⟨2, _⟩ => exact h2.symm
  | ⟨3, _⟩ => exact h3.symm

theorem grownAt_new (off : Nat) (hoff : off ≤ 4096) (qkv : SQkv.Idx → EReal) (past : SPast.Idx → EReal)
    (b h : Fin 16) (j : Fin 4104) (d : Fin 128) (k : SQkv.Idx) (hj : 4096 ≤ j.val)
    (h0 : (k 0).val = 8 * b.val + (j.val - 4096)) (h1 : (k 1).val = off + 128 * h.val + d.val) :
    grownAt off hoff qkv past b h j d = qkv k := by
  unfold grownAt
  rw [dif_neg (by omega)]
  refine congrArg qkv (funext fun a => Fin.ext ?_)
  match a with
  | ⟨0, _⟩ => exact h0.symm
  | ⟨1, _⟩ => exact h1.symm

theorem kKeys_old (qkv : SQkv.Idx → EReal) (pk : SPast.Idx → EReal) (i : SGrown.Idx) (k : SPast.Idx)
    (hj : (i 2).val < 4096) (h0 : (k 0).val = (i 0).val) (h1 : (k 1).val = (i 1).val) (h2 : (k 2).val = (i 2).val)
    (h3 : (k 3).val = (i 3).val) : kKeys qkv pk i = pk k :=
  grownAt_old 2048 (by omega) qkv pk (i 0) (i 1) (i 2) (i 3) k hj h0 h1 h2 h3

theorem kKeys_new (qkv : SQkv.Idx → EReal) (pk : SPast.Idx → EReal) (i : SGrown.Idx) (k : SQkv.Idx)
    (hj : 4096 ≤ (i 2).val) (h0 : (k 0).val = 8 * (i 0).val + ((i 2).val - 4096))
    (h1 : (k 1).val = 2048 + 128 * (i 1).val + (i 3).val) : kKeys qkv pk i = qkv k :=
  grownAt_new 2048 (by omega) qkv pk (i 0) (i 1) (i 2) (i 3) k hj h0 h1

theorem kVals_old (qkv : SQkv.Idx → EReal) (pv : SPast.Idx → EReal) (i : SGrown.Idx) (k : SPast.Idx)
    (hj : (i 2).val < 4096) (h0 : (k 0).val = (i 0).val) (h1 : (k 1).val = (i 1).val) (h2 : (k 2).val = (i 2).val)
    (h3 : (k 3).val = (i 3).val) : kVals qkv pv i = pv k :=
  grownAt_old 4096 (by omega) qkv pv (i 0) (i 1) (i 2) (i 3) k hj h0 h1 h2 h3

theorem kVals_new (qkv : SQkv.Idx → EReal) (pv : SPast.Idx → EReal) (i : SGrown.Idx) (k : SQkv.Idx)
    (hj : 4096 ≤ (i 2).val) (h0 : (k 0).val = 8 * (i 0).val + ((i 2).val - 4096))
    (h1 : (k 1).val = 4096 + 128 * (i 1).val + (i 3).val) : kVals qkv pv i = qkv k :=
  grownAt_new 4096 (by omega) qkv pv (i 0) (i 1) (i 2) (i 3) k hj h0 h1

end Cert.KVal.Attn

end
-- ==== Proof.KVal.AttnCacheBlock.lean ====
/-
  What the attention body leaves in a cache window's buffer, entry by entry: the block of the cache it loaded in rows
  0 … 4095 and, in rows 4096 … 4103, the eight new rows of the two heads, each head's 128 lanes taken from its half of
  the 256-lane block of the fused projection.
-/
import proofs.«176267_j6640019439658_2_alg».proof.Proof.KI.Reg1
import proofs.«176267_j6640019439658_2_alg».proof.Proof.KVal.AttnLayout
import Idealize.ShloMosaic.Lib.ValueIdx
import Idealize.ShloMosaic.Lib.ValueLayout
import Idealize.ShloMosaic.Lib.Pipeline.Value

noncomputable section

namespace Cert.KVal.Attn

open Idealize.ShloMosaic Idealize.ShloMosaic.ValueIdx
open Cert.KernelIdeal Cert.KernelIdeal.Gen Cert.KernelIdeal.Hand

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The new rows as stored: entry (u, hh, j, d) is entry (j, 128·hh + d) of the loaded block. -/
theorem newRowsK_apply (x : Vec Ideal S8x256 .f32) (u : Fin 1) (hh : Fin 2) (j : Fin 8) (d : Fin 128) :
    k1_pay2 (k1_pay7 x) (ix4 u hh j d) = x (ix2 j (lane2 hh d)) :=
  (shapeCast_abc_1abc_apply (k1_pay7 x) shapeCasts_S2x8x128_S1x2x8x128 u hh j d).trans
    (splitHeads_apply x shapeCasts_S8x256_S8x256 shapeCasts_S8x256_S8x2x128 transposes_S8x2x128_p1_0_2_S2x8x128 hh j d)

theorem newRowsV_apply (x : Vec Ideal S8x256 .f32) (u : Fin 1) (hh : Fin 2) (j : Fin 8) (d : Fin 128) :
    k1_pay4 (k1_pay8 x) (ix4 u hh j d) = x (ix2 j (lane2 hh d)) :=
  (shapeCast_abc_1abc_apply (k1_pay8 x) shapeCasts_S2x8x128_S1x2x8x128 u hh j d).trans
    (splitHeads_apply x shapeCasts_S8x256_S8x256 shapeCasts_S8x256_S8x2x128 transposes_S8x2x128_p1_0_2_S2x8x128 hh j d)

/-- The cached rows as stored: the loaded block itself. -/
theorem oldRowsK_apply (x : Vec Ideal S1x2x4096x128 .f32) (u : Fin 1) (hh : Fin 2) (a : Fin 4096) (d : Fin 128) :
    k1_pay1 (k1_pay9 x) (ix4 u hh a d) = x (ix4 (0 : Fin 1) hh a d) :=
  (shapeCast_abc_1abc_apply (k1_pay9 x) shapeCasts_S2x4096x128_S1x2x4096x128 u hh a d).trans
    (shapeCast_1abc_abc_apply x shapeCasts_S1x2x4096x128_S2x4096x128 hh a d)

theorem oldRowsV_apply (x : Vec Ideal S1x2x4096x128 .f32) (u : Fin 1) (hh : Fin 2) (a : Fin 4096) (d : Fin 128) :
    k1_pay3 (k1_pay10 x) (ix4 u hh a d) = x (ix4 (0 : Fin 1) hh a d) :=
  (shapeCast_abc_1abc_apply (k1_pay10 x) shapeCasts_S2x4096x128_S1x2x4096x128 u hh a d).trans
    (shapeCast_1abc_abc_apply x shapeCasts_S1x2x4096x128_S2x4096x128 hh a d)

/-- Row 4096 + j of a cache buffer. -/
abbrev newRow (j : Fin 8) : Fin 4104 := ⟨4096 + j.val, by have := j.isLt; omega⟩
/-- Row a < 4096 of a cache buffer. -/
abbrev oldRow (a : Fin 4096) : Fin 4104 := ⟨a.val, by have := a.isLt; omega⟩

/-- An entry of the appended rows is the appended rectangle's entry at the same coordinates, the row counted from 4096. -/
theorem emb_newRow (u : Fin 1) (hh : Fin 2) (j : Fin 8) (d : Fin 128) :
    (ix4 u hh (newRow j) d : S1x2x4104x128.Idx) = r1_d.emb (ix4 u hh j d : S1x2x8x128.Idx) := by
  funext a; apply Fin.ext
  match a with
  | ⟨0, _⟩ => show u.val = 0 + 1 * u.val; omega
  | ⟨1, _⟩ => show hh.val = 0 + 1 * hh.val; omega
  | ⟨2, _⟩ => show 4096 + j.val = 4096 + 1 * j.val; omega
  | ⟨3, _⟩ => show d.val = 0 + 1 * d.val; omega

theorem emb_oldRow (u : Fin 1) (hh : Fin 2) (a : Fin 4096) (d : Fin 128) :
    (ix4 u hh (oldRow a) d : S1x2x4104x128.Idx) = r1_c.emb (ix4 u hh a d : S1x2x4096x128.Idx) := by
  funext b; apply Fin.ext
  match b with
  | ⟨0, _⟩ => show u.val = 0 + 1 * u.val; omega
  | ⟨1, _⟩ => show hh.val = 0 + 1 * hh.val; omega
  | ⟨2, _⟩ => show a.val = 0 + 1 * a.val; omega
  | ⟨3, _⟩ => show d.val = 0 + 1 * d.val; omega

/-- A cached row is not among the appended rows. -/
theorem oldRow_not_mem (u : Fin 1) (hh : Fin 2) (a : Fin 4096) (d : Fin 128) :
    (ix4 u hh (oldRow a) d : S1x2x4104x128.Idx) ∉ r1_d.set := by
  rw [Rect.mem_set_unit]
  intro h
  have h2 := (h (2 : Fin 4)).1
  have : (4096 : Nat) ≤ a.val := h2
  have := a.isLt
  omega

/-! ## The key cache's buffer -/

theorem keysBuf_new (x1 : Vec Ideal S8x256 .f32) (x3 : Vec Ideal S1x2x4096x128 .f32) (u : Fin 1) (hh : Fin 2) (j : Fin 8) (d : Fin 128) :
    out1_6 x1 x3 (ix4 u hh (newRow j) d) = x1 (ix2 j (lane2 hh d)) := by
  unfold out1_6
  rw [emb_newRow, View.canon_cons_emb, newRowsK_apply, View.ld_unit_zero (S := S8x256) zeros2]

theorem keysBuf_old (x1 : Vec Ideal S8x256 .f32) (x3 : Vec Ideal S1x2x4096x128 .f32) (u : Fin 1) (hh : Fin 2) (a : Fin 4096) (d : Fin 128) :
    out1_6 x1 x3 (ix4 u hh (oldRow a) d) = x3 (ix4 (0 : Fin 1) hh a d) := by
  unfold out1_6
  refine (View.canon_cons_of_not_mem (⟨r1_d, k1_pay2 (k1_pay7 (View.ld x1 r1_a))⟩ : View.Piece (Elt Ideal) S1x2x4104x128 .f32) _
    (oldRow_not_mem u hh a d)).trans ?_
  rw [emb_oldRow, View.canon_cons_emb, oldRowsK_apply, View.ld_unit_zero (S := S1x2x4096x128) zeros4]

/-- The key cache's buffer at any entry of a cached row: the loaded cache block at the same head, row and lane. -/
theorem keysBuf_apply_old (x1 : Vec Ideal S8x256 .f32) (x3 : Vec Ideal S1x2x4096x128 .f32) (y : S1x2x4104x128.Idx)
    (k : S1x2x4096x128.Idx) (h : (y 2).val < 4096) (h1 : (k 1).val = (y 1).val) (h2 : (k 2).val = (y 2).val)
    (h3 : (k 3).val = (y 3).val) : out1_6 x1 x3 y = x3 k := by
  obtain ⟨u, hh, j, d, rfl⟩ : ∃ (u : Fin 1) (hh : Fin 2) (j : Fin 4104) (d : Fin 128), y = ix4 u hh j d := ⟨y 0, y 1, y 2, y 3, eq_ix4 y⟩
  obtain ⟨u', hh', a, d', rfl⟩ : ∃ (u' : Fin 1) (hh' : Fin 2) (a : Fin 4096) (d' : Fin 128), k = ix4 u' hh' a d' := ⟨k 0, k 1, k 2, k 3, eq_ix4 k⟩
  have e1 : hh' = hh := Fin.ext h1
  have e2 : j = oldRow a := Fin.ext h2.symm
  have e3 : d' = d := Fin.ext h3
  have e0 : u' = 0 := Fin.ext (by have := u'.isLt; show u'.val = 0; omega)
  subst e1 e2 e3 e0
  exact keysBuf_old x1 x3 u hh' a d'

/-- The key cache's buffer at any entry of an appended row: the loaded block of new keys at that row, the head's lane. -/
theorem keysBuf_apply_new (x1 : Vec Ideal S8x256 .f32) (x3 : Vec Ideal S1x2x4096x128 .f32) (y : S1x2x4104x128.Idx)
    (k : S8x256.Idx) (h : 4096 ≤ (y 2).val) (h0 : (k 0).val = (y 2).val - 4096) (h1 : (k 1).val = 128 * (y 1).val + (y 3).val) :
    out1_6 x1 x3 y = x1 k := by
  obtain ⟨u, hh, j, d, rfl⟩ : ∃ (u : Fin 1) (hh : Fin 2) (j : Fin 4104) (d : Fin 128), y = ix4 u hh j d := ⟨y 0, y 1, y 2, y 3, eq_ix4 y⟩
  obtain ⟨n, cc, rfl⟩ : ∃ (n : Fin 8) (cc : Fin 256), k = ix2 n cc := ⟨k 0, k 1, eq_ix2 k⟩
  have e2 : j = newRow n := Fin.ext (by show j.val = 4096 + n.val; have : n.val = j.val - 4096 := h0; have : 4096 ≤ j.val := h; omega)
  have e1 : cc = lane2 hh d := Fin.ext h1
  subst e2 e1
  exact keysBuf_new x1 x3 u hh n d

/-! ## The value cache's buffer -/

theorem valsBuf_new (x2 : Vec Ideal S8x256 .f32) (x4 : Vec Ideal S1x2x4096x128 .f32) (u : Fin 1) (hh : Fin 2) (j : Fin 8) (d : Fin 128) :
    out1_7 x2 x4 (ix4 u hh (newRow j) d) = x2 (ix2 j (lane2 hh d)) := by
  unfold out1_7
  rw [emb_newRow, View.canon_cons_emb, newRowsV_apply, View.ld_unit_zero (S := S8x256) zeros2]

theorem valsBuf_old (x2 : Vec Ideal S8x256 .f32) (x4 : Vec Ideal S1x2x4096x128 .f32) (u : Fin 1) (hh : Fin 2) (a : Fin 4096) (d : Fin 128) :
    out1_7 x2 x4 (ix4 u hh (oldRow a) d) = x4 (ix4 (0 : Fin 1) hh a d) := by
  unfold out1_7
  refine (View.canon_cons_of_not_mem (⟨r1_d, k1_pay4 (k1_pay8 (View.ld x2 r1_a))⟩ : View.Piece (Elt Ideal) S1x2x4104x128 .f32) _
    (oldRow_not_mem u hh a d)).trans ?_
  rw [emb_oldRow, View.canon_cons_emb, oldRowsV_apply, View.ld_unit_zero (S := S1x2x4096x128) zeros4]

theorem valsBuf_apply_old (x2 : Vec Ideal S8x256 .f32) (x4 : Vec Ideal S1x2x4096x128 .f32) (y : S1x2x4104x128.Idx)
    (k : S1x2x4096x128.Idx) (h : (y 2).val < 4096) (h1 : (k 1).val = (y 1).val) (h2 : (k 2).val = (y 2).val)
    (h3 : (k 3).val = (y 3).val) : out1_7 x2 x4 y = x4 k := by
  obtain ⟨u, hh, j, d, rfl⟩ : ∃ (u : Fin 1) (hh : Fin 2) (j : Fin 4104) (d : Fin 128), y = ix4 u hh j d := ⟨y 0, y 1, y 2, y 3, eq_ix4 y⟩
  obtain ⟨u', hh', a, d', rfl⟩ : ∃ (u' : Fin 1) (hh' : Fin 2) (a : Fin 4096) (d' : Fin 128), k = ix4 u' hh' a d' := ⟨k 0, k 1, k 2, k 3, eq_ix4 k⟩
  have e1 : hh' = hh := Fin.ext h1
  have e2 : j = oldRow a := Fin.ext h2.symm
  have e3 : d' = d := Fin.ext h3
  have e0 : u' = 0 := Fin.ext (by have := u'.isLt; show u'.val = 0; omega)
  subst e1 e2 e3 e0
  exact valsBuf_old x2 x4 u hh' a d'

theorem valsBuf_apply_new (x2 : Vec Ideal S8x256 .f32) (x4 : Vec Ideal S1x2x4096x128 .f32) (y : S1x2x4104x128.Idx)
    (k : S8x256.Idx) (h : 4096 ≤ (y 2).val) (h0 : (k 0).val = (y 2).val - 4096) (h1 : (k 1).val = 128 * (y 1).val + (y 3).val) :
    out1_7 x2 x4 y = x2 k := by
  obtain ⟨u, hh, j, d, rfl⟩ : ∃ (u : Fin 1) (hh : Fin 2) (j : Fin 4104) (d : Fin 128), y = ix4 u hh j d := ⟨y 0, y 1, y 2, y 3, eq_ix4 y⟩
  obtain ⟨n, cc, rfl⟩ : ∃ (n : Fin 8) (cc : Fin 256), k = ix2 n cc := ⟨k 0, k 1, eq_ix2 k⟩
  have e2 : j = newRow n := Fin.ext (by show j.val = 4096 + n.val; have : n.val = j.val - 4096 := h0; have : 4096 ≤ j.val := h; omega)
  have e1 : cc = lane2 hh d := Fin.ext h1
  subst e2 e1
  exact valsBuf_new x2 x4 u hh n d

end Cert.KVal.Attn

end
-- ==== Proof.KVal.AttnCacheArr.lean ====
/-
  The two grown caches after the attention region. Point t = (batch row b, head pair hp) writes back the block
  (b, hp, 0, 0) of a grown cache: heads 2·hp and 2·hp + 1 of batch row b, all 4104 rows. What the body left there is,
  in rows below 4096, the block (b, hp, 0, 0) of the cache as found, and in row 4096 + j the new entry of position j,
  read from the block of the fused projection at row block b and column block 8 + hp (keys) or 16 + hp (values) — the
  same entries the whole-array functions name; and the 128 blocks tile the array.
-/
import proofs.«176267_j6640019439658_2_alg».proof.Proof.KI.Reg1
import proofs.«176267_j6640019439658_2_alg».proof.Proof.KVal.AttnSpecAt
import proofs.«176267_j6640019439658_2_alg».proof.Proof.KVal.AttnCacheBlock
import proofs.«176267_j6640019439658_2_alg».proof.Proof.KVal.AttnGrid
import Idealize.ShloMosaic.Lib.Pipeline.Value

noncomputable section

namespace Cert.KVal.Attn

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## What a point writes back -/

/-- Point t writes back block t of the grown key cache. -/
theorem keys_flushed (c : Dev nD) (t : Fin cfg1.N) :
    (dat1 (F := Ideal) V c).flushed 6 t
      = ((cfg1.win 6).blk t).view.read (Elt Ideal) (kKeys (V c main_v1) (V c main_arg1)) := by
  show (cfg1.win 6).cut (grid1.coords t) ((dat1 (F := Ideal) V c).after 6 t) = _
  rw [after1_6]
  obtain ⟨q0, q1, k0, k1, v0, v1⟩ := idx_qkv t
  obtain ⟨p0, p1, p2, p3, -, -, -, -⟩ := idx_past t
  obtain ⟨g0, g1, g2, g3, -, -, -, -⟩ := idx_grown t
  obtain ⟨r0, r1⟩ := idx_range t
  funext y
  have hy0 : (y 0).val < 1 := (y 0).isLt
  have hy1 : (y 1).val < 2 := (y 1).isLt
  have hy2 : (y 2).val < 4104 := (y 2).isLt
  have hy3 : (y 3).val < 128 := (y 3).isLt
  by_cases h : (y 2).val < 4096
  · -- a cached row
    refine (keysBuf_apply_old (iblk1 V c 1 t) (iblk1 V c 3 t) ((cfg1.win 6).xinj (grid1.coords t) y)
      (ix4 (0 : Fin 1) (⟨(y 1).val, hy1⟩ : Fin 2) (⟨(y 2).val, h⟩ : Fin 4096) (⟨(y 3).val, hy3⟩ : Fin 128)) h rfl rfl rfl).trans ?_
    show V c main_arg1 (((cfg1.win 3).blk t).view.emb _) = kKeys (V c main_v1) (V c main_arg1) (((cfg1.win 6).blk t).view.emb y)
    refine (kKeys_old _ _ _ _ ?_ ?_ ?_ ?_ ?_).symm
    · show win1_6.index t (2 : Fin 4) * 4104 + 1 * (y 2).val < 4096; omega
    · show win1_3.index t (0 : Fin 4) * 1 + 1 * 0 = win1_6.index t (0 : Fin 4) * 1 + 1 * (y 0).val; omega
    · show win1_3.index t (1 : Fin 4) * 2 + 1 * (y 1).val = win1_6.index t (1 : Fin 4) * 2 + 1 * (y 1).val; omega
    · show win1_3.index t (2 : Fin 4) * 4096 + 1 * (y 2).val = win1_6.index t (2 : Fin 4) * 4104 + 1 * (y 2).val; omega
    · show win1_3.index t (3 : Fin 4) * 128 + 1 * (y 3).val = win1_6.index t (3 : Fin 4) * 128 + 1 * (y 3).val; omega
  · -- an appended row
    refine (keysBuf_apply_new (iblk1 V c 1 t) (iblk1 V c 3 t) ((cfg1.win 6).xinj (grid1.coords t) y)
      (ix2 (⟨(y 2).val - 4096, by omega⟩ : Fin 8) (⟨128 * (y 1).val + (y 3).val, by omega⟩ : Fin 256)) (by show 4096 ≤ (y 2).val; omega) rfl rfl).trans ?_
    show V c main_v1 (((cfg1.win 1).blk t).view.emb _) = kKeys (V c main_v1) (V c main_arg1) (((cfg1.win 6).blk t).view.emb y)
    refine (kKeys_new _ _ _ _ ?_ ?_ ?_).symm
    · show 4096 ≤ win1_6.index t (2 : Fin 4) * 4104 + 1 * (y 2).val; omega
    · show win1_1.index t (0 : Fin 2) * 8 + 1 * ((y 2).val - 4096)
        = 8 * (win1_6.index t (0 : Fin 4) * 1 + 1 * (y 0).val) + (win1_6.index t (2 : Fin 4) * 4104 + 1 * (y 2).val - 4096); omega
    · show win1_1.index t (1 : Fin 2) * 256 + 1 * (128 * (y 1).val + (y 3).val)
        = 2048 + 128 * (win1_6.index t (1 : Fin 4) * 2 + 1 * (y 1).val) + (win1_6.index t (3 : Fin 4) * 128 + 1 * (y 3).val); omega

/-- Point t writes back block t of the grown value cache. -/
theorem vals_flushed (c : Dev nD) (t : Fin cfg1.N) :
    (dat1 (F := Ideal) V c).flushed 7 t
      = ((cfg1.win 7).blk t).view.read (Elt Ideal) (kVals (V c main_v1) (V c main_arg2)) := by
  show (cfg1.win 7).cut (grid1.coords t) ((dat1 (F := Ideal) V c).after 7 t) = _
  rw [after1_7]
  obtain ⟨q0, q1, k0, k1, v0, v1⟩ := idx_qkv t
  obtain ⟨-, -, -, -, p0, p1, p2, p3⟩ := idx_past t
  obtain ⟨-, -, -, -, g0, g1, g2, g3⟩ := idx_grown t
  obtain ⟨r0, r1⟩ := idx_range t
  funext y
  have hy0 : (y 0).val < 1 := (y 0).isLt
  have hy1 : (y 1).val < 2 := (y 1).isLt
  have hy2 : (y 2).val < 4104 := (y 2).isLt
  have hy3 : (y 3).val < 128 := (y 3).isLt
  by_cases h : (y 2).val < 4096
  · refine (valsBuf_apply_old (iblk1 V c 2 t) (iblk1 V c 4 t) ((cfg1.win 7).xinj (grid1.coords t) y)
      (ix4 (0 : Fin 1) (⟨(y 1).val, hy1⟩ : Fin 2) (⟨(y 2).val, h⟩ : Fin 4096) (⟨(y 3).val, hy3⟩ : Fin 128)) h rfl rfl rfl).trans ?_
    show V c main_arg2 (((cfg1.win 4).blk t).view.emb _) = kVals (V c main_v1) (V c main_arg2) (((cfg1.win 7).blk t).view.emb y)
    refine (kVals_old _ _ _ _ ?_ ?_ ?_ ?_ ?_).symm
    · show win1_7.index t (2 : Fin 4) * 4104 + 1 * (y 2).val < 4096; omega
    · show win1_4.index t (0 : Fin 4) * 1 + 1 * 0 = win1_7.index t (0 : Fin 4) * 1 + 1 * (y 0).val; omega
    · show win1_4.index t (1 : Fin 4) * 2 + 1 * (y 1).val = win1_7.index t (1 : Fin 4) * 2 + 1 * (y 1).val; omega
    · show win1_4.index t (2 : Fin 4) * 4096 + 1 * (y 2).val = win1_7.index t (2 : Fin 4) * 4104 + 1 * (y 2).val; omega
    · show win1_4.index t (3 : Fin 4) * 128 + 1 * (y 3).val = win1_7.index t (3 : Fin 4) * 128 + 1 * (y 3).val; omega
  · refine (valsBuf_apply_new (iblk1 V c 2 t) (iblk1 V c 4 t) ((cfg1.win 7).xinj (grid1.coords t) y)
      (ix2 (⟨(y 2).val - 4096, by omega⟩ : Fin 8) (⟨128 * (y 1).val + (y 3).val, by omega⟩ : Fin 256)) (by show 4096 ≤ (y 2).val; omega) rfl rfl).trans ?_
    show V c main_v1 (((cfg1.win 2).blk t).view.emb _) = kVals (V c main_v1) (V c main_arg2) (((cfg1.win 7).blk t).view.emb y)
    refine (kVals_new _ _ _ _ ?_ ?_ ?_).symm
    · show 4096 ≤ win1_7.index t (2 : Fin 4) * 4104 + 1 * (y 2).val; omega
    · show win1_2.index t (0 : Fin 2) * 8 + 1 * ((y 2).val - 4096)
        = 8 * (win1_7.index t (0 : Fin 4) * 1 + 1 * (y 0).val) + (win1_7.index t (2 : Fin 4) * 4104 + 1 * (y 2).val - 4096); omega
    · show win1_2.index t (1 : Fin 2) * 256 + 1 * (128 * (y 1).val + (y 3).val)
        = 4096 + 128 * (win1_7.index t (1 : Fin 4) * 2 + 1 * (y 1).val) + (win1_7.index t (3 : Fin 4) * 128 + 1 * (y 3).val); omega

/-! ## The blocks tile the arrays -/

/-- An index of a grown cache is in point t's block iff each coordinate is in the block's range on its axis. -/
theorem mem_keysBlk (t : Fin cfg1.N) (i : S16x16x4104x128.Idx) :
    i ∈ ((cfg1.win 6).blk t).view.set ↔ ∀ a : Fin 4, win1_6.index t a * S1x2x4104x128.size a ≤ (i a).val ∧ (i a).val < win1_6.index t a * S1x2x4104x128.size a + S1x2x4104x128.size a := by
  show i ∈ ((View.whole main_v2_1).slice (win1_6.rect t)).set ↔ _
  rw [View.set_slice_whole, Rect.mem_set_unit]
  exact Iff.rfl

theorem mem_valsBlk (t : Fin cfg1.N) (i : S16x16x4104x128.Idx) :
    i ∈ ((cfg1.win 7).blk t).view.set ↔ ∀ a : Fin 4, win1_7.index t a * S1x2x4104x128.size a ≤ (i a).val ∧ (i a).val < win1_7.index t a * S1x2x4104x128.size a + S1x2x4104x128.size a := by
  show i ∈ ((View.whole main_v2_2).slice (win1_7.rect t)).set ↔ _
  rw [View.set_slice_whole, Rect.mem_set_unit]
  exact Iff.rfl

/-- Entry (b', h, j, d) lies in the block of the point (b', h / 2). -/
theorem keys_cover (i : S16x16x4104x128.Idx) :
    ∃ t : Fin cfg1.N, (cfg1.win 6).flush t = true ∧ i ∈ ((cfg1.win 6).blk t).view.set := by
  have hi0 : (i 0).val < 16 := (i 0).isLt
  have hi1 : (i 1).val < 16 := (i 1).isLt
  have hi2 : (i 2).val < 4104 := (i 2).isLt
  have hi3 : (i 3).val < 128 := (i 3).isLt
  obtain ⟨t, e0, e1⟩ := idx_onto ⟨(i 0).val, hi0⟩ ⟨(i 1).val / 2, by omega⟩
  have e0' : win1_5.index t (0 : Fin 2) = (i 0).val := e0
  have e1' : win1_5.index t (1 : Fin 2) = (i 1).val / 2 := e1
  obtain ⟨g0, g1, g2, g3, -, -, -, -⟩ := idx_grown t
  refine ⟨t, flush1_6 t, ?_⟩
  rw [mem_keysBlk]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 2 ≤ (i 1).val ∧ (i 1).val < win1_6.index t (1 : Fin 4) * 2 + 2; omega
  | ⟨2, _⟩ => show win1_6.index t (2 : Fin 4) * 4104 ≤ (i 2).val ∧ (i 2).val < win1_6.index t (2 : Fin 4) * 4104 + 4104; omega
  | ⟨3, _⟩ => show win1_6.index t (3 : Fin 4) * 128 ≤ (i 3).val ∧ (i 3).val < win1_6.index t (3 : Fin 4) * 128 + 128; omega

theorem vals_cover (i : S16x16x4104x128.Idx) :
    ∃ t : Fin cfg1.N, (cfg1.win 7).flush t = true ∧ i ∈ ((cfg1.win 7).blk t).view.set := by
  have hi0 : (i 0).val < 16 := (i 0).isLt
  have hi1 : (i 1).val < 16 := (i 1).isLt
  have hi2 : (i 2).val < 4104 := (i 2).isLt
  have hi3 : (i 3).val < 128 := (i 3).isLt
  obtain ⟨t, e0, e1⟩ := idx_onto ⟨(i 0).val, hi0⟩ ⟨(i 1).val / 2, by omega⟩
  have e0' : win1_5.index t (0 : Fin 2) = (i 0).val := e0
  have e1' : win1_5.index t (1 : Fin 2) = (i 1).val / 2 := e1
  obtain ⟨-, -, -, -, g0, g1, g2, g3⟩ := idx_grown t
  refine ⟨t, flush1_7 t, ?_⟩
  rw [mem_valsBlk]
  intro a
  match a with
  | ⟨0, _⟩ => show win1_7.index t (0 : Fin 4) * 1 ≤ (i 0).val ∧ (i 0).val < win1_7.index t (0 : Fin 4) * 1 + 1; omega
  | ⟨1, _⟩ => show win1_7.index t (1 : Fin 4) * 2 ≤ (i 1).val ∧ (i 1).val < win1_7.index t (1 : Fin 4) * 2 + 2; omega
  | ⟨2, _⟩ => show win1_7.index t (2 : Fin 4) * 4104 ≤ (i 2).val ∧ (i 2).val < win1_7.index t (2 : Fin 4) * 4104 + 4104; omega
  | ⟨3, _⟩ => show win1_7.index t (3 : Fin 4) * 128 ≤ (i 3).val ∧ (i 3).val < win1_7.index t (3 : Fin 4) * 128 + 128; omega

/-! ## The arrays after the region -/

/-- The key cache after the attention region: the cache as found with the new keys appended. -/
theorem keys_final (c : Dev nD) :
    (dat1 (F := Ideal) V c).arrAt 6 cfg1.N = kKeys (V c main_v1) (V c main_arg1) :=
  (dat1 (F := Ideal) V c).arrAt_eq_of_cover 6 (kKeys (V c main_v1) (V c main_arg1)) (fun t _ => keys_flushed V c t) keys_cover

/-- The value cache after the attention region: the cache as found with the new values appended. -/
theorem vals_final (c : Dev nD) :
    (dat1 (F := Ideal) V c).arrAt 7 cfg1.N = kVals (V c main_v1) (V c main_arg2) :=
  (dat1 (F := Ideal) V c).arrAt_eq_of_cover 7 (kVals (V c main_v1) (V c main_arg2)) (fun t _ => vals_flushed V c t) vals_cover

end Cert.KVal.Attn

end
-- ==== Proof.RefSide.lean ====
/-
  The generated reading of the reference program, stage by stage, IS the specification of RefSpec: each stage read at
  an index built from its coordinates equals the corresponding function there, and so the run's three result terms are
  `refOut`, `refK`, `refV` of the five argument arrays.
-/
import proofs.«176267_j6640019439658_2_alg».proof.Proof.Gen.ReferenceIdeal.Read
import proofs.«176267_j6640019439658_2_alg».proof.Proof.RefSpec

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The fused projection -/

/-- The projection stage at (b, n, f) is the sum over the model dimension. -/
theorem qkv_at (x : SX.Idx → EReal) (wq : SWqkv.Idx → EReal) (b : Fin 16) (n : Fin 8) (f : Fin 6144) :
    val_main_v0 (F := Ideal) x wq (ix3 b n f) = refQKV x wq b n f := by
  rw [val_main_v0_apply]
  unfold refQKV
  refine Finset.sum_congr rfl fun k _ => ?_
  rw [show lidx_main_v0 (ix3 b n f) k = ix3 b n k from funext fun a => by
        match a with
        | ⟨0, _⟩ => rfl
        | ⟨1, _⟩ => rfl
        | ⟨2, _⟩ => rfl,
      show ridx_main_v0 (ix3 b n f) k = ix2 f k from funext fun a => by
        match a with
        | ⟨0, _⟩ => rfl
        | ⟨1, _⟩ => rfl]

/-- Row (b, n), head h, lane d of a [16, 8, 2048] third reshaped to heads and transposed sits at column h·128 + d. -/
theorem heads_idx (b h : Fin 16) (n : Fin 8) (d : Fin 128) :
    idx_main_v4 (idx_main_v5 (ix4 b h n d)) = ix3 b n ⟨h.val * 128 + d.val, by have := h.isLt; have := d.isLt; omega⟩ := by
  funext a
  refine Fin.ext ?_
  have hb := b.isLt; have hh := h.isLt; have hn := n.isLt; have hd := d.isLt
  match a with
  | ⟨0, _⟩ => show (((b.val * 8 + n.val) * 16 + h.val) * 128 + d.val) / 16384 = b.val; omega
  | ⟨1, _⟩ => show (((b.val * 8 + n.val) * 16 + h.val) * 128 + d.val) / 2048 % 8 = n.val; omega
  | ⟨2, _⟩ => show (((b.val * 8 + n.val) * 16 + h.val) * 128 + d.val) % 2048 = h.val * 128 + d.val; omega

/-- The query heads. -/
theorem q_at (x : SX.Idx → EReal) (wq : SWqkv.Idx → EReal) (b h : Fin 16) (n : Fin 8) (d : Fin 128) :
    val_main_v5 (F := Ideal) x wq (ix4 b h n d) = refQ x wq b h n d := by
  rw [val_main_v5_apply, val_main_v4_apply, val_main_v1_apply, heads_idx]
  refine (congrArg (val_main_v0 (F := Ideal) x wq) ?_).trans (qkv_at x wq b n _)
  funext a
  refine Fin.ext ?_
  match a with
  | ⟨0, _⟩ => rfl
  | ⟨1, _⟩ => rfl
  | ⟨2, _⟩ => show h.val * 128 + d.val = 0 + h.val * 128 + d.val; omega

/-- The new key heads. -/
theorem knew_at (x : SX.Idx → EReal) (wq : SWqkv.Idx → EReal) (b h : Fin 16) (n : Fin 8) (d : Fin 128) :
    val_main_v7 (F := Ideal) x wq (ix4 b h n d) = refKnew x wq b h n d := by
  rw [val_main_v7_apply, val_main_v6_apply, val_main_v2_apply]
  refine (congrArg (val_main_v0 (F := Ideal) x wq) ?_).trans (qkv_at x wq b n _)
  rw [show idx_main_v6 (idx_main_v7 (ix4 b h n d)) = idx_main_v4 (idx_main_v5 (ix4 b h n d)) from rfl, heads_idx]
  funext a
  refine Fin.ext ?_
  match a with
  | ⟨0, _⟩ => rfl
  | ⟨1, _⟩ => rfl
  | ⟨2, _⟩ => show 2048 + (h.val * 128 + d.val) = 2048 + h.val * 128 + d.val; omega

/-- The new value heads. -/
theorem vnew_at (x : SX.Idx → EReal) (wq : SWqkv.Idx → EReal) (b h : Fin 16) (n : Fin 8) (d : Fin 128) :
    val_main_v9 (F := Ideal) x wq (ix4 b h n d) = refVnew x wq b h n d := by
  rw [val_main_v9_apply, val_main_v8_apply, val_main_v3_apply]
  refine (congrArg (val_main_v0 (F := Ideal) x wq) ?_).trans (qkv_at x wq b n _)
  rw [show idx_main_v8 (idx_main_v9 (ix4 b h n d)) = idx_main_v4 (idx_main_v5 (ix4 b h n d)) from rfl, heads_idx]
  funext a
  refine Fin.ext ?_
  match a with
  | ⟨0, _⟩ => rfl
  | ⟨1, _⟩ => rfl
  | ⟨2, _⟩ => show 4096 + (h.val * 128 + d.val) = 4096 + h.val * 128 + d.val; omega

/-! ## The cache with the new rows appended -/

/-- A two-piece concatenation along the sequence axis of a [16, 16, 4096, 128] and a [16, 16, 8, 128] array, read at
    (b, h, j, d): the first piece for j < 4096, the second at row j − 4096 after it. -/
theorem cat_at (c : (⟨S16x16x4096x128, .f32⟩ : BufTy).Contents (Elt Ideal)) (y : (⟨S16x16x8x128, .f32⟩ : BufTy).Contents (Elt Ideal))
    (b h : Fin 16) (j : Fin 4104) (d : Fin 128) :
    concatenate S16x16x4104x128 2 [⟨S16x16x4096x128, c⟩, ⟨S16x16x8x128, y⟩]
        concatenates_S16x16x4096x128_S16x16x8x128_S16x16x4104x128_d2 (ix4 b h j d)
      = if hj : j.val < 4096 then c (ix4 b h ⟨j.val, hj⟩ d)
        else y (ix4 b h ⟨j.val - 4096, by have := j.isLt; omega⟩ d) := by
  by_cases hj : j.val < 4096
  · rw [dif_pos hj]
    exact concatenate_pair_apply_left 2 c y concatenates_S16x16x4096x128_S16x16x8x128_S16x16x4104x128_d2 _ rfl _
      (fun a => by
        match a with
        | ⟨0, _⟩ => rfl
        | ⟨1, _⟩ => rfl
        | ⟨2, _⟩ => rfl
        | ⟨3, _⟩ => rfl)
  · rw [dif_neg hj]
    exact concatenate_pair_apply_right 2 c y concatenates_S16x16x4096x128_S16x16x8x128_S16x16x4104x128_d2 _ rfl rfl _
      (fun a ha => by
        match a with
        | ⟨0, _⟩ => rfl
        | ⟨1, _⟩ => rfl
        | ⟨2, _⟩ => exact absurd rfl ha
        | ⟨3, _⟩ => rfl)
      (by show j.val - 4096 + 4096 = j.val; omega)

/-- The key cache with the new rows appended, at (b, h, j, d). -/
theorem k_at (x : SX.Idx → EReal) (pk : SCache.Idx → EReal) (wq : SWqkv.Idx → EReal) (b h : Fin 16) (j : Fin 4104) (d : Fin 128) :
    val_main_v10 (F := Ideal) x pk wq (ix4 b h j d) = refKat x pk wq b h j d := by
  unfold val_main_v10 refKat
  rw [cat_at]
  by_cases hj : j.val < 4096
  · rw [dif_pos hj, dif_pos hj]
  · rw [dif_neg hj, dif_neg hj]; exact knew_at x wq b h _ d

/-- The value cache with the new rows appended, at (b, h, j, d). -/
theorem v_at (x : SX.Idx → EReal) (pv : SCache.Idx → EReal) (wq : SWqkv.Idx → EReal) (b h : Fin 16) (j : Fin 4104) (d : Fin 128) :
    val_main_v11 (F := Ideal) x pv wq (ix4 b h j d) = refVat x pv wq b h j d := by
  unfold val_main_v11 refVat
  rw [cat_at]
  by_cases hj : j.val < 4096
  · rw [dif_pos hj, dif_pos hj]
  · rw [dif_neg hj, dif_neg hj]; exact vnew_at x wq b h _ d

/-- The run's second result term is `refK` of the arguments. -/
theorem v10_eq (x : SX.Idx → EReal) (pk : SCache.Idx → EReal) (wq : SWqkv.Idx → EReal) :
    val_main_v10 (F := Ideal) x pk wq = refK x pk wq := by
  funext i
  obtain ⟨b, h, j, d, rfl⟩ : ∃ (b h : Fin 16) (j : Fin 4104) (d : Fin 128), i = ix4 b h j d := ⟨i 0, i 1, i 2, i 3, eq_ix4 i⟩
  exact k_at x pk wq b h j d

/-- The run's third result term is `refV` of the arguments. -/
theorem v11_eq (x : SX.Idx → EReal) (pv : SCache.Idx → EReal) (wq : SWqkv.Idx → EReal) :
    val_main_v11 (F := Ideal) x pv wq = refV x pv wq := by
  funext i
  obtain ⟨b, h, j, d, rfl⟩ : ∃ (b h : Fin 16) (j : Fin 4104) (d : Fin 128), i = ix4 b h j d := ⟨i 0, i 1, i 2, i 3, eq_ix4 i⟩
  exact v_at x pv wq b h j d

/-! ## Scaled scores -/

/-- The scaled score at (b, h, n, j). -/
theorem score_at (x : SX.Idx → EReal) (pk : SCache.Idx → EReal) (wq : SWqkv.Idx → EReal) (b h : Fin 16) (n : Fin 8) (j : Fin 4104) :
    val_main_v14 (F := Ideal) x pk wq (ix4 b h n j) = refScore x pk wq b h n j := by
  rw [val_main_v14_apply, val_main_v12_apply, val_main_v13_apply, val_main_cst_apply]
  unfold refScore scale
  refine congrArg (· * Ideal.ofBits .f32 0x3DB504F3#32) (Finset.sum_congr rfl fun k _ => ?_)
  rw [show lidx_main_v12 (ix4 b h n j) k = ix4 b h n k from funext fun a => by
        match a with
        | ⟨0, _⟩ => rfl
        | ⟨1, _⟩ => rfl
        | ⟨2, _⟩ => rfl
        | ⟨3, _⟩ => rfl,
      show ridx_main_v12 (ix4 b h n j) k = ix4 b h j k from funext fun a => by
        match a with
        | ⟨0, _⟩ => rfl
        | ⟨1, _⟩ => rfl
        | ⟨2, _⟩ => rfl
        | ⟨3, _⟩ => rfl,
      q_at, k_at]

/-! ## The row maximum -/

/-- The scores' shape loses its last axis under the reduction. -/
theorem reduces_d3 : S16x16x8x4104.Reduces [3] S16x16x8 := by decide

/-- Inserting key position k into (b, h, n) on the reduced axis gives (b, h, n, k). -/
theorem lift_d3 (b h : Fin 16) (n : Fin 8) (k : Fin 4104) :
    reduces_d3.lift (ix3 b h n) k = ix4 b h n k := by
  funext a
  refine Fin.ext ?_
  match a with
  | ⟨0, _⟩ => rfl
  | ⟨1, _⟩ => rfl
  | ⟨2, _⟩ => rfl
  | ⟨3, _⟩ => rfl

/-- The reference's `reduce` with `maximum` over the key axis, at (b, h, n): the fold of `max` from −∞ over the row's scores. -/
theorem rowfold_at (x : SX.Idx → EReal) (pk : SCache.Idx → EReal) (wq : SWqkv.Idx → EReal) (b h : Fin 16) (n : Fin 8) :
    val_main_v15 (F := Ideal) x pk wq (ix3 b h n)
      = (Finset.univ : Finset (Fin 4104)).fold max negInf (fun j => refScore x pk wq b h n j) := by
  unfold val_main_v15
  have hs := score_at x pk wq b h n
  generalize val_main_v14 (F := Ideal) x pk wq = y at hs
  rw [Host.reduce_eq_fold_single (FloatOps.maximumf (F := Ideal) (φ := .f32)) y _ reducesTo_S16x16x8x4104_S16x16x8_d3 reduces_d3 h_S_]
  refine Finset.fold_congr (g := fun j : Fin 4104 => refScore x pk wq b h n j) fun k _ => ?_
  exact (congrArg y (lift_d3 b h n k)).trans (hs k)

/-- The row maximum as the reference spells it, at (b, h, n). -/
theorem max_at (x : SX.Idx → EReal) (pk : SCache.Idx → EReal) (wq : SWqkv.Idx → EReal) (b h : Fin 16) (n : Fin 8) :
    val_main_v17 (F := Ideal) x pk wq (ix3 b h n) = refMax x pk wq b h n := by
  rw [val_main_v17_apply, val_main_v16_apply, val_main_cst_1_apply, rowfold_at]
  rfl

/-! ## The softmax -/

/-- The exponential of the shifted score at (b, h, n, j). -/
theorem p_at (x : SX.Idx → EReal) (pk : SCache.Idx → EReal) (wq : SWqkv.Idx → EReal) (b h : Fin 16) (n : Fin 8) (j : Fin 4104) :
    val_main_v21 (F := Ideal) x pk wq (ix4 b h n j) = refP x pk wq b h n j := by
  rw [val_main_v21_apply, val_main_v20_apply, val_main_v19_apply, val_main_v18_apply, score_at,
    show idx_main_v18 (idx_main_v19 (ix4 b h n j)) = ix3 b h n from funext fun a => by
      match a with
      | ⟨0, _⟩ => rfl
      | ⟨1, _⟩ => rfl
      | ⟨2, _⟩ => rfl,
    max_at]
  rfl

/-- The row sum at (b, h, n). -/
theorem l_at (x : SX.Idx → EReal) (pk : SCache.Idx → EReal) (wq : SWqkv.Idx → EReal) (b h : Fin 16) (n : Fin 8) :
    val_main_v22 (F := Ideal) x pk wq (ix3 b h n) = refL x pk wq b h n := by
  rw [val_main_v22_apply, val_main_cst_2_apply]
  unfold refL zeroLit
  refine congrArg (Ideal.ofBits .f32 0x00000000#32 + ·) (Finset.sum_congr rfl fun k _ => ?_)
  rw [show idx_main_v22 (ix3 b h n) k = ix4 b h n k from funext fun a => by
        match a with
        | ⟨0, _⟩ => rfl
        | ⟨1, _⟩ => rfl
        | ⟨2, _⟩ => rfl
        | ⟨3, _⟩ => rfl,
      p_at]

/-- The attention weight at (b, h, n, j). -/
theorem attn_at (x : SX.Idx → EReal) (pk : SCache.Idx → EReal) (wq : SWqkv.Idx → EReal) (b h : Fin 16) (n : Fin 8) (j : Fin 4104) :
    val_main_v25 (F := Ideal) x pk wq (ix4 b h n j) = refAttn x pk wq b h n j := by
  rw [val_main_v25_apply, val_main_v24_apply, val_main_v23_apply, p_at,
    show idx_main_v23 (idx_main_v24 (ix4 b h n j)) = ix3 b h n from funext fun a => by
      match a with
      | ⟨0, _⟩ => rfl
      | ⟨1, _⟩ => rfl
      | ⟨2, _⟩ => rfl,
    l_at]
  rfl

/-! ## The weighted values and the output projection -/

/-- The attention output per head at (b, h, n, d). -/
theorem o_at (x : SX.Idx → EReal) (pk pv : SCache.Idx → EReal) (wq : SWqkv.Idx → EReal) (b h : Fin 16) (n : Fin 8) (d : Fin 128) :
    val_main_v26 (F := Ideal) x pk pv wq (ix4 b h n d) = refO x pk pv wq b h n d := by
  rw [val_main_v26_apply]
  unfold refO
  refine Finset.sum_congr rfl fun k _ => ?_
  rw [show lidx_main_v26 (ix4 b h n d) k = ix4 b h n k from funext fun a => by
        match a with
        | ⟨0, _⟩ => rfl
        | ⟨1, _⟩ => rfl
        | ⟨2, _⟩ => rfl
        | ⟨3, _⟩ => rfl,
      show ridx_main_v26 (ix4 b h n d) k = ix4 b h k d from funext fun a => by
        match a with
        | ⟨0, _⟩ => rfl
        | ⟨1, _⟩ => rfl
        | ⟨2, _⟩ => rfl
        | ⟨3, _⟩ => rfl,
      attn_at, v_at]

/-- Column e of row (b, n) of the heads merged back to [16, 8, 2048] is head e / 128, lane e % 128. -/
theorem merge_idx (b : Fin 16) (n : Fin 8) (e : Fin 2048) :
    idx_main_v27 (idx_main_v28 (ix3 b n e))
      = ix4 b ⟨e.val / 128, by have := e.isLt; omega⟩ n ⟨e.val % 128, Nat.mod_lt _ (by decide)⟩ := by
  funext a
  refine Fin.ext ?_
  have hb := b.isLt; have hn := n.isLt; have he := e.isLt
  match a with
  | ⟨0, _⟩ => show ((b.val * 8 + n.val) * 2048 + e.val) / 16384 = b.val; omega
  | ⟨1, _⟩ => show ((b.val * 8 + n.val) * 2048 + e.val) / 128 % 16 = e.val / 128; omega
  | ⟨2, _⟩ => show ((b.val * 8 + n.val) * 2048 + e.val) / 2048 % 8 = n.val; omega
  | ⟨3, _⟩ => show ((b.val * 8 + n.val) * 2048 + e.val) % 128 = e.val % 128; omega

/-- The output projection at (b, n, f). -/
theorem out_at (x : SX.Idx → EReal) (pk pv : SCache.Idx → EReal) (wq : SWqkv.Idx → EReal) (wo : SWout.Idx → EReal)
    (b : Fin 16) (n : Fin 8) (f : Fin 2048) :
    val_main_v29 (F := Ideal) x pk pv wq wo (ix3 b n f) = refOutAt x pk pv wq wo b n f := by
  rw [val_main_v29_apply]
  unfold refOutAt
  refine Finset.sum_congr rfl fun k _ => ?_
  rw [show lidx_main_v29 (ix3 b n f) k = ix3 b n k from funext fun a => by
        match a with
        | ⟨0, _⟩ => rfl
        | ⟨1, _⟩ => rfl
        | ⟨2, _⟩ => rfl,
      show ridx_main_v29 (ix3 b n f) k = ix2 f k from funext fun a => by
        match a with
        | ⟨0, _⟩ => rfl
        | ⟨1, _⟩ => rfl,
      val_main_v28_apply, val_main_v27_apply, merge_idx, o_at]

/-- The run's first result term is `refOut` of the arguments. -/
theorem v29_eq (x : SX.Idx → EReal) (pk pv : SCache.Idx → EReal) (wq : SWqkv.Idx → EReal) (wo : SWout.Idx → EReal) :
    val_main_v29 (F := Ideal) x pk pv wq wo = refOut x pk pv wq wo := by
  funext i
  obtain ⟨b, n, f, rfl⟩ : ∃ (b : Fin 16) (n : Fin 8) (f : Fin 2048), i = ix3 b n f := ⟨i 0, i 1, i 2, eq_ix3 i⟩
  exact out_at x pk pv wq wo b n f

/-! ## The run -/

/-- Every weakly fair run of the reference ends with its three results at `refOut`, `refK`, `refV` of the launch
    contents of the five arguments, and the arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v29)
          = refOut (m' ((c.tc : Thread nD τ).loc main_arg0)) (m' ((c.tc : Thread nD τ).loc main_arg1))
              (m' ((c.tc : Thread nD τ).loc main_arg2)) (m' ((c.tc : Thread nD τ).loc main_arg3)) (m' ((c.tc : Thread nD τ).loc main_arg4))
      ∧ r.2.mem ((c.tc : Thread nD τ).loc main_v10)
          = refK (m' ((c.tc : Thread nD τ).loc main_arg0)) (m' ((c.tc : Thread nD τ).loc main_arg1)) (m' ((c.tc : Thread nD τ).loc main_arg3))
      ∧ r.2.mem ((c.tc : Thread nD τ).loc main_v11)
          = refV (m' ((c.tc : Thread nD τ).loc main_arg0)) (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun _ h c =>
      ⟨(h c).1.trans ((val_main_v29_eq m' c).trans (v29_eq _ _ _ _ _)),
        (h c).2.1.trans ((val_main_v10_eq _ _ _).trans (v10_eq _ _ _)),
        (h c).2.2.1.trans ((val_main_v11_eq _ _ _).trans (v11_eq _ _ _)),
        (h c).2.2.2⟩)
    (Cert.ReferenceIdeal.Value.run (F := Ideal) m' ρ')

end Cert.RefSide

end
-- ==== Proof.lean ====
/-
  The certificate of a multi-head attention layer with a key/value cache, computed by three kernel regions — the
  fused query/key/value projection, the attention proper (two heads of one batch row per grid point, the cached and
  the new keys scored separately and the softmax taken over both, the caches written out with the new rows
  appended), the output projection — against the plain array program that concatenates the caches first and takes
  one softmax over all 4104 positions.

  On the extended reals the two differ only in arrangement: a maximum of two maxima against one maximum, a sum of two
  sums against one sum, and the kernel's product with the reciprocal of the normaliser against the reference's
  quotient by it. The last is an identity only where the normaliser is a positive real, which the precondition (every
  input finite) provides: every score is then a real, every exponential a positive real, the normaliser at least one.

  The frames: each program's run is a chain of segments (a reshape, the three regions, a reshape) over the contents
  of every unscoped buffer, and no segment writes an argument. The attention region's query, key and value windows
  read one array, whose buffer is split along its share among them at the region's entry and joined at its exit.
  The ideal pass rewrote nothing, so the idealized kernel is the kernel's own text read on the extended reals.
-/
import proofs.«176267_j6640019439658_2_alg».proof.Defs
import proofs.«176267_j6640019439658_2_alg».proof.Proof.Gen.Kernel
import proofs.«176267_j6640019439658_2_alg».proof.Proof.Gen.KernelIdeal
import proofs.«176267_j6640019439658_2_alg».proof.Proof.Gen.ReferenceIdeal
import proofs.«176267_j6640019439658_2_alg».proof.Proof.Gen.Pre_finite_inputs
import proofs.«176267_j6640019439658_2_alg».proof.Proof.KB.Walk
import proofs.«176267_j6640019439658_2_alg».proof.Proof.KI.Value
import proofs.«176267_j6640019439658_2_alg».proof.Proof.KVal.AttnArr
import proofs.«176267_j6640019439658_2_alg».proof.Proof.KVal.AttnCacheArr
import proofs.«176267_j6640019439658_2_alg».proof.Proof.RefSide
import Idealize.ShloMosaic.Adequacy
import Idealize.ShloMosaic.Init

noncomputable section

namespace Cert.Proof

open Idealize.ShloMosaic Idealize.ShloMosaic.TcCoe Idealize.SL.Sem

/-- The word-level program runs and leaves its arguments as launched: its run ends with every unscoped buffer at the
    last boundary's contents, which at an argument are the launch contents. -/
theorem frame_k : Cert.frame_Kernel := fun m ρ _ =>
  (θ_run (Cert.Kernel.defs (F := Bits)) _ _).mono
    (fun r h c =>
      ⟨(h c _ (Cert.Kernel.Hand.mem_uc Cert.Kernel.main_arg0 (by decide))).trans (Cert.Kernel.Hand.W5_arg0 m ρ c),
       (h c _ (Cert.Kernel.Hand.mem_uc Cert.Kernel.main_arg1 (by decide))).trans (Cert.Kernel.Hand.W5_arg1 m ρ c),
       (h c _ (Cert.Kernel.Hand.mem_uc Cert.Kernel.main_arg2 (by decide))).trans (Cert.Kernel.Hand.W5_arg2 m ρ c),
       (h c _ (Cert.Kernel.Hand.mem_uc Cert.Kernel.main_arg3 (by decide))).trans (Cert.Kernel.Hand.W5_arg3 m ρ c),
       (h c _ (Cert.Kernel.Hand.mem_uc Cert.Kernel.main_arg4 (by decide))).trans (Cert.Kernel.Hand.W5_arg4 m ρ c)⟩)
    (Cert.Kernel.Hand.run_main (F := Bits) m ρ)

/-- The same of the idealized kernel. -/
theorem frame_ki : Cert.frame_KernelIdeal := fun m ρ _ =>
  (θ_run (Cert.KernelIdeal.defs (F := Ideal)) _ _).mono
    (fun r h c =>
      ⟨(h c _ (Cert.KernelIdeal.Hand.mem_uc Cert.KernelIdeal.main_arg0 (by decide))).trans (Cert.KernelIdeal.Hand.W5_arg0 m ρ c),
       (h c _ (Cert.KernelIdeal.Hand.mem_uc Cert.KernelIdeal.main_arg1 (by decide))).trans (Cert.KernelIdeal.Hand.W5_arg1 m ρ c),
       (h c _ (Cert.KernelIdeal.Hand.mem_uc Cert.KernelIdeal.main_arg2 (by decide))).trans (Cert.KernelIdeal.Hand.W5_arg2 m ρ c),
       (h c _ (Cert.KernelIdeal.Hand.mem_uc Cert.KernelIdeal.main_arg3 (by decide))).trans (Cert.KernelIdeal.Hand.W5_arg3 m ρ c),
       (h c _ (Cert.KernelIdeal.Hand.mem_uc Cert.KernelIdeal.main_arg4 (by decide))).trans (Cert.KernelIdeal.Hand.W5_arg4 m ρ c)⟩)
    (Cert.KernelIdeal.Hand.run_main (F := Ideal) m ρ)

/-- The reference is host operations only: its run with the results dropped. -/
theorem frame_ri : Cert.frame_ReferenceIdeal := fun m ρ _ =>
  (θ_run (Cert.ReferenceIdeal.defs (F := Ideal)) _ _).mono (fun _ h c => (h c).2.2.2) (Cert.RefSide.run m ρ)

/-- The ideal pass rewrote no operation. -/
theorem preserves : Cert.preserves_Kernel_KernelIdeal := trivial

/-- The idealized kernel's run with its three results named: the reference's functions of the launch contents
    (the regions' values composed, and the two arrangements of the softmax equal on finite inputs). -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
            = Cert.RefSide.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v2_1)
            = Cert.RefSide.refK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v2_2)
            = Cert.RefSide.refV (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono
    (fun r h c =>
      ⟨(h c _ (Cert.KernelIdeal.Hand.mem_uc Cert.KernelIdeal.main_v4 (by decide))).trans (Cert.Alg.kernel_value m ρ hpre (fun V c => Cert.KVal.Attn.attn_final V c) (fun V c => Cert.KVal.Attn.keys_final V c) (fun V c => Cert.KVal.Attn.vals_final V c) c).1,
       (h c _ (Cert.KernelIdeal.Hand.mem_uc Cert.KernelIdeal.main_v2_1 (by decide))).trans (Cert.Alg.kernel_value m ρ hpre (fun V c => Cert.KVal.Attn.attn_final V c) (fun V c => Cert.KVal.Attn.keys_final V c) (fun V c => Cert.KVal.Attn.vals_final V c) c).2.1,
       (h c _ (Cert.KernelIdeal.Hand.mem_uc Cert.KernelIdeal.main_v2_2 (by decide))).trans (Cert.Alg.kernel_value m ρ hpre (fun V c => Cert.KVal.Attn.attn_final V c) (fun V c => Cert.KVal.Attn.keys_final V c) (fun V c => Cert.KVal.Attn.vals_final V c) c).2.2,
       (h c _ (Cert.KernelIdeal.Hand.mem_uc Cert.KernelIdeal.main_arg0 (by decide))).trans (Cert.KernelIdeal.Hand.W5_arg0 m ρ c),
       (h c _ (Cert.KernelIdeal.Hand.mem_uc Cert.KernelIdeal.main_arg1 (by decide))).trans (Cert.KernelIdeal.Hand.W5_arg1 m ρ c),
       (h c _ (Cert.KernelIdeal.Hand.mem_uc Cert.KernelIdeal.main_arg2 (by decide))).trans (Cert.KernelIdeal.Hand.W5_arg2 m ρ c),
       (h c _ (Cert.KernelIdeal.Hand.mem_uc Cert.KernelIdeal.main_arg3 (by decide))).trans (Cert.KernelIdeal.Hand.W5_arg3 m ρ c),
       (h c _ (Cert.KernelIdeal.Hand.mem_uc Cert.KernelIdeal.main_arg4 (by decide))).trans (Cert.KernelIdeal.Hand.W5_arg4 m ρ c)⟩)
    (Cert.KernelIdeal.Hand.run_main (F := Ideal) m ρ)

/-- From memories agreeing on the arguments both programs end with the same three results: the kernel's run names
    them as the reference's functions of its launch contents, and the reference's run of the agreeing contents. -/
theorem algebraic : Cert.algebraic_KernelIdeal_ReferenceIdeal := by
  intro m ρ m' ρ' hpre hagree
  refine ⟨_, _, _, kernel_run m ρ hpre, ?_⟩
  refine (θ_run (Cert.ReferenceIdeal.defs (F := Ideal)) _ _).mono (fun r h c => ?_) (Cert.RefSide.run m' ρ')
  have hr := h c
  refine ⟨hr.1.trans ?_, hr.2.1.trans ?_, hr.2.2.1.trans ?_, hr.2.2.2⟩
  · rw [(hagree c).1, (hagree c).2.1, (hagree c).2.2.1, (hagree c).2.2.2.1, (hagree c).2.2.2.2]
  · rw [(hagree c).1, (hagree c).2.1, (hagree c).2.2.2.1]
  · rw [(hagree c).1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
